-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2 : Shape := ⟨2, ![4096, 2]⟩
abbrev S16x1024x512 : Shape := ⟨3, ![16, 1024, 512]⟩
abbrev S16x512x1024 : Shape := ⟨3, ![16, 512, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S16x1024x512 : S_.BroadcastsInDim S16x1024x512 (![] : Fin 0 → Fin S16x1024x512.rank)
  reducesTo_S16x1024x512_S_d0_1_2 : S16x1024x512.ReducesTo [0, 1, 2] S_
  bcast_S_S16x512x1024 : S_.BroadcastsInDim S16x512x1024 (![] : Fin 0 → Fin S16x512x1024.rank)
  reducesTo_S16x512x1024_S_d0_1_2 : S16x512x1024.ReducesTo [0, 1, 2] S_

variable [Facts]

def fn_part1 {F : FTy → Type} [FloatOps F] (main_arg1 : IVec S4096x2 32) (main_arg5 : FVec F S16x512x1024 .f32) (main_v13 : IVec S_ 1) (main_v16 : IVec S16x1024x512 1) : IVec S_ 1 :=
  let main_c_5 : IVec S_ 1 := constantI S_ 1 1#1
  let main_v17 : IVec S_ 1 := (fun x v => Host.reduce IntOp.andi x v reducesTo_S16x1024x512_S_d0_1_2 h_S_) main_v16 main_c_5
  let main_v18 : IVec S_ 1 := andi main_v13 main_v17
  let main_v19 : FVec F S16x512x1024 .f32 := Host.absf main_arg5
  let main_cst_6 : FVec F S_ .f32 := constant S_ .f32 0x7F800000#32
  let main_v20 : FVec F S16x512x1024 .f32 := broadcastInDim S16x512x1024 ![] bcast_S_S16x512x1024 main_cst_6
  let main_v21 : IVec S16x512x1024 1 := cmpf .olt main_v19 main_v20
  let main_c_7 : IVec S_ 1 := constantI S_ 1 1#1
  let main_v22 : IVec S_ 1 := (fun x v => Host.reduce IntOp.andi x v reducesTo_S16x512x1024_S_d0_1_2 h_S_) main_v21 main_c_7
  let main_v23 : IVec S_ 1 := andi main_v18 main_v22
  let main_c_8 : IVec S_ 32 := constantI S_ 32 0#32
  let main_v24 : IVec S4096x2 32 := broadcastInDim S4096x2 ![] bcast_S_S4096x2 main_c_8
  let main_v25 : IVec S4096x2 1 := cmpi .sge main_arg1 main_v24
  let main_c_9 : IVec S_ 32 := constantI S_ 32 16#32
  let main_v26 : IVec S4096x2 32 := broadcastInDim S4096x2 ![] bcast_S_S4096x2 main_c_9
  let main_v27 : IVec S4096x2 1 := cmpi .slt main_arg1 main_v26
  let main_v28 : IVec S4096x2 1 := andi main_v25 main_v27
  let main_c_10 : IVec S_ 1 := constantI S_ 1 1#1
  let main_v29 : IVec S_ 1 := (fun x v => Host.reduce IntOp.andi x v reducesTo_S4096x2_S_d0_1 h_S_) main_v28 main_c_10
  let main_v30 : IVec S_ 1 := andi main_v23 main_v29
  main_v30

def fn {F : FTy → Type} [FloatOps F] (main_arg0 : FVec F S4096x1024 .f32) (main_arg1 : IVec S4096x2 32) (main_arg2 : FVec F S4096x2 .f32) (main_arg3 : FVec F S16x1024x512 .f32) (main_arg4 : FVec F S16x1024x512 .f32) (main_arg5 : FVec F S16x512x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2 .f32 := Host.absf main_arg2
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S16x1024x512 .f32 := Host.absf main_arg3
  let main_cst_2 : FVec F S_ .f32 := constant S_ .f32 0x7F800000#32
  let main_v10 : FVec F S16x1024x512 .f32 := broadcastInDim S16x1024x512 ![] bcast_S_S16x1024x512 main_cst_2
  let main_v11 : IVec S16x1024x512 1 := cmpf .olt main_v9 main_v10
  let main_c_3 : IVec S_ 1 := constantI S_ 1 1#1
  let main_v12 : IVec S_ 1 := (fun x v => Host.reduce IntOp.andi x v reducesTo_S16x1024x512_S_d0_1_2 h_S_) main_v11 main_c_3
  let main_v13 : IVec S_ 1 := andi main_v8 main_v12
  let main_v14 : FVec F S16x1024x512 .f32 := Host.absf main_arg4
  let main_cst_4 : FVec F S_ .f32 := constant S_ .f32 0x7F800000#32
  let main_v15 : FVec F S16x1024x512 .f32 := broadcastInDim S16x1024x512 ![] bcast_S_S16x1024x512 main_cst_4
  let main_v16 : IVec S16x1024x512 1 := cmpf .olt main_v14 main_v15
  fn_part1 (F := F) main_arg1 main_arg5 main_v13 main_v16
-- ==== Kernel.lean ====
abbrev S4096x1024 : Shape := ⟨2, ![4096, 1024]⟩
abbrev S4096x2 : Shape := ⟨2, ![4096, 2]⟩
abbrev S16x1024x512 : Shape := ⟨3, ![16, 1024, 512]⟩
abbrev S16x512x1024 : Shape := ⟨3, ![16, 512, 1024]⟩
abbrev S8192 : Shape := ⟨1, ![8192]⟩
abbrev S_ : Shape := ⟨0, ![]⟩
abbrev S8192x1 : Shape := ⟨2, ![8192, 1]⟩
abbrev S16 : Shape := ⟨1, ![16]⟩
abbrev S32769x1024 : Shape := ⟨2, ![32769, 1024]⟩
abbrev S8192x1024 : Shape := ⟨2, ![8192, 1024]⟩
abbrev S32768x1024 : Shape := ⟨2, ![32768, 1024]⟩
abbrev S16x2048x1024 : Shape := ⟨3, ![16, 2048, 1024]⟩
abbrev S1x512x1024 : Shape := ⟨3, ![1, 512, 1024]⟩
abbrev S1x1024x512 : Shape := ⟨3, ![1, 1024, 512]⟩
abbrev S1 : Shape := ⟨1, ![1]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 159
  | .vmem => 10
  | .smem => 1
  | _ => 0

abbrev hbmTy0_0 (i : Nat) : BufTy := match i % 128 with
  | 0 => ⟨S4096x1024, .f32⟩
  | 1 => ⟨S4096x2, .i32⟩
  | 2 => ⟨S4096x2, .f32⟩
  | 3 => ⟨S16x1024x512, .f32⟩
  | 4 => ⟨S16x1024x512, .f32⟩
  | 5 => ⟨S16x512x1024, .f32⟩
  | 6 => ⟨S8192, .i32⟩
  | 7 => ⟨S8192, .f32⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192, .f32⟩
  | 57 => ⟨S_, .i32⟩
  | 58 => ⟨S16, .i32⟩
  | 59 => ⟨S_, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S_, .i32⟩
  | 72 => ⟨S8192, .i32⟩
  | 73 => ⟨S16, .i32⟩
  | 74 => ⟨S_, .i32⟩
  | 75 => ⟨S_, .i32⟩
  | 76 => ⟨S16, .i32⟩
  | 77 => ⟨S16, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S_, .i32⟩
  | 97 => ⟨S_, .i32⟩
  | 98 => ⟨S8192, .i32⟩
  | 99 => ⟨S8192, .i32⟩
  | 100 => ⟨S_, .i32⟩
  | 101 => ⟨S16, .i32⟩
  | 102 => ⟨S4096x1024, .bf16⟩
  | 103 => ⟨S_, .bf16⟩
  | 104 => ⟨S32769x1024, .bf16⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x1024, .bf16⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S32769x1024, .bf16⟩
  | 123 => ⟨S32768x1024, .bf16⟩
  | 124 => ⟨S16x2048x1024, .bf16⟩
  | 125 => ⟨S16x1024x512, .bf16⟩
  | 126 => ⟨S16x1024x512, .bf16⟩
  | 127 => ⟨S16x512x1024, .bf16⟩
  | _ => ⟨S4096x1024, .f32⟩

abbrev hbmTy0_1 (i : Nat) : BufTy := match i % 128 with
  | 0 => ⟨S16x2048x1024, .bf16⟩
  | 1 => ⟨S32768x1024, .bf16⟩
  | 2 => ⟨S_, .i32⟩
  | 3 => ⟨S8192, .i32⟩
  | 4 => ⟨S8192, .i32⟩
  | 5 => ⟨S_, .i32⟩
  | 6 => ⟨S8192, .i32⟩
  | 7 => ⟨S8192, .i1⟩
  | 8 => ⟨S_, .i32⟩
  | 9 => ⟨S8192, .i32⟩
  | 10 => ⟨S8192, .i32⟩
  | 11 => ⟨S8192, .i32⟩
  | 12 => ⟨S8192x1, .i32⟩
  | 13 => ⟨S8192x1024, .bf16⟩
  | 14 => ⟨S8192x1024, .f32⟩
  | 15 => ⟨S8192, .f32⟩
  | 16 => ⟨S8192, .f32⟩
  | 17 => ⟨S8192x1, .f32⟩
  | 18 => ⟨S8192x1024, .f32⟩
  | 19 => ⟨S8192x1024, .f32⟩
  | 20 => ⟨S_, .f32⟩
  | 21 => ⟨S4096x1024, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S1x512x1024, .bf16⟩
  | .local _ .vmem, ⟨1, _⟩ => ⟨S1x512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .smem, ⟨0, _⟩ => ⟨S16, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_call1_v0 : Ref sig .tc := ⟨.hbm, 27, rfl⟩
abbrev main_call1_v1_0 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_v27 : Ref sig .tc := ⟨.hbm, 62, rfl⟩
abbrev main_c_8 : Ref sig .tc := ⟨.hbm, 63, rfl⟩
abbrev main_v28 : Ref sig .tc := ⟨.hbm, 64, rfl⟩
abbrev main_v29 : Ref sig .tc := ⟨.hbm, 65, rfl⟩
abbrev main_c_9 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_10 : Ref sig .tc := ⟨.hbm, 71, rfl⟩
abbrev main_v34 : Ref sig .tc := ⟨.hbm, 72, rfl⟩
abbrev main_v35 : Ref sig .tc := ⟨.hbm, 73, rfl⟩
abbrev main_call3_call0_c : Ref sig .tc := ⟨.hbm, 74, rfl⟩
abbrev main_call3_call0_v0 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_11 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_c_13 : Ref sig .tc := ⟨.hbm, 89, rfl⟩
abbrev main_v47 : Ref sig .tc := ⟨.hbm, 90, rfl⟩
abbrev main_v48 : Ref sig .tc := ⟨.hbm, 91, rfl⟩
abbrev main_c_14 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_15 : Ref sig .tc := ⟨.hbm, 96, rfl⟩
abbrev main_call4_v0 : Ref sig .tc := ⟨.hbm, 97, rfl⟩
abbrev main_call4_v1 : Ref sig .tc := ⟨.hbm, 98, rfl⟩
abbrev main_v52 : Ref sig .tc := ⟨.hbm, 99, rfl⟩
abbrev main_c_16 : Ref sig .tc := ⟨.hbm, 100, rfl⟩
abbrev main_v53 : Ref sig .tc := ⟨.hbm, 101, rfl⟩
abbrev main_v55 : Ref sig .tc := ⟨.hbm, 102, rfl⟩
abbrev main_cst : Ref sig .tc := ⟨.hbm, 103, rfl⟩
abbrev main_v56 : Ref sig .tc := ⟨.hbm, 104, rfl⟩
abbrev main_c_17 : Ref sig .tc := ⟨.hbm, 105, rfl⟩
abbrev main_v57 : Ref sig .tc := ⟨.hbm, 106, rfl⟩
abbrev main_v58 : Ref sig .tc := ⟨.hbm, 107, rfl⟩
abbrev main_c_18 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_c_19 : Ref sig .tc := ⟨.hbm, 114, rfl⟩
abbrev main_v64 : Ref sig .tc := ⟨.hbm, 115, rfl⟩
abbrev main_v65 : Ref sig .tc := ⟨.hbm, 116, rfl⟩
abbrev main_c_20 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_21 : Ref sig .tc := ⟨.hbm, 130, rfl⟩
abbrev main_v78 : Ref sig .tc := ⟨.hbm, 131, rfl⟩
abbrev main_v79 : Ref sig .tc := ⟨.hbm, 132, rfl⟩
abbrev main_c_22 : Ref sig .tc := ⟨.hbm, 133, rfl⟩
abbrev main_v80 : Ref sig .tc := ⟨.hbm, 134, rfl⟩
abbrev main_v81 : Ref sig .tc := ⟨.hbm, 135, rfl⟩
abbrev main_c_23 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_cst_24 : Ref sig .tc := ⟨.hbm, 148, rfl⟩
abbrev main_v93 : Ref sig .tc := ⟨.hbm, 149, rfl⟩
abbrev main_c_25 : Ref sig .tc := ⟨.hbm, 150, rfl⟩
abbrev main_v94 : Ref sig .tc := ⟨.hbm, 151, rfl⟩
abbrev main_v95 : Ref sig .tc := ⟨.hbm, 152, rfl⟩
abbrev main_c_26 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v54 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_v54.idx], fun | 0 => main_v54.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_cond1 (i : grid0.Coords) (v2 : BitVec 32) : BitVec 1 :=
  let arg1 : BitVec 32 := BitVec.ofNat 32 (i 1).val
  let c512_i32 : BitVec 32 := 512#32
  let v0 : BitVec 32 := Scalar.muli arg1 c512_i32
  let v3 : BitVec 1 := Scalar.cmpi .slt v0 v2
  let v4 : BitVec 32 := Scalar.extui v3
  let c0_i32 : BitVec 32 := 0#32
  let v5 : BitVec 1 := Scalar.cmpi .ne v4 c0_i32
  v5

def k0_cond2 (i : grid0.Coords) (v2 : BitVec 32) : BitVec 1 :=
  let arg1 : BitVec 32 := BitVec.ofNat 32 (i 1).val
  let c512_i32 : BitVec 32 := 512#32
  let v0 : BitVec 32 := Scalar.muli arg1 c512_i32
  let v3 : BitVec 1 := Scalar.cmpi .slt v0 v2
  let v_true : BitVec 1 := 1#1
  let v6 : BitVec 1 := Scalar.xori v3 v_true
  let v7 : BitVec 32 := Scalar.extui v6
  let c0_i32_0 : BitVec 32 := 0#32
  let v8 : BitVec 1 := Scalar.cmpi .ne v7 c0_i32_0
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4096x2_S8192 : S4096x2.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bitsLt_bf16_f32 : FTy.bits .bf16 < FTy.bits .f32
  bcast_S_S32769x1024 : S_.BroadcastsInDim S32769x1024 (![] : Fin 0 → Fin S32769x1024.rank)
  slices_S32769x1024_S32768x1024_0_0 : S32769x1024.Slices ![0, 0] S32768x1024
  shapeCasts_S32768x1024_S16x2048x1024 : S32768x1024.ShapeCasts S16x2048x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  shapeCasts_S16x2048x1024_S32768x1024 : S16x2048x1024.ShapeCasts S32768x1024
  bcast_S8192x1_S8192x1024_0_1 : S8192x1.BroadcastsInDim S8192x1024 (![0, 1] : Fin 2 → Fin S8192x1024.rank)
  bcast_S_S4096x1024 : S_.BroadcastsInDim S4096x1024 (![] : Fin 0 → Fin S4096x1024.rank)
  gather_S8192_S8192x1_S8192_n_0_n_n_0_1_1_wf : GatherDims.WF S8192 S8192x1 S8192 [] [0] [] [0] [] 1 ![1]
  scatter_S16_S8192x1_S8192_n_0_0_1_wf : ScatterDims.WF S16 S8192x1 S8192 [] [0] [0] 1
  gather_S16_S8192x1_S8192_n_0_n_n_0_1_1_wf : GatherDims.WF S16 S8192x1 S8192 [] [0] [] [0] [] 1 ![1]
  gather_S4096x1024_S8192x1_S8192x1024_1_0_n_n_0_1_11024_wf : GatherDims.WF S4096x1024 S8192x1 S8192x1024 [1] [0] [] [0] [] 1 ![1, 1024]
  scatter_S32769x1024_S8192x1_S8192x1024_1_0_0_1_wf : ScatterDims.WF S32769x1024 S8192x1 S8192x1024 [1] [0] [0] 1
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  gather_S32768x1024_S8192x1_S8192x1024_1_0_n_n_0_1_11024_wf : GatherDims.WF S32768x1024 S8192x1 S8192x1024 [1] [0] [] [0] [] 1 ![1, 1024]
  scatter_S4096x1024_S8192x1_S8192x1024_1_0_0_1_wf : ScatterDims.WF S4096x1024 S8192x1 S8192x1024 [1] [0] [0] 1
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .bf16 = 32 ∨ (Rect.block (s := S16x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .bf16 = 32 ∨ (Rect.block (s := S16x1024x512) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S16x1024x512.size a
  hwx0_2 : ∀ i : grid0.Coords, EltTy.bits .bf16 = 32 ∨ (Rect.block (s := S16x1024x512) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S16x512x1024.size a
  hwx0_3 : ∀ i : grid0.Coords, EltTy.bits .bf16 = 32 ∨ (Rect.block (s := S16x512x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S16x2048x1024.size a
  hwx0_4 : ∀ i : grid0.Coords, EltTy.bits .bf16 = 32 ∨ (Rect.block (s := S16x2048x1024) S1x512x1024.size (cc0_transform_4 i) (hinb0_4 i)).WholeWords (EltTy.packing .bf16)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S16_S8192x1_S8192_n_0_0_1 : ScatterDims S16 S8192x1 S8192 where
  updateWindowDims := []
  insertedWindowDims := [0]
  scatterDimsToOperandDims := [0]
  indexVectorDim := 1
  wf := scatter_S16_S8192x1_S8192_n_0_0_1_wf
def gather_S16_S8192x1_S8192_n_0_n_n_0_1_1 : GatherDims S16 S8192x1 S8192 where
  offsetDims := []
  collapsedSliceDims := [0]
  operandBatchingDims := []
  startIndicesBatchingDims := []
  startIndexMap := [0]
  indexVectorDim := 1
  sliceSizes := ![1]
  wf := gather_S16_S8192x1_S8192_n_0_n_n_0_1_1_wf
def gather_S4096x1024_S8192x1_S8192x1024_1_0_n_n_0_1_11024 : GatherDims S4096x1024 S8192x1 S8192x1024 where
  offsetDims := [1]
  collapsedSliceDims := [0]
  operandBatchingDims := []
  startIndicesBatchingDims := []
  startIndexMap := [0]
  indexVectorDim := 1
  sliceSizes := ![1, 1024]
  wf := gather_S4096x1024_S8192x1_S8192x1024_1_0_n_n_0_1_11024_wf
def scatter_S32769x1024_S8192x1_S8192x1024_1_0_0_1 : ScatterDims S32769x1024 S8192x1 S8192x1024 where
  updateWindowDims := [1]
  insertedWindowDims := [0]
  scatterDimsToOperandDims := [0]
  indexVectorDim := 1
  wf := scatter_S32769x1024_S8192x1_S8192x1024_1_0_0_1_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def gather_S32768x1024_S8192x1_S8192x1024_1_0_n_n_0_1_11024 : GatherDims S32768x1024 S8192x1 S8192x1024 where
  offsetDims := [1]
  collapsedSliceDims := [0]
  operandBatchingDims := []
  startIndicesBatchingDims := []
  startIndexMap := [0]
  indexVectorDim := 1
  sliceSizes := ![1, 1024]
  wf := gather_S32768x1024_S8192x1_S8192x1024_1_0_n_n_0_1_11024_wf
def scatter_S4096x1024_S8192x1_S8192x1024_1_0_0_1 : ScatterDims S4096x1024 S8192x1 S8192x1024 where
  updateWindowDims := [1]
  insertedWindowDims := [0]
  scatterDimsToOperandDims := [0]
  indexVectorDim := 1
  wf := scatter_S4096x1024_S8192x1_S8192x1024_1_0_0_1_wf

abbrev spec0_0 : Pipeline.WinSpec sig grid0.rank :=
  Pipeline.WinSpec.ofSpec (Memref.whole main_v72) S1x512x1024.size reads0_0 false false 2 stage0_0 sem0_0 nbuf0_0 hstage0_0

abbrev spec0_1 : Pipeline.WinSpec sig grid0.rank :=
  Pipeline.WinSpec.ofSpec (Memref.whole main_v73) S1x1024x512.size reads0_1 false false 2 stage0_1 sem0_1 nbuf0_1 hstage0_1

abbrev spec0_2 : Pipeline.WinSpec sig grid0.rank :=
  Pipeline.WinSpec.ofSpec (Memref.whole main_v74) S1x1024x512.size reads0_2 false false 2 stage0_2 sem0_2 nbuf0_2 hstage0_2

abbrev spec0_3 : Pipeline.WinSpec sig grid0.rank :=
  Pipeline.WinSpec.ofSpec (Memref.whole main_v75) S1x512x1024.size reads0_3 false false 2 stage0_3 sem0_3 nbuf0_3 hstage0_3

abbrev spec0_4 : Pipeline.WinSpec sig grid0.rank :=
  Pipeline.WinSpec.ofSpec (Memref.whole main_v76) S1x512x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))
abbrev idle0 (pf : pre0.Contents (Elt F)) : Fin 5 → grid0.Coords → Bool := fun | 0 => fun _ => false | 1 => fun _ => false | 2 => fun _ => false | 3 => fun _ => false | 4 => fun i => !(k0_cond1 i (pf.atD 0 (k0_off1 i)) == 1#1) && !(k0_cond2 i (pf.atD 0 (k0_off1 i)) == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S4096x1024 : Shape := ⟨2, ![4096, 1024]⟩
abbrev S4096x2 : Shape := ⟨2, ![4096, 2]⟩
abbrev S16x1024x512 : Shape := ⟨3, ![16, 1024, 512]⟩
abbrev S16x512x1024 : Shape := ⟨3, ![16, 512, 1024]⟩
abbrev S8192 : Shape := ⟨1, ![8192]⟩
abbrev S_ : Shape := ⟨0, ![]⟩
abbrev S8192x1 : Shape := ⟨2, ![8192, 1]⟩
abbrev S16 : Shape := ⟨1, ![16]⟩
abbrev S32769x1024 : Shape := ⟨2, ![32769, 1024]⟩
abbrev S8192x1024 : Shape := ⟨2, ![8192, 1024]⟩
abbrev S32768x1024 : Shape := ⟨2, ![32768, 1024]⟩
abbrev S16x2048x1024 : Shape := ⟨3, ![16, 2048, 1024]⟩
abbrev S16x2048x512 : Shape := ⟨3, ![16, 2048, 512]⟩

abbrev nBuf : Space → Nat
  | .hbm => 164
  | .vmem => 0
  | .smem => 0
  | _ => 0

abbrev hbmTy0_0 (i : Nat) : BufTy := match i % 128 with
  | 0 => ⟨S4096x1024, .f32⟩
  | 1 => ⟨S4096x2, .i32⟩
  | 2 => ⟨S4096x2, .f32⟩
  | 3 => ⟨S16x1024x512, .f32⟩
  | 4 => ⟨S16x1024x512, .f32⟩
  | 5 => ⟨S16x512x1024, .f32⟩
  | 6 => ⟨S8192, .i32⟩
  | 7 => ⟨S8192, .f32⟩
  | 8 => ⟨S8192, .i32⟩
  | 9 => ⟨S_, .i32⟩
  | 10 => ⟨S_, .i32⟩
  | 11 => ⟨S8192, .i32⟩
  | 12 => ⟨S8192, .i32⟩
  | 13 => ⟨S8192, .i32⟩
  | 14 => ⟨S_, .i32⟩
  | 15 => ⟨S8192, .i32⟩
  | 16 => ⟨S8192, .i1⟩
  | 17 => ⟨S8192, .i32⟩
  | 18 => ⟨S8192, .i32⟩
  | 19 => ⟨S_, .i32⟩
  | 20 => ⟨S8192, .i32⟩
  | 21 => ⟨S8192, .i1⟩
  | 22 => ⟨S8192, .i1⟩
  | 23 => ⟨S_, .i32⟩
  | 24 => ⟨S8192, .i32⟩
  | 25 => ⟨S8192, .i32⟩
  | 26 => ⟨S8192, .i32⟩
  | 27 => ⟨S8192, .i32⟩
  | 28 => ⟨S8192, .i32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192, .i32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192, .f32⟩
  | 57 => ⟨S_, .i32⟩
  | 58 => ⟨S16, .i32⟩
  | 59 => ⟨S_, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S_, .i32⟩
  | 72 => ⟨S8192, .i32⟩
  | 73 => ⟨S16, .i32⟩
  | 74 => ⟨S_, .i32⟩
  | 75 => ⟨S_, .i32⟩
  | 76 => ⟨S16, .i32⟩
  | 77 => ⟨S16, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192, .i32⟩
  | 88 => ⟨S8192, .i32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S_, .i32⟩
  | 97 => ⟨S_, .i32⟩
  | 98 => ⟨S8192, .i32⟩
  | 99 => ⟨S8192, .i32⟩
  | 100 => ⟨S_, .f32⟩
  | 101 => ⟨S32769x1024, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x1024, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S32769x1024, .f32⟩
  | 120 => ⟨S32768x1024, .f32⟩
  | 121 => ⟨S16x2048x1024, .f32⟩
  | 122 => ⟨S16x2048x512, .f32⟩
  | 123 => ⟨S16x2048x512, .f32⟩
  | 124 => ⟨S16x2048x512, .f32⟩
  | 125 => ⟨S_, .f32⟩
  | 126 => ⟨S16x2048x512, .f32⟩
  | 127 => ⟨S16x2048x512, .f32⟩
  | _ => ⟨S4096x1024, .f32⟩

abbrev hbmTy0_1 (i : Nat) : BufTy := match i % 128 with
  | 0 => ⟨S_, .f32⟩
  | 1 => ⟨S16x2048x512, .f32⟩
  | 2 => ⟨S16x2048x512, .f32⟩
  | 3 => ⟨S16x2048x512, .f32⟩
  | 4 => ⟨S16x2048x512, .f32⟩
  | 5 => ⟨S16x2048x512, .f32⟩
  | 6 => ⟨S16x2048x1024, .f32⟩
  | 7 => ⟨S32768x1024, .f32⟩
  | 8 => ⟨S_, .i32⟩
  | 9 => ⟨S8192, .i32⟩
  | 10 => ⟨S8192, .i32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x1024, .f32⟩
  | 20 => ⟨S8192, .f32⟩
  | 21 => ⟨S8192, .f32⟩
  | 22 => ⟨S8192x1, .f32⟩
  | 23 => ⟨S8192x1024, .f32⟩
  | 24 => ⟨S8192x1024, .f32⟩
  | 25 => ⟨S_, .f32⟩
  | 26 => ⟨S4096x1024, .f32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v3 : Ref sig .tc := ⟨.hbm, 26, rfl⟩
abbrev main_call1_v0 : Ref sig .tc := ⟨.hbm, 27, rfl⟩
abbrev main_call1_v1_0 : Ref sig .tc := ⟨.hbm, 28, rfl⟩
abbrev main_v4 : Ref sig .tc := ⟨.hbm, 29, rfl⟩
abbrev main_c_0 : Ref sig .tc := ⟨.hbm, 30, rfl⟩
abbrev main_v5 : Ref sig .tc := ⟨.hbm, 31, rfl⟩
abbrev main_v6 : Ref sig .tc := ⟨.hbm, 32, rfl⟩
abbrev main_c_1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_4 : Ref sig .tc := ⟨.hbm, 48, rfl⟩
abbrev main_v19 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_c_7 : Ref sig .tc := ⟨.hbm, 59, rfl⟩
abbrev main_call2_v0 : Ref sig .tc := ⟨.hbm, 60, rfl⟩
abbrev main_call2_v1 : Ref sig .tc := ⟨.hbm, 61, rfl⟩
abbrev main_v27 : Ref sig .tc := ⟨.hbm, 62, rfl⟩
abbrev main_c_8 : Ref sig .tc := ⟨.hbm, 63, rfl⟩
abbrev main_v28 : Ref sig .tc := ⟨.hbm, 64, rfl⟩
abbrev main_v29 : Ref sig .tc := ⟨.hbm, 65, rfl⟩
abbrev main_c_9 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_c_10 : Ref sig .tc := ⟨.hbm, 71, rfl⟩
abbrev main_v34 : Ref sig .tc := ⟨.hbm, 72, rfl⟩
abbrev main_v35 : Ref sig .tc := ⟨.hbm, 73, rfl⟩
abbrev main_call3_call0_c : Ref sig .tc := ⟨.hbm, 74, rfl⟩
abbrev main_call3_call0_v0 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_c_11 : Ref sig .tc := ⟨.hbm, 79, rfl⟩
abbrev main_v39 : Ref sig .tc := ⟨.hbm, 80, rfl⟩
abbrev main_v40 : Ref sig .tc := ⟨.hbm, 81, rfl⟩
abbrev main_c_12 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_c_13 : Ref sig .tc := ⟨.hbm, 89, rfl⟩
abbrev main_v47 : Ref sig .tc := ⟨.hbm, 90, rfl⟩
abbrev main_v48 : Ref sig .tc := ⟨.hbm, 91, rfl⟩
abbrev main_c_14 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_c_15 : Ref sig .tc := ⟨.hbm, 96, rfl⟩
abbrev main_call4_v0 : Ref sig .tc := ⟨.hbm, 97, rfl⟩
abbrev main_call4_v1 : Ref sig .tc := ⟨.hbm, 98, rfl⟩
abbrev main_v52 : Ref sig .tc := ⟨.hbm, 99, rfl⟩
abbrev main_cst : Ref sig .tc := ⟨.hbm, 100, rfl⟩
abbrev main_v53 : Ref sig .tc := ⟨.hbm, 101, rfl⟩
abbrev main_c_16 : Ref sig .tc := ⟨.hbm, 102, rfl⟩
abbrev main_v54 : Ref sig .tc := ⟨.hbm, 103, rfl⟩
abbrev main_v55 : Ref sig .tc := ⟨.hbm, 104, rfl⟩
abbrev main_c_17 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_18 : Ref sig .tc := ⟨.hbm, 111, rfl⟩
abbrev main_v61 : Ref sig .tc := ⟨.hbm, 112, rfl⟩
abbrev main_v62 : Ref sig .tc := ⟨.hbm, 113, rfl⟩
abbrev main_c_19 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_call5_v0 : Ref sig .tc := ⟨.hbm, 123, rfl⟩
abbrev main_call5_v1 : Ref sig .tc := ⟨.hbm, 124, rfl⟩
abbrev main_call5_cst : Ref sig .tc := ⟨.hbm, 125, rfl⟩
abbrev main_call5_v2 : Ref sig .tc := ⟨.hbm, 126, rfl⟩
abbrev main_call5_v3 : Ref sig .tc := ⟨.hbm, 127, rfl⟩
abbrev main_call5_cst_0 : Ref sig .tc := ⟨.hbm, 128, rfl⟩
abbrev main_call5_v4 : Ref sig .tc := ⟨.hbm, 129, rfl⟩
abbrev main_call5_v5 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_c_20 : Ref sig .tc := ⟨.hbm, 136, rfl⟩
abbrev main_v76 : Ref sig .tc := ⟨.hbm, 137, rfl⟩
abbrev main_v77 : Ref sig .tc := ⟨.hbm, 138, rfl⟩
abbrev main_c_21 : Ref sig .tc := ⟨.hbm, 139, rfl⟩
abbrev main_v78 : Ref sig .tc := ⟨.hbm, 140, rfl⟩
abbrev main_v79 : Ref sig .tc := ⟨.hbm, 141, rfl⟩
abbrev main_c_22 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_23 : Ref sig .tc := ⟨.hbm, 153, rfl⟩
abbrev main_v90 : Ref sig .tc := ⟨.hbm, 154, rfl⟩
abbrev main_c_24 : Ref sig .tc := ⟨.hbm, 155, rfl⟩
abbrev main_v91 : Ref sig .tc := ⟨.hbm, 156, rfl⟩
abbrev main_v92 : Ref sig .tc := ⟨.hbm, 157, rfl⟩
abbrev main_c_25 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩

abbrev nD : Nat := 1
abbrev τ : Topo := Topo.v7x

variable {F : FTy → Type} [FloatOps F]

class Facts₀ : Prop where
  shapeCasts_S4096x2_S8192 : S4096x2.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S16 : S_.BroadcastsInDim S16 (![] : Fin 0 → Fin S16.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  bcast_S_S32769x1024 : S_.BroadcastsInDim S32769x1024 (![] : Fin 0 → Fin S32769x1024.rank)
  slices_S32769x1024_S32768x1024_0_0 : S32769x1024.Slices ![0, 0] S32768x1024
  shapeCasts_S32768x1024_S16x2048x1024 : S32768x1024.ShapeCasts S16x2048x1024
  bcast_S_S16x2048x512 : S_.BroadcastsInDim S16x2048x512 (![] : Fin 0 → Fin S16x2048x512.rank)
  shapeCasts_S16x2048x1024_S32768x1024 : S16x2048x1024.ShapeCasts S32768x1024
  bcast_S8192x1_S8192x1024_0_1 : S8192x1.BroadcastsInDim S8192x1024 (![0, 1] : Fin 2 → Fin S8192x1024.rank)
  bcast_S_S4096x1024 : S_.BroadcastsInDim S4096x1024 (![] : Fin 0 → Fin S4096x1024.rank)
  gather_S8192_S8192x1_S8192_n_0_n_n_0_1_1_wf : GatherDims.WF S8192 S8192x1 S8192 [] [0] [] [0] [] 1 ![1]
  scatter_S16_S8192x1_S8192_n_0_0_1_wf : ScatterDims.WF S16 S8192x1 S8192 [] [0] [0] 1
  gather_S16_S8192x1_S8192_n_0_n_n_0_1_1_wf : GatherDims.WF S16 S8192x1 S8192 [] [0] [] [0] [] 1 ![1]
  gather_S4096x1024_S8192x1_S8192x1024_1_0_n_n_0_1_11024_wf : GatherDims.WF S4096x1024 S8192x1 S8192x1024 [1] [0] [] [0] [] 1 ![1, 1024]
  scatter_S32769x1024_S8192x1_S8192x1024_1_0_0_1_wf : ScatterDims.WF S32769x1024 S8192x1 S8192x1024 [1] [0] [0] 1
  dot_S16x2048x1024_S16x1024x512_S16x2048x512_2_1_1_2_0_0_wf : DotDims.WF S16x2048x1024 S16x1024x512 S16x2048x512 [2] [1] [1] [2] [0] [0]
  dot_S16x2048x512_S16x512x1024_S16x2048x1024_2_1_1_2_0_0_wf : DotDims.WF S16x2048x512 S16x512x1024 S16x2048x1024 [2] [1] [1] [2] [0] [0]
  gather_S32768x1024_S8192x1_S8192x1024_1_0_n_n_0_1_11024_wf : GatherDims.WF S32768x1024 S8192x1 S8192x1024 [1] [0] [] [0] [] 1 ![1, 1024]
  scatter_S4096x1024_S8192x1_S8192x1024_1_0_0_1_wf : ScatterDims.WF S4096x1024 S8192x1 S8192x1024 [1] [0] [0] 1

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S16_S8192x1_S8192_n_0_0_1 : ScatterDims S16 S8192x1 S8192 where
  updateWindowDims := []
  insertedWindowDims := [0]
  scatterDimsToOperandDims := [0]
  indexVectorDim := 1
  wf := scatter_S16_S8192x1_S8192_n_0_0_1_wf
def gather_S16_S8192x1_S8192_n_0_n_n_0_1_1 : GatherDims S16 S8192x1 S8192 where
  offsetDims := []
  collapsedSliceDims := [0]
  operandBatchingDims := []
  startIndicesBatchingDims := []
  startIndexMap := [0]
  indexVectorDim := 1
  sliceSizes := ![1]
  wf := gather_S16_S8192x1_S8192_n_0_n_n_0_1_1_wf
def gather_S4096x1024_S8192x1_S8192x1024_1_0_n_n_0_1_11024 : GatherDims S4096x1024 S8192x1 S8192x1024 where
  offsetDims := [1]
  collapsedSliceDims := [0]
  operandBatchingDims := []
  startIndicesBatchingDims := []
  startIndexMap := [0]
  indexVectorDim := 1
  sliceSizes := ![1, 1024]
  wf := gather_S4096x1024_S8192x1_S8192x1024_1_0_n_n_0_1_11024_wf
def scatter_S32769x1024_S8192x1_S8192x1024_1_0_0_1 : ScatterDims S32769x1024 S8192x1 S8192x1024 where
  updateWindowDims := [1]
  insertedWindowDims := [0]
  scatterDimsToOperandDims := [0]
  indexVectorDim := 1
  wf := scatter_S32769x1024_S8192x1_S8192x1024_1_0_0_1_wf
def dot_S16x2048x1024_S16x1024x512_S16x2048x512_2_1_1_2_0_0 : DotDims S16x2048x1024 S16x1024x512 S16x2048x512 where
  lhsContracting := [2]
  rhsContracting := [1]
  lhsNonContracting := [1]
  rhsNonContracting := [2]
  lhsBatch := [0]
  rhsBatch := [0]
  wf := dot_S16x2048x1024_S16x1024x512_S16x2048x512_2_1_1_2_0_0_wf
def dot_S16x2048x512_S16x512x1024_S16x2048x1024_2_1_1_2_0_0 : DotDims S16x2048x512 S16x512x1024 S16x2048x1024 where
  lhsContracting := [2]
  rhsContracting := [1]
  lhsNonContracting := [1]
  rhsNonContracting := [2]
  lhsBatch := [0]
  rhsBatch := [0]
  wf := dot_S16x2048x512_S16x512x1024_S16x2048x1024_2_1_1_2_0_0_wf
def gather_S32768x1024_S8192x1_S8192x1024_1_0_n_n_0_1_11024 : GatherDims S32768x1024 S8192x1 S8192x1024 where
  offsetDims := [1]
  collapsedSliceDims := [0]
  operandBatchingDims := []
  startIndicesBatchingDims := []
  startIndexMap := [0]
  indexVectorDim := 1
  sliceSizes := ![1, 1024]
  wf := gather_S32768x1024_S8192x1_S8192x1024_1_0_n_n_0_1_11024_wf
def scatter_S4096x1024_S8192x1_S8192x1024_1_0_0_1 : ScatterDims S4096x1024 S8192x1 S8192x1024 where
  updateWindowDims := [1]
  insertedWindowDims := [0]
  scatterDimsToOperandDims := [0]
  indexVectorDim := 1
  wf := scatter_S4096x1024_S8192x1_S8192x1024_1_0_0_1_wf

class Facts : Prop extends Facts₀ where

variable [Facts]
-- ==== Proof.RefOps.lean ====
import proofs.«122239_j24352464569736_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The host operations of window 0 of @main (82 of them), each outlined function's listed at its call. -/
abbrev ops0 : List (HloOp τ sig (Elt F)) :=
  [ StableHlo.reshape main_arg1 main_v0 rfl shapeCasts_S4096x2_S8192,
    StableHlo.reshape main_arg2 main_v1 rfl shapeCasts_S4096x2_S8192,
    StableHlo.nullary main_v2 (iotaInDim S8192 32 0),
    StableHlo.nullary main_c (constantI S_ 32 2#32),
    StableHlo.TRef.unary (.of main_c) main_call0.v0 id,
    StableHlo.TRef.unary main_call0.v0 main_call0.v1 (broadcastInDim S8192 ![] bcast_S_S8192),
    StableHlo.TRef.binary (.of main_v2) main_call0.v1 main_call0.v2 Host.divsi,
    StableHlo.TRef.unary (.of main_v2) main_call0.v3 signi,
    StableHlo.TRef.unary main_call0.v0 main_call0.v4 signi,
    StableHlo.TRef.unary main_call0.v4 main_call0.v5 (broadcastInDim S8192 ![] bcast_S_S8192),
    StableHlo.TRef.binary main_call0.v3 main_call0.v5 main_call0.v6 (cmpi .ne),
    StableHlo.TRef.unary main_call0.v0 main_call0.v7 (broadcastInDim S8192 ![] bcast_S_S8192),
    StableHlo.TRef.binary (.of main_v2) main_call0.v7 main_call0.v8 Host.remsi,
    StableHlo.TRef.nullary main_call0.c (constantI S_ 32 0#32),
    StableHlo.TRef.unary main_call0.c main_call0.v9 (broadcastInDim S8192 ![] bcast_S_S8192),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S8192 ![] bcast_S_S8192),
    StableHlo.TRef.binary main_call0.v2 main_call0.v12 main_call0.v13 subi,
    StableHlo.TRef.ternary main_call0.v11 main_call0.v13 main_call0.v2 main_call0.call0.v0 select,
    StableHlo.TRef.nullary main_call1.v0 (iotaInDim S8192 32 0),
    StableHlo.TRef.binary (.of main_v0) main_call1.v0 main_call1.v1_0 (fun x y => (Host.sort2 S8192 0 comparator_i32_i32_d0 x y).1),
    StableHlo.TRef.binary (.of main_v0) main_call1.v0 main_call1.v1_1 (fun x y => (Host.sort2 S8192 0 comparator_i32_i32_d0 x y).2),
    StableHlo.nullary main_c_0 (constantI S_ 32 0#32),
    StableHlo.unary main_c_0 main_v5 (broadcastInDim S8192 ![] bcast_S_S8192 : (⟨S_, .i32⟩ : BufTy).Contents (Elt F) → (⟨S8192, .i32⟩ : BufTy).Contents (Elt F)),
    StableHlo.binary main_v4 main_v5 main_v6 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 8192#32),
    StableHlo.unary main_c_1 main_v7 (broadcastInDim S8192 ![] bcast_S_S8192 : (⟨S_, .i32⟩ : BufTy).Contents (Elt F) → (⟨S8192, .i32⟩ : BufTy).Contents (Elt F)),
    StableHlo.binary main_v4 main_v7 main_v8 (addi : (⟨S8192, .i32⟩ : BufTy).Contents (Elt F) → (⟨S8192, .i32⟩ : BufTy).Contents (Elt F) → (⟨S8192, .i32⟩ : BufTy).Contents (Elt F)),
    StableHlo.ternary main_v6 main_v8 main_v4 main_v9 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v9 main_v10 (broadcastInDim S8192x1 ![0] bcast_S8192_S8192x1_0 : (⟨S8192, .i32⟩ : BufTy).Contents (Elt F) → (⟨S8192x1, .i32⟩ : BufTy).Contents (Elt F)),
    StableHlo.binary main_v0 main_v10 main_v11 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_2 (constantI S_ 32 0#32),
    StableHlo.unary main_c_2 main_v12 (broadcastInDim S8192 ![] bcast_S_S8192 : (⟨S_, .i32⟩ : BufTy).Contents (Elt F) → (⟨S8192, .i32⟩ : BufTy).Contents (Elt F)),
    StableHlo.binary main_v4 main_v12 main_v13 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v14 (broadcastInDim S8192 ![] bcast_S_S8192 : (⟨S_, .i32⟩ : BufTy).Contents (Elt F) → (⟨S8192, .i32⟩ : BufTy).Contents (Elt F)),
    StableHlo.binary main_v4 main_v14 main_v15 (addi : (⟨S8192, .i32⟩ : BufTy).Contents (Elt F) → (⟨S8192, .i32⟩ : BufTy).Contents (Elt F) → (⟨S8192, .i32⟩ : BufTy).Contents (Elt F)),
    StableHlo.ternary main_v13 main_v15 main_v4 main_v16 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v16 main_v17 (broadcastInDim S8192x1 ![0] bcast_S8192_S8192x1_0 : (⟨S8192, .i32⟩ : BufTy).Contents (Elt F) → (⟨S8192x1, .i32⟩ : BufTy).Contents (Elt F)),
    StableHlo.binary main_v3 main_v17 main_v18 ((fun x i => Host.gather gather_S8192_S8192x1_S8192_n_0_n_n_0_1_1 x i) : (⟨S8192, .i32⟩ : BufTy).Contents (Elt F) → (⟨S8192x1, .i32⟩ : BufTy).Contents (Elt F) → (⟨S8192, .i32⟩ : BufTy).Contents (Elt F)),
    StableHlo.nullary main_c_4 (constantI S_ 32 0#32),
    StableHlo.unary main_c_4 main_v19 (broadcastInDim S8192 ![] bcast_S_S8192 : (⟨S_, .i32⟩ : BufTy).Contents (Elt F) → (⟨S8192, .i32⟩ : BufTy).Contents (Elt F)),
    StableHlo.binary main_v4 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v21 (broadcastInDim S8192 ![] bcast_S_S8192 : (⟨S_, .i32⟩ : BufTy).Contents (Elt F) → (⟨S8192, .i32⟩ : BufTy).Contents (Elt F)),
    StableHlo.binary main_v4 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v4 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v24 (broadcastInDim S8192x1 ![0] bcast_S8192_S8192x1_0 : (⟨S8192, .i32⟩ : BufTy).Contents (Elt F) → (⟨S8192x1, .i32⟩ : BufTy).Contents (Elt F)),
    StableHlo.binary main_v1 main_v24 main_v25 ((fun x i => Host.gather gather_S8192_S8192x1_S8192_n_0_n_n_0_1_1 x i) : (⟨S8192, .f32⟩ : BufTy).Contents (Elt F) → (⟨S8192x1, .i32⟩ : BufTy).Contents (Elt F) → (⟨S8192, .f32⟩ : BufTy).Contents (Elt F)),
    StableHlo.nullary main_c_6 (constantI S_ 32 0#32),
    StableHlo.unary main_c_6 main_v26 (broadcastInDim S16 ![] bcast_S_S16 : (⟨S_, .i32⟩ : BufTy).Contents (Elt F) → (⟨S16, .i32⟩ : BufTy).Contents (Elt F)),
    StableHlo.nullary main_c_7 (constantI S_ 32 0#32),
    StableHlo.TRef.unary (.of main_c_7) main_call2.v0 id,
    StableHlo.TRef.unary main_call2.v0 main_call2.v1 (broadcastInDim S8192 ![] bcast_S_S8192),
    StableHlo.TRef.binary main_call2.v1 (.of main_v0) main_call2.v2 maxsi,
    StableHlo.nullary main_c_8 (constantI S_ 32 0#32),
    StableHlo.unary main_c_8 main_v28 (broadcastInDim S8192 ![] bcast_S_S8192 : (⟨S_, .i32⟩ : BufTy).Contents (Elt F) → (⟨S8192, .i32⟩ : BufTy).Contents (Elt F)),
    StableHlo.binary main_v27 main_v28 main_v29 (cmpi .slt : (⟨S8192, .i32⟩ : BufTy).Contents (Elt F) → (⟨S8192, .i32⟩ : BufTy).Contents (Elt F) → (⟨S8192, .i1⟩ : BufTy).Contents (Elt F)),
    StableHlo.nullary main_c_9 (constantI S_ 32 16#32),
    StableHlo.unary main_c_9 main_v30 (broadcastInDim S8192 ![] bcast_S_S8192 : (⟨S_, .i32⟩ : BufTy).Contents (Elt F) → (⟨S8192, .i32⟩ : BufTy).Contents (Elt F)),
    StableHlo.binary main_v27 main_v30 main_v31 (addi : (⟨S8192, .i32⟩ : BufTy).Contents (Elt F) → (⟨S8192, .i32⟩ : BufTy).Contents (Elt F) → (⟨S8192, .i32⟩ : BufTy).Contents (Elt F)),
    StableHlo.ternary main_v29 main_v31 main_v27 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v32 main_v33 (broadcastInDim S8192x1 ![0] bcast_S8192_S8192x1_0 : (⟨S8192, .i32⟩ : BufTy).Contents (Elt F) → (⟨S8192x1, .i32⟩ : BufTy).Contents (Elt F)),
    StableHlo.nullary main_c_10 (constantI S_ 32 1#32),
    StableHlo.unary main_c_10 main_v34 (broadcastInDim S8192 ![] bcast_S_S8192 : (⟨S_, .i32⟩ : BufTy).Contents (Elt F) → (⟨S8192, .i32⟩ : BufTy).Contents (Elt F)),
    StableHlo.ternary main_v26 main_v33 main_v34 main_v35 ((fun x i u => Host.scatter scatter_S16_S8192x1_S8192_n_0_0_1 IntOp.addi x i u) : (⟨S16, .i32⟩ : BufTy).Contents (Elt F) → (⟨S8192x1, .i32⟩ : BufTy).Contents (Elt F) → (⟨S8192, .i32⟩ : BufTy).Contents (Elt F) → (⟨S16, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v35) main_call3.call0.v0 main_call3.call0.v1 (fun x v => Host.reduceWindow IntOp.addi ![16] ![1] ![15] ![0] x v reduceWindows_S16_S16_w16s1p15_0 h_S_),
    StableHlo.binary main_v36 main_v35 main_v37 (subi : (⟨S16, .i32⟩ : BufTy).Contents (Elt F) → (⟨S16, .i32⟩ : BufTy).Contents (Elt F) → (⟨S16, .i32⟩ : BufTy).Contents (Elt F)),
    StableHlo.nullary main_v38 (iotaInDim S8192 32 0),
    StableHlo.nullary main_c_11 (constantI S_ 32 0#32),
    StableHlo.unary main_c_11 main_v39 (broadcastInDim S8192 ![] bcast_S_S8192 : (⟨S_, .i32⟩ : BufTy).Contents (Elt F) → (⟨S8192, .i32⟩ : BufTy).Contents (Elt F)),
    StableHlo.binary main_v11 main_v39 main_v40 (cmpi .slt : (⟨S8192, .i32⟩ : BufTy).Contents (Elt F) → (⟨S8192, .i32⟩ : BufTy).Contents (Elt F) → (⟨S8192, .i1⟩ : BufTy).Contents (Elt F)),
    StableHlo.nullary main_c_12 (constantI S_ 32 16#32),
    StableHlo.unary main_c_12 main_v41 (broadcastInDim S8192 ![] bcast_S_S8192 : (⟨S_, .i32⟩ : BufTy).Contents (Elt F) → (⟨S8192, .i32⟩ : BufTy).Contents (Elt F)),
    StableHlo.binary main_v11 main_v41 main_v42 (addi : (⟨S8192, .i32⟩ : BufTy).Contents (Elt F) → (⟨S8192, .i32⟩ : BufTy).Contents (Elt F) → (⟨S8192, .i32⟩ : BufTy).Contents (Elt F)),
    StableHlo.ternary main_v40 main_v42 main_v11 main_v43 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v43 main_v44 (broadcastInDim S8192x1 ![0] bcast_S8192_S8192x1_0 : (⟨S8192, .i32⟩ : BufTy).Contents (Elt F) → (⟨S8192x1, .i32⟩ : BufTy).Contents (Elt F)),
    StableHlo.binary main_v37 main_v44 main_v45 ((fun x i => Host.gather gather_S16_S8192x1_S8192_n_0_n_n_0_1_1 x i) : (⟨S16, .i32⟩ : BufTy).Contents (Elt F) → (⟨S8192x1, .i32⟩ : BufTy).Contents (Elt F) → (⟨S8192, .i32⟩ : BufTy).Contents (Elt F)) ]

/-- The host operations of window 1 of @main (70 of them), each outlined function's listed at its call. -/
abbrev ops1 : List (HloOp τ sig (Elt F)) :=
  [ StableHlo.binary main_v38 main_v45 main_v46 (subi : (⟨S8192, .i32⟩ : BufTy).Contents (Elt F) → (⟨S8192, .i32⟩ : BufTy).Contents (Elt F) → (⟨S8192, .i32⟩ : BufTy).Contents (Elt F)),
    StableHlo.nullary main_c_13 (constantI S_ 32 2048#32),
    StableHlo.unary main_c_13 main_v47 (broadcastInDim S8192 ![] bcast_S_S8192 : (⟨S_, .i32⟩ : BufTy).Contents (Elt F) → (⟨S8192, .i32⟩ : BufTy).Contents (Elt F)),
    StableHlo.binary main_v46 main_v47 main_v48 (cmpi .slt : (⟨S8192, .i32⟩ : BufTy).Contents (Elt F) → (⟨S8192, .i32⟩ : BufTy).Contents (Elt F) → (⟨S8192, .i1⟩ : BufTy).Contents (Elt F)),
    StableHlo.nullary main_c_14 (constantI S_ 32 2048#32),
    StableHlo.unary main_c_14 main_v49 (broadcastInDim S8192 ![] bcast_S_S8192 : (⟨S_, .i32⟩ : BufTy).Contents (Elt F) → (⟨S8192, .i32⟩ : BufTy).Contents (Elt F)),
    StableHlo.binary main_v11 main_v49 main_v50 (muli : (⟨S8192, .i32⟩ : BufTy).Contents (Elt F) → (⟨S8192, .i32⟩ : BufTy).Contents (Elt F) → (⟨S8192, .i32⟩ : BufTy).Contents (Elt F)),
    StableHlo.binary main_v50 main_v46 main_v51 (addi : (⟨S8192, .i32⟩ : BufTy).Contents (Elt F) → (⟨S8192, .i32⟩ : BufTy).Contents (Elt F) → (⟨S8192, .i32⟩ : BufTy).Contents (Elt F)),
    StableHlo.nullary main_c_15 (constantI S_ 32 32768#32),
    StableHlo.TRef.unary (.of main_c_15) main_call4.v0 id,
    StableHlo.TRef.unary main_call4.v0 main_call4.v1 (broadcastInDim S8192 ![] bcast_S_S8192),
    StableHlo.TRef.ternary (.of main_v48) (.of main_v51) main_call4.v1 main_call4.v2 select,
    StableHlo.nullary main_cst (constant S_ .f32 0x00000000#32),
    StableHlo.unary main_cst main_v53 (broadcastInDim S32769x1024 ![] bcast_S_S32769x1024 : (⟨S_, .f32⟩ : BufTy).Contents (Elt F) → (⟨S32769x1024, .f32⟩ : BufTy).Contents (Elt F)),
    StableHlo.nullary main_c_16 (constantI S_ 32 0#32),
    StableHlo.unary main_c_16 main_v54 (broadcastInDim S8192 ![] bcast_S_S8192 : (⟨S_, .i32⟩ : BufTy).Contents (Elt F) → (⟨S8192, .i32⟩ : BufTy).Contents (Elt F)),
    StableHlo.binary main_v18 main_v54 main_v55 (cmpi .slt : (⟨S8192, .i32⟩ : BufTy).Contents (Elt F) → (⟨S8192, .i32⟩ : BufTy).Contents (Elt F) → (⟨S8192, .i1⟩ : BufTy).Contents (Elt F)),
    StableHlo.nullary main_c_17 (constantI S_ 32 4096#32),
    StableHlo.unary main_c_17 main_v56 (broadcastInDim S8192 ![] bcast_S_S8192 : (⟨S_, .i32⟩ : BufTy).Contents (Elt F) → (⟨S8192, .i32⟩ : BufTy).Contents (Elt F)),
    StableHlo.binary main_v18 main_v56 main_v57 (addi : (⟨S8192, .i32⟩ : BufTy).Contents (Elt F) → (⟨S8192, .i32⟩ : BufTy).Contents (Elt F) → (⟨S8192, .i32⟩ : BufTy).Contents (Elt F)),
    StableHlo.ternary main_v55 main_v57 main_v18 main_v58 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v58 main_v59 (broadcastInDim S8192x1 ![0] bcast_S8192_S8192x1_0 : (⟨S8192, .i32⟩ : BufTy).Contents (Elt F) → (⟨S8192x1, .i32⟩ : BufTy).Contents (Elt F)),
    StableHlo.binary main_arg0 main_v59 main_v60 ((fun x i => Host.gather gather_S4096x1024_S8192x1_S8192x1024_1_0_n_n_0_1_11024 x i) : (⟨S4096x1024, .f32⟩ : BufTy).Contents (Elt F) → (⟨S8192x1, .i32⟩ : BufTy).Contents (Elt F) → (⟨S8192x1024, .f32⟩ : BufTy).Contents (Elt F)),
    StableHlo.nullary main_c_18 (constantI S_ 32 0#32),
    StableHlo.unary main_c_18 main_v61 (broadcastInDim S8192 ![] bcast_S_S8192 : (⟨S_, .i32⟩ : BufTy).Contents (Elt F) → (⟨S8192, .i32⟩ : BufTy).Contents (Elt F)),
    StableHlo.binary main_v52 main_v61 main_v62 (cmpi .slt : (⟨S8192, .i32⟩ : BufTy).Contents (Elt F) → (⟨S8192, .i32⟩ : BufTy).Contents (Elt F) → (⟨S8192, .i1⟩ : BufTy).Contents (Elt F)),
    StableHlo.nullary main_c_19 (constantI S_ 32 32769#32),
    StableHlo.unary main_c_19 main_v63 (broadcastInDim S8192 ![] bcast_S_S8192 : (⟨S_, .i32⟩ : BufTy).Contents (Elt F) → (⟨S8192, .i32⟩ : BufTy).Contents (Elt F)),
    StableHlo.binary main_v52 main_v63 main_v64 (addi : (⟨S8192, .i32⟩ : BufTy).Contents (Elt F) → (⟨S8192, .i32⟩ : BufTy).Contents (Elt F) → (⟨S8192, .i32⟩ : BufTy).Contents (Elt F)),
    StableHlo.ternary main_v62 main_v64 main_v52 main_v65 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v65 main_v66 (broadcastInDim S8192x1 ![0] bcast_S8192_S8192x1_0 : (⟨S8192, .i32⟩ : BufTy).Contents (Elt F) → (⟨S8192x1, .i32⟩ : BufTy).Contents (Elt F)),
    StableHlo.ternary main_v53 main_v66 main_v60 main_v67 ((fun x i u => Host.scatter scatter_S32769x1024_S8192x1_S8192x1024_1_0_0_1 (fun _ b => b) x i u) : (⟨S32769x1024, .f32⟩ : BufTy).Contents (Elt F) → (⟨S8192x1, .i32⟩ : BufTy).Contents (Elt F) → (⟨S8192x1024, .f32⟩ : BufTy).Contents (Elt F) → (⟨S32769x1024, .f32⟩ : BufTy).Contents (Elt F)),
    StableHlo.unary main_v67 main_v68 ((extractStridedSlice S32768x1024 ![0, 0] · slices_S32769x1024_S32768x1024_0_0) : (⟨S32769x1024, .f32⟩ : BufTy).Contents (Elt F) → (⟨S32768x1024, .f32⟩ : BufTy).Contents (Elt F)),
    StableHlo.reshape main_v68 main_v69 rfl shapeCasts_S32768x1024_S16x2048x1024,
    StableHlo.binary main_v69 main_arg3 main_v70 ((fun l r => Host.dotGeneral dot_S16x2048x1024_S16x1024x512_S16x2048x512_2_1_1_2_0_0 none l r) : (⟨S16x2048x1024, .f32⟩ : BufTy).Contents (Elt F) → (⟨S16x1024x512, .f32⟩ : BufTy).Contents (Elt F) → (⟨S16x2048x512, .f32⟩ : BufTy).Contents (Elt F)),
    StableHlo.TRef.unary (.of main_v70) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S16x2048x512 ![] bcast_S_S16x2048x512),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S16x2048x512 ![] bcast_S_S16x2048x512),
    StableHlo.TRef.binary main_call5.v4 main_call5.v3 main_call5.v5 Host.divf,
    StableHlo.TRef.binary (.of main_v70) main_call5.v5 main_call5.v6 mulf,
    StableHlo.binary main_v69 main_arg4 main_v72 ((fun l r => Host.dotGeneral dot_S16x2048x1024_S16x1024x512_S16x2048x512_2_1_1_2_0_0 none l r) : (⟨S16x2048x1024, .f32⟩ : BufTy).Contents (Elt F) → (⟨S16x1024x512, .f32⟩ : BufTy).Contents (Elt F) → (⟨S16x2048x512, .f32⟩ : BufTy).Contents (Elt F)),
    StableHlo.binary main_v71 main_v72 main_v73 (mulf : (⟨S16x2048x512, .f32⟩ : BufTy).Contents (Elt F) → (⟨S16x2048x512, .f32⟩ : BufTy).Contents (Elt F) → (⟨S16x2048x512, .f32⟩ : BufTy).Contents (Elt F)),
    StableHlo.binary main_v73 main_arg5 main_v74 ((fun l r => Host.dotGeneral dot_S16x2048x512_S16x512x1024_S16x2048x1024_2_1_1_2_0_0 none l r) : (⟨S16x2048x512, .f32⟩ : BufTy).Contents (Elt F) → (⟨S16x512x1024, .f32⟩ : BufTy).Contents (Elt F) → (⟨S16x2048x1024, .f32⟩ : BufTy).Contents (Elt F)),
    StableHlo.reshape main_v74 main_v75 rfl shapeCasts_S16x2048x1024_S32768x1024,
    StableHlo.nullary main_c_20 (constantI S_ 32 32767#32),
    StableHlo.unary main_c_20 main_v76 (broadcastInDim S8192 ![] bcast_S_S8192 : (⟨S_, .i32⟩ : BufTy).Contents (Elt F) → (⟨S8192, .i32⟩ : BufTy).Contents (Elt F)),
    StableHlo.binary main_v52 main_v76 main_v77 (minsi : (⟨S8192, .i32⟩ : BufTy).Contents (Elt F) → (⟨S8192, .i32⟩ : BufTy).Contents (Elt F) → (⟨S8192, .i32⟩ : BufTy).Contents (Elt F)),
    StableHlo.nullary main_c_21 (constantI S_ 32 0#32),
    StableHlo.unary main_c_21 main_v78 (broadcastInDim S8192 ![] bcast_S_S8192 : (⟨S_, .i32⟩ : BufTy).Contents (Elt F) → (⟨S8192, .i32⟩ : BufTy).Contents (Elt F)),
    StableHlo.binary main_v77 main_v78 main_v79 (cmpi .slt : (⟨S8192, .i32⟩ : BufTy).Contents (Elt F) → (⟨S8192, .i32⟩ : BufTy).Contents (Elt F) → (⟨S8192, .i1⟩ : BufTy).Contents (Elt F)),
    StableHlo.nullary main_c_22 (constantI S_ 32 32768#32),
    StableHlo.unary main_c_22 main_v80 (broadcastInDim S8192 ![] bcast_S_S8192 : (⟨S_, .i32⟩ : BufTy).Contents (Elt F) → (⟨S8192, .i32⟩ : BufTy).Contents (Elt F)),
    StableHlo.binary main_v77 main_v80 main_v81 (addi : (⟨S8192, .i32⟩ : BufTy).Contents (Elt F) → (⟨S8192, .i32⟩ : BufTy).Contents (Elt F) → (⟨S8192, .i32⟩ : BufTy).Contents (Elt F)),
    StableHlo.ternary main_v79 main_v81 main_v77 main_v82 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v82 main_v83 (broadcastInDim S8192x1 ![0] bcast_S8192_S8192x1_0 : (⟨S8192, .i32⟩ : BufTy).Contents (Elt F) → (⟨S8192x1, .i32⟩ : BufTy).Contents (Elt F)),
    StableHlo.binary main_v75 main_v83 main_v84 ((fun x i => Host.gather gather_S32768x1024_S8192x1_S8192x1024_1_0_n_n_0_1_11024 x i) : (⟨S32768x1024, .f32⟩ : BufTy).Contents (Elt F) → (⟨S8192x1, .i32⟩ : BufTy).Contents (Elt F) → (⟨S8192x1024, .f32⟩ : BufTy).Contents (Elt F)),
    StableHlo.unary main_v48 main_v85 (uitofp .f32 : (⟨S8192, .i1⟩ : BufTy).Contents (Elt F) → (⟨S8192, .f32⟩ : BufTy).Contents (Elt F)),
    StableHlo.binary main_v25 main_v85 main_v86 (mulf : (⟨S8192, .f32⟩ : BufTy).Contents (Elt F) → (⟨S8192, .f32⟩ : BufTy).Contents (Elt F) → (⟨S8192, .f32⟩ : BufTy).Contents (Elt F)),
    StableHlo.unary main_v86 main_v87 (broadcastInDim S8192x1 ![0] bcast_S8192_S8192x1_0 : (⟨S8192, .f32⟩ : BufTy).Contents (Elt F) → (⟨S8192x1, .f32⟩ : BufTy).Contents (Elt F)),
    StableHlo.unary main_v87 main_v88 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v84 main_v88 main_v89 (mulf : (⟨S8192x1024, .f32⟩ : BufTy).Contents (Elt F) → (⟨S8192x1024, .f32⟩ : BufTy).Contents (Elt F) → (⟨S8192x1024, .f32⟩ : BufTy).Contents (Elt F)),
    StableHlo.nullary main_cst_23 (constant S_ .f32 0x00000000#32),
    StableHlo.unary main_cst_23 main_v90 (broadcastInDim S4096x1024 ![] bcast_S_S4096x1024 : (⟨S_, .f32⟩ : BufTy).Contents (Elt F) → (⟨S4096x1024, .f32⟩ : BufTy).Contents (Elt F)),
    StableHlo.nullary main_c_24 (constantI S_ 32 0#32),
    StableHlo.unary main_c_24 main_v91 (broadcastInDim S8192 ![] bcast_S_S8192 : (⟨S_, .i32⟩ : BufTy).Contents (Elt F) → (⟨S8192, .i32⟩ : BufTy).Contents (Elt F)),
    StableHlo.binary main_v18 main_v91 main_v92 (cmpi .slt : (⟨S8192, .i32⟩ : BufTy).Contents (Elt F) → (⟨S8192, .i32⟩ : BufTy).Contents (Elt F) → (⟨S8192, .i1⟩ : BufTy).Contents (Elt F)) ]

/-- The host operations of window 2 of @main (6 of them), each outlined function's listed at its call. -/
abbrev ops2 : List (HloOp τ sig (Elt F)) :=
  [ StableHlo.nullary main_c_25 (constantI S_ 32 4096#32),
    StableHlo.unary main_c_25 main_v93 (broadcastInDim S8192 ![] bcast_S_S8192 : (⟨S_, .i32⟩ : BufTy).Contents (Elt F) → (⟨S8192, .i32⟩ : BufTy).Contents (Elt F)),
    StableHlo.binary main_v18 main_v93 main_v94 (addi : (⟨S8192, .i32⟩ : BufTy).Contents (Elt F) → (⟨S8192, .i32⟩ : BufTy).Contents (Elt F) → (⟨S8192, .i32⟩ : BufTy).Contents (Elt F)),
    StableHlo.ternary main_v92 main_v94 main_v18 main_v95 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v95 main_v96 (broadcastInDim S8192x1 ![0] bcast_S8192_S8192x1_0 : (⟨S8192, .i32⟩ : BufTy).Contents (Elt F) → (⟨S8192x1, .i32⟩ : BufTy).Contents (Elt F)),
    StableHlo.ternary main_v90 main_v96 main_v89 main_v97 ((fun x i u => Host.scatterAdd scatter_S4096x1024_S8192x1_S8192x1024_1_0_0_1 x i u) : (⟨S4096x1024, .f32⟩ : BufTy).Contents (Elt F) → (⟨S8192x1, .i32⟩ : BufTy).Contents (Elt F) → (⟨S8192x1024, .f32⟩ : BufTy).Contents (Elt F) → (⟨S4096x1024, .f32⟩ : BufTy).Contents (Elt F)) ]

end Cert.ReferenceIdeal.RefRun

end
-- ==== Proof.RefRun.lean ====
/-
  The reference program's run, read back.

  The reference is one straight line of host operations: its @main, printed in three consecutive windows, with each
  outlined function's operations standing at its call (over that call's own buffers). Each window is the sequence of
  its listed operations; the three lists joined are the whole program; and a straight line of host operations always
  runs to its end, leaving every buffer at the fold of the operations' results over the launch contents. In
  particular it faults nowhere and never writes an argument array.
-/
import proofs.«122239_j24352464569736_2_alg».proof.Proof.RefOps
import proofs.«122239_j24352464569736_2_alg».proof.Defs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole program's operations, in order. -/
abbrev ops : List (HloOp τ sig (Elt F)) := ops0 ++ (ops1 ++ ops2)

set_option maxRecDepth 16384 in
/-- The first window is its operations run in order (the functions' bodies unfolded at their calls). -/
theorem part0_eq (c : Dev nD) : main_part0 (F := F) c = seq ops0 := by
  simp only [main_part0, fn_floor_divide.body, fn_where.body, fn_argsort.body, fn_clip.body, fn_cumsum.body, fn_cumsum_0.body,
    seq, bind_assoc, pure_bind]
  rfl

set_option maxRecDepth 16384 in
/-- The second window likewise. -/
theorem part1_eq (c : Dev nD) : main_part1 (F := F) c = seq ops1 := by
  simp only [main_part1, fn_where_1.body, fn_silu.body, seq, bind_assoc, pure_bind]
  rfl

set_option maxRecDepth 8192 in
/-- The third window likewise. -/
theorem part2_eq (c : Dev nD) : main_part2 (F := F) c = seq ops2 := by
  simp only [main_part2, seq, bind_assoc, pure_bind]

/-- @main is the three windows one after the other: the joined list run as one line. -/
theorem main_eq (c : Dev nD) : main (F := F) c = seq ops := by
  show (main_part0 (F := F) c >>= fun _ => main_part1 (F := F) c >>= fun _ => main_part2 (F := F) c) = _
  rw [part0_eq, part1_eq, part2_eq, seq_append, seq_append]

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

/-- Every operation touches TensorCore buffers only. -/
theorem ops_sub : (ops : List (HloOp τ sig (Elt F))).Forall fun op => op.bufs ⊆ tcRefs τ sig :=
  List.forall_iff_forall_mem.mpr fun op hop => by
    rcases List.mem_append.mp hop with h | h
    · exact List.forall_iff_forall_mem.mp ops0_sub op h
    · rcases List.mem_append.mp h with h | h
      · exact List.forall_iff_forall_mem.mp ops1_sub op h
      · exact List.forall_iff_forall_mem.mp ops2_sub op h

/-- Every weakly fair execution of the reference terminates, nothing faulting, with each buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The result of the whole line at a buffer none of its operations writes. -/
theorem kept_arg0 (V : Valuation τ sig (Elt F)) : after ops V (main_arg0 : DevRef τ sig) = V (main_arg0 : DevRef τ sig) := by
  simp only [ops, ops0, ops1, ops2, List.cons_append, List.nil_append]
  after_results_simp

theorem kept_arg1 (V : Valuation τ sig (Elt F)) : after ops V (main_arg1 : DevRef τ sig) = V (main_arg1 : DevRef τ sig) := by
  simp only [ops, ops0, ops1, ops2, List.cons_append, List.nil_append]
  after_results_simp
theorem kept_arg2 (V : Valuation τ sig (Elt F)) : after ops V (main_arg2 : DevRef τ sig) = V (main_arg2 : DevRef τ sig) := by
  simp only [ops, ops0, ops1, ops2, List.cons_append, List.nil_append]
  after_results_simp
theorem kept_arg3 (V : Valuation τ sig (Elt F)) : after ops V (main_arg3 : DevRef τ sig) = V (main_arg3 : DevRef τ sig) := by
  simp only [ops, ops0, ops1, ops2, List.cons_append, List.nil_append]
  after_results_simp
theorem kept_arg4 (V : Valuation τ sig (Elt F)) : after ops V (main_arg4 : DevRef τ sig) = V (main_arg4 : DevRef τ sig) := by
  simp only [ops, ops0, ops1, ops2, List.cons_append, List.nil_append]
  after_results_simp
theorem kept_arg5 (V : Valuation τ sig (Elt F)) : after ops V (main_arg5 : DevRef τ sig) = V (main_arg5 : DevRef τ sig) := by
  simp only [ops, ops0, ops1, ops2, List.cons_append, List.nil_append]
  after_results_simp

end Cert.ReferenceIdeal.RefRun

namespace Cert.Proof.Ref

open Idealize.ShloMosaic Idealize.SL.Sem Cert.ReferenceIdeal.RefRun

/-- The reference runs to its end from any memory, nothing faulting, and its six argument arrays end as they began:
    no operation of the line writes one. (The precondition is not needed for this.) -/
theorem frame_ri [hR : Cert.ReferenceIdeal.Facts] [hP : Cert.Pre_finite_inputs.Facts] : Cert.frame_ReferenceIdeal := fun m ρ _ =>
  (θ_run Cert.ReferenceIdeal.defs _ _).mono
    (fun _ h c => ⟨(h c _).trans (kept_arg0 _), (h c _).trans (kept_arg1 _), (h c _).trans (kept_arg2 _),
      (h c _).trans (kept_arg3 _), (h c _).trans (kept_arg4 _), (h c _).trans (kept_arg5 _)⟩)
    (run_main (F := Ideal) m ρ)

end Cert.Proof.Ref

end
-- ==== Proof.KBody.lean ====
/-
  The kernel's body at one grid point.

  The body reads one word of the table of live row counts (the entry of the point's expert) and compares the tile's
  first row, 512 times the tile number, with it. When the tile starts below the count it loads the tile of rows and the
  expert's three weight blocks and stores the whole output tile; otherwise it stores the whole zero tile. Either way the
  four input buffers and the table are left as found, and the output buffer is left holding exactly one stored piece.
-/
import proofs.«122239_j24352464569736_2_alg».proof.Proof.Gen.KernelIdeal.Launch
import proofs.«122239_j24352464569736_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of live row counts, as the body is handed it: the whole scalar-memory buffer. -/
abbrev tbM : Memref sig .tc .smem S16 .i32 := Memref.whole main_v54

/-- The word the body loads at a grid point: the table's entry for the point's expert. -/
abbrev word (i : grid0.Coords) (T : S16.Idx → Elt F .i32) : Elt F .i32 :=
  View.readAt (Elt F) (tbM).view (Rect.unit (s := S16) (k0_off1 i) S1.size (k0_off1_inb i)).toLoadRect T (Shape.Idx.first (numel1_S1.symm ▸ Nat.one_pos))

set_option maxHeartbeats 4000000 in
/-- A tile that holds data: the body loads its four input tiles, computes, and stores the whole output tile. -/
noncomputable def runA (c : Dev nD) (i : grid0.Coords)
    (arg3 : Memref sig .tc .vmem S1x512x1024 .bf16) (harg3 : arg3.IsWhole) (arg4 : Memref sig .tc .vmem S1x1024x512 .bf16) (harg4 : arg4.IsWhole)
    (arg5 : Memref sig .tc .vmem S1x1024x512 .bf16) (harg5 : arg5.IsWhole) (arg6 : Memref sig .tc .vmem S1x512x1024 .bf16) (harg6 : arg6.IsWhole)
    (arg7 : Memref sig .tc .vmem S1x512x1024 .bf16) (harg7 : arg7.IsWhole)
    (T : S16.Idx → Elt F .i32) (x : Vec F S1x512x1024 .bf16) (wg wu : Vec F S1x1024x512 .bf16) (wd : Vec F S1x512x1024 .bf16)
    (h1 : k0_cond1 i (word (F := F) i T) = 1#1) (h2 : ¬ k0_cond2 i (word (F := F) i T) = 1#1) :
    { L : List (View.Piece (Elt F) S1x512x1024 .bf16) //
      ∀ (K : PUnit → sProp 𝕄),
        iprop(owns (c : Thread nD τ) arg3 fullShare x ∗ owns (c : Thread nD τ) arg4 fullShare wg ∗ owns (c : Thread nD τ) arg5 fullShare wu
            ∗ owns (c : Thread nD τ) arg6 fullShare wd ∗ (tbM.view.loc (c : Thread nD τ) ↦{fullShare.right} T)
            ∗ (∃ d, owns (c : Thread nD τ) arg7 fullShare d)
            ∗ (iprop(owns (c : Thread nD τ) arg3 fullShare x ∗ owns (c : Thread nD τ) arg4 fullShare wg ∗ owns (c : Thread nD τ) arg5 fullShare wu
                ∗ owns (c : Thread nD τ) arg6 fullShare wd ∗ (tbM.view.loc (c : Thread nD τ) ↦{fullShare.right} T)
                ∗ (∃ f, arg7.view.loc (c : Thread nD τ) ↦[arg7.view.set]{fullShare} arg7.view.writes (Elt F) f L)) -∗ K ⟨⟩))
          ⊢ wp frame (wpE (defs₀ (F := F)) Variants.none c none) Set.univ
              (cc0__moe_gemm_kernel i tbM (Memref.isWhole_whole _) arg3 harg3 arg4 harg4 arg5 harg5 arg6 harg6 arg7 harg7) K } := by
  refine ⟨?_, fun K => ?run⟩
  case run =>
    rw [cc0__moe_gemm_kernel_eq_skeleton]; unfold cc0__moe_gemm_kernel_skel
    unfold owns
    iintro ⟨⟨%f3, %hf3, H3⟩, ⟨%f4, %hf4, H4⟩, ⟨%f5, %hf5, H5⟩, ⟨%f6, %hf6, H6⟩, HT, ⟨%d7, %f7, -, H7⟩, Hk⟩
    obtain rfl := harg3.eq_unread hf3; obtain rfl := harg4.eq_unread hf4; obtain rfl := harg5.eq_unread hf5; obtain rfl := harg6.eq_unread hf6
    have hT : (tbM).IsWhole := Memref.isWhole_whole _
    sl_exec (disch := first | (guard_target = k0_cond1 _ _ = _; exact h1) | (guard_target = ¬ k0_cond2 _ _ = _; exact h2) | (guard_target = k0_cond2 _ _ = _ → False; exact h2))
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [HT]; · iexact HT
    iexists _; iexact H7

set_option maxHeartbeats 4000000 in
/-- A tile past its expert's live rows: the body stores the zero tile, whatever the input tiles hold. -/
noncomputable def runB (c : Dev nD) (i : grid0.Coords)
    (arg3 : Memref sig .tc .vmem S1x512x1024 .bf16) (harg3 : arg3.IsWhole) (arg4 : Memref sig .tc .vmem S1x1024x512 .bf16) (harg4 : arg4.IsWhole)
    (arg5 : Memref sig .tc .vmem S1x1024x512 .bf16) (harg5 : arg5.IsWhole) (arg6 : Memref sig .tc .vmem S1x512x1024 .bf16) (harg6 : arg6.IsWhole)
    (arg7 : Memref sig .tc .vmem S1x512x1024 .bf16) (harg7 : arg7.IsWhole)
    (T : S16.Idx → Elt F .i32) (x : Vec F S1x512x1024 .bf16) (wg wu : Vec F S1x1024x512 .bf16) (wd : Vec F S1x512x1024 .bf16)
    (h1 : ¬ k0_cond1 i (word (F := F) i T) = 1#1) (h2 : k0_cond2 i (word (F := F) i T) = 1#1) :
    { L : List (View.Piece (Elt F) S1x512x1024 .bf16) //
      ∀ (K : PUnit → sProp 𝕄),
        iprop(owns (c : Thread nD τ) arg3 fullShare x ∗ owns (c : Thread nD τ) arg4 fullShare wg ∗ owns (c : Thread nD τ) arg5 fullShare wu
            ∗ owns (c : Thread nD τ) arg6 fullShare wd ∗ (tbM.view.loc (c : Thread nD τ) ↦{fullShare.right} T)
            ∗ (∃ d, owns (c : Thread nD τ) arg7 fullShare d)
            ∗ (iprop(owns (c : Thread nD τ) arg3 fullShare x ∗ owns (c : Thread nD τ) arg4 fullShare wg ∗ owns (c : Thread nD τ) arg5 fullShare wu
                ∗ owns (c : Thread nD τ) arg6 fullShare wd ∗ (tbM.view.loc (c : Thread nD τ) ↦{fullShare.right} T)
                ∗ (∃ f, arg7.view.loc (c : Thread nD τ) ↦[arg7.view.set]{fullShare} arg7.view.writes (Elt F) f L)) -∗ K ⟨⟩))
          ⊢ wp frame (wpE (defs₀ (F := F)) Variants.none c none) Set.univ
              (cc0__moe_gemm_kernel i tbM (Memref.isWhole_whole _) arg3 harg3 arg4 harg4 arg5 harg5 arg6 harg6 arg7 harg7) K } := by
  refine ⟨?_, fun K => ?run⟩
  case run =>
    rw [cc0__moe_gemm_kernel_eq_skeleton]; unfold cc0__moe_gemm_kernel_skel
    unfold owns
    iintro ⟨⟨%f3, %hf3, H3⟩, ⟨%f4, %hf4, H4⟩, ⟨%f5, %hf5, H5⟩, ⟨%f6, %hf6, H6⟩, HT, ⟨%d7, %f7, -, H7⟩, Hk⟩
    obtain rfl := harg3.eq_unread hf3; obtain rfl := harg4.eq_unread hf4; obtain rfl := harg5.eq_unread hf5; obtain rfl := harg6.eq_unread hf6
    have hT : (tbM).IsWhole := Memref.isWhole_whole _
    sl_exec (disch := first | (guard_target = k0_cond2 _ _ = _; exact h2) | (guard_target = ¬ k0_cond1 _ _ = _; exact h1) | (guard_target = k0_cond1 _ _ = _ → False; exact h1))
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [HT]; · iexact HT
    iexists _; iexact H7

end Cert.KernelIdeal.Hand

end
-- ==== Proof.KKit.lean ====
/-
  The kernel's @main around its one region: ten stretches of host lines, the region, one more stretch.

  The contents the region is entered with are the fold of the earlier lines over the launch contents; the table of live
  row counts is read off them. The later lines touch neither the table nor any scoped buffer, allocate nothing, and
  write none of the region's five arrays.
-/
import proofs.«122239_j24352464569736_2_alg».proof.Proof.KBody
import proofs.«122239_j24352464569736_2_alg».proof.Proof.Gen.KernelIdeal.Launch
import proofs.«122239_j24352464569736_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## @main around the region -/

variable (m : (ℓ : Loc nD τ sig) → Buf (Elt F) ℓ) (ρ : Dev nD → PrngReg)

/-- The host lines before the region, stretch by stretch. -/
abbrev prefixOps : List (List (HloOp τ sig (Elt F))) :=
  [hostOps0, hostOps0_1, hostOps0_2, hostOps0_3, hostOps0_4, hostOps0_5, hostOps0_6, hostOps0_7, hostOps0_8, hostOps0_9]

/-- The core's buffer contents when the region is entered: after the host lines before it. -/
abbrev V0 (c : Dev nD) : Valuation τ sig (Elt F) := StableHlo.after (prefixOps (F := F)).flatten (fun b => m (c, b))
/-- The same read at a TensorCore reference. -/
abbrev V (c : Dev nD) (b : Ref sig .tc) : Buf (Elt F) ((c : Thread nD τ).loc b) := V0 m c (Proc.devRef .tc b)

/-- The table of live row counts the region is entered with (one device). -/
def tbl : pre0.Contents (Elt F) := fun k => V m (0 : Fin 1) (pre0.ref k)
/-- The pipeline is taken at those contents: no index map reads the table, so any contents are admissible. -/
def adm : (p : Fin 1) → (pcfgs (F := F) p).Adm := fun _ => ⟨tbl m, trivial⟩

theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

theorem prefix_fresh : (prefixOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainPK (Ix := Unit) (Name := ℕ) (U := UR sig nD τ) (Lvl := ℕ) (pcfgs (F := F)) 0 defs₀ 𝒱₀ m (main (F := F)) (V m)
      (fun _ => Pipeline.chain [StableHlo.seq hostOps1]) :=
  Pipeline.hmainP_around (pcfgs (F := F)) 0 defs₀ 𝒱₀ m main prefixOps [hostOps1] prefix_sub prefix_fresh (fun c => (main_chain c).trans rfl)

/-! ## The lines after the region -/

/-- The lines after the region touch the pipeline's arrays and the bypassing buffers only, never the table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) fun k => ?_
  obtain rfl : k = 0 := Subsingleton.elim _ _
  fin_cases hop <;>
    simp only [StableHlo.nullary_bufs, StableHlo.unary_bufs, StableHlo.binary_bufs, StableHlo.ternary_bufs, StableHlo.reshape_bufs,
      Finset.mem_insert, Finset.mem_singleton, not_or] <;>
    (repeat' constructor) <;> exact StableHlo.devRef_ne_of_ne (by decide)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write no array of the pipeline: each writes only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  fin_cases hop <;> intro w <;> fin_cases w <;>
    simp only [StableHlo.nullary_writes, StableHlo.unary_writes, StableHlo.binary_writes, StableHlo.ternary_writes, StableHlo.reshape_writes,
      Finset.mem_singleton] <;> exact StableHlo.devRef_ne_of_ne (by decide)

end Cert.KernelIdeal.Hand

end
-- ==== Proof.KData.lean ====
/-
  The kernel's region, point by point: where each window's block sits, what the body finds in each staging buffer and
  what it leaves there.

  The four input windows are only read, so each input buffer holds its array's block at every point, fetched there or
  carried over. The output window's block index is the grid point itself, so it is written back at every point, and what
  is written is the one piece the body stored: the computed tile where the tile starts below the expert's live count,
  the zero tile elsewhere (the two branch conditions are each other's negation).
-/
import proofs.«122239_j24352464569736_2_alg».proof.Proof.KKit
import proofs.«122239_j24352464569736_2_alg».proof.Proof.Gen.KernelIdeal.Launch
import proofs.«122239_j24352464569736_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- On every device the table holds those contents (there is one device). -/
theorem V_pre (c : Dev nD) (j : Fin 1) : V m c (pre0.ref j) = tbl m j := by
  obtain rfl : c = 0 := Subsingleton.elim _ _; rfl

/-- The pipeline at the table's contents. -/
abbrev cfgM : Pipeline.Cfg sig Λ₀ := cfg0 (adm m 0)

/-- The table's half the region hands the body. -/
theorem PhiT_eq (c : Dev nD) : (Pipeline.ΦT pre0 (tbl m) c : sProp 𝕄) = (tbM.view.loc (c : Thread nD τ) ↦{fullShare.right} tbl m 0) := by
  unfold Pipeline.ΦT Pipeline.prefHeld
  rw [show (Finset.univ : Finset (Fin 1)) = {(0 : Fin 1)} from by decide, bigSep_singleton]
  rfl

/-! ## The schedule -/

/-- The output window is written back at every point: its block index is the point itself. -/
theorem flush4 (a : (pcfg0 (F := F)).Adm) : ∀ t : Fin (cfg0 a).N, ((cfg0 a).win 4).flush t = true :=
  (by decide +kernel : ∀ t : Fin grid0.N, Pipeline.Window.flushOf grid0 true cc0_transform_4 t = true)

/-- Each window's current staging memref at a point, and its wholeness. -/
abbrev ms0 (t : Fin (cfgM m).N) : Memref sig .tc .vmem S1x512x1024 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1024x512 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1024x512 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x512x1024 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x512x1024 .bf16 := spec0_4.stage ((cfgM m).slots t 4)
abbrev hs4 (t : Fin (cfgM m).N) : (ms4 m t).IsWhole := hstage0_4 (((cfgM m).slots t 4).cast nbuf0_4)

/-- The body as the pipeline calls it at a point. -/
abbrev bodyAt (t : Fin (cfgM m).N) : Prog (TpuEff nD τ sig (Elt F) Λ₀ .tc) PUnit :=
  cc0__moe_gemm_kernel (grid0.coords t) tbM (Memref.isWhole_whole _) (ms0 m t) (hs0 m t) (ms1 m t) (hs1 m t) (ms2 m t) (hs2 m t)
    (ms3 m t) (hs3 m t) (ms4 m t) (hs4 m t)

/-! ## The windows' blocks -/

/-- A window's block at a point, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_in0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions exclude each other -/

/-- The second branch's condition is the first's negation: both test one comparison, the second its complement. -/
theorem cond2_iff (i : grid0.Coords) (v : BitVec 32) : k0_cond2 i v = 1#1 ↔ ¬ k0_cond1 i v = 1#1 := by
  have key : ∀ b : BitVec 1, (Scalar.cmpi .ne (Scalar.extui (Scalar.xori b 1#1) : BitVec 32) 0#32 = 1#1)
      ↔ ¬ (Scalar.cmpi .ne (Scalar.extui b : BitVec 32) 0#32 = 1#1) := by decide
  unfold k0_cond2 k0_cond1
  exact key _

/-! ## What the body leaves in the output's buffer -/

/-- One staging buffer of the output window, through which its contents are stated. -/
abbrev VO : View sig .tc .vmem S1x512x1024 .bf16 := (Memref.whole cc0_stg4_0 : Memref sig .tc .vmem S1x512x1024 .bf16).view

/-- The table word the body reads at a point. -/
abbrev wordAt (t : Fin (cfgM m).N) : Elt F .i32 := word (F := F) (grid0.coords t) (tbl m 0)

/-- The pieces the body stores at a point: the computed tile where the tile starts below the expert's live count,
    the zero tile elsewhere. -/
def piecesAt (c : Dev nD) (t : Fin (cfgM m).N) : List (View.Piece (Elt F) S1x512x1024 .bf16) :=
  if h1 : k0_cond1 (grid0.coords t) (wordAt m t) = 1#1 then
    (runA c (grid0.coords t) (ms0 m t) (hs0 m t) (ms1 m t) (hs1 m t) (ms2 m t) (hs2 m t) (ms3 m t) (hs3 m t) (ms4 m t) (hs4 m t)
      (tbl m 0) (iblk m c 0 t) (iblk m c 1 t) (iblk m c 2 t) (iblk m c 3 t) h1 (fun h2 => (cond2_iff _ _).mp h2 h1)).1
  else
    (runB c (grid0.coords t) (ms0 m t) (hs0 m t) (ms1 m t) (hs1 m t) (ms2 m t) (hs2 m t) (ms3 m t) (hs3 m t) (ms4 m t) (hs4 m t)
      (tbl m 0) (iblk m c 0 t) (iblk m c 1 t) (iblk m c 2 t) (iblk m c 3 t) h1 ((cond2_iff _ _).mpr h1)).1

/-- What the output's staging buffer holds after the body at a point: its pieces read back. -/
def outAt (c : Dev nD) (t : Fin (cfgM m).N) : Vec F S1x512x1024 .bf16 :=
  VO.read (Elt F) (VO.writes (Elt F) VO.junk (piecesAt m c t))

/-- Either way the one stored piece is the whole tile. -/
theorem coverA (c : Dev nD) (i : grid0.Coords) (arg3 harg3 arg4 harg4 arg5 harg5 arg6 harg6 arg7 harg7) (T x wg wu wd) (h1 h2) (y : S1x512x1024.Idx) :
    ∃ pc ∈ (runA (F := F) c i arg3 harg3 arg4 harg4 arg5 harg5 arg6 harg6 arg7 harg7 T x wg wu wd h1 h2).1, y ∈ pc.1.set :=
  View.cover_of_tiledL (runA (F := F) c i arg3 harg3 arg4 harg4 arg5 harg5 arg6 harg6 arg7 harg7 T x wg wu wd h1 h2).1 S1x512x1024.size (by sl_kernel_rfl) y
theorem coverB (c : Dev nD) (i : grid0.Coords) (arg3 harg3 arg4 harg4 arg5 harg5 arg6 harg6 arg7 harg7) (T x wg wu wd) (h1 h2) (y : S1x512x1024.Idx) :
    ∃ pc ∈ (runB (F := F) c i arg3 harg3 arg4 harg4 arg5 harg5 arg6 harg6 arg7 harg7 T x wg wu wd h1 h2).1, y ∈ pc.1.set :=
  View.cover_of_tiledL (runB (F := F) c i arg3 harg3 arg4 harg4 arg5 harg5 arg6 harg6 arg7 harg7 T x wg wu wd h1 h2).1 S1x512x1024.size (by sl_kernel_rfl) y

/-! ## The pipeline's proof data -/

/-- The arrays as the region finds them; after the body at a point each input's buffer at its block and the output's
    at what the body stored; the invariant the class's, with the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = outAt m c t := by dsimp only [dats]; try rfl

theorem before_0 (c : Dev nD) (t : Fin (cfgM m).N) (d) : (dats m 0 c).before 0 t d = iblk m c 0 t :=
  before_in0 m (dats m 0 c) (A_eq m c 0) (after_0 m c) t d
theorem before_1 (c : Dev nD) (t : Fin (cfgM m).N) (d) : (dats m 0 c).before 1 t d = iblk m c 1 t :=
  before_in1 m (dats m 0 c) (A_eq m c 1) (after_1 m c) t d
theorem before_2 (c : Dev nD) (t : Fin (cfgM m).N) (d) : (dats m 0 c).before 2 t d = iblk m c 2 t :=
  before_in2 m (dats m 0 c) (A_eq m c 2) (after_2 m c) t d
theorem before_3 (c : Dev nD) (t : Fin (cfgM m).N) (d) : (dats m 0 c).before 3 t d = iblk m c 3 t :=
  before_in3 m (dats m 0 c) (A_eq m c 3) (after_3 m c) t d

/-- The output's buffer is handed back at what the body stored, at every point: the point writes its block back. -/
theorem leaves_4 (c : Dev nD) (t : Fin (cfgM m).N) :
    (dats m 0 c).leavesExact 4 t = owns (c : Thread nD τ) (ms4 m t) fullShare (outAt m c t) := by
  unfold Dat.leavesExact
  rw [flush4 (adm m 0) t, after_4]
  generalize (cfgM m).idle 4 ((cfgM m).grid.coords t) = b
  cases b <;> rfl

end Cert.KernelIdeal.Hand

end
-- ==== Proof.KObl.lean ====
/-
  The body obligation of the kernel's region: at every grid point, from the invariant, the table's half and the five
  staging buffers at what they then hold, the body runs to the same with the output's buffer at the piece it stored.
  The table word decides which of the two runs applies; both leave the inputs and the table as found.
-/
import proofs.«122239_j24352464569736_2_alg».proof.Proof.KData
import proofs.«122239_j24352464569736_2_alg».proof.Proof.Gen.KernelIdeal.Launch
import proofs.«122239_j24352464569736_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

theorem leaves_0 (c : Dev nD) (t : Fin (cfgM m).N) : (dats m 0 c).leavesExact 0 t = owns (c : Thread nD τ) (ms0 m t) fullShare (iblk m c 0 t) := by
  unfold Dat.leavesExact; rw [after_0]; rfl
theorem leaves_1 (c : Dev nD) (t : Fin (cfgM m).N) : (dats m 0 c).leavesExact 1 t = owns (c : Thread nD τ) (ms1 m t) fullShare (iblk m c 1 t) := by
  unfold Dat.leavesExact; rw [after_1]; rfl
theorem leaves_2 (c : Dev nD) (t : Fin (cfgM m).N) : (dats m 0 c).leavesExact 2 t = owns (c : Thread nD τ) (ms2 m t) fullShare (iblk m c 2 t) := by
  unfold Dat.leavesExact; rw [after_2]; rfl
theorem leaves_3 (c : Dev nD) (t : Fin (cfgM m).N) : (dats m 0 c).leavesExact 3 t = owns (c : Thread nD τ) (ms3 m t) fullShare (iblk m c 3 t) := by
  unfold Dat.leavesExact; rw [after_3]; rfl

/-- What the body is called with at a point, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 2000000 in
/-- The body at any point: the inputs' buffers hold their blocks; the table word decides which of the two runs applies;
    the invariant and the table pass through unread; nothing is owed. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3]
  rw [leaves_0, leaves_1, leaves_2, leaves_3, leaves_4]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq]
  by_cases h1 : k0_cond1 (grid0.coords t) (wordAt m t) = 1#1
  ·
    have hout : outAt m c t = VO.read (Elt F) (VO.writes (Elt F) VO.junk
        (runA c (grid0.coords t) (ms0 m t) (hs0 m t) (ms1 m t) (hs1 m t) (ms2 m t) (hs2 m t) (ms3 m t) (hs3 m t) (ms4 m t) (hs4 m t)
          (tbl m 0) (iblk m c 0 t) (iblk m c 1 t) (iblk m c 2 t) (iblk m c 3 t) h1 (fun h2 => (cond2_iff _ _).mp h2 h1)).1) := by
      unfold outAt piecesAt; rw [dif_pos h1]
    rw [hout]
    iintro ⟨⟨HΦ, HT⟩, Ho, ⟨%d0, H0⟩, ⟨%d1, H1⟩, ⟨%d2, H2⟩, ⟨%d3, H3⟩, ⟨%d4, H4⟩⟩
    iapply ((runA c (grid0.coords t) (ms0 m t) (hs0 m t) (ms1 m t) (hs1 m t) (ms2 m t) (hs2 m t) (ms3 m t) (hs3 m t) (ms4 m t) (hs4 m t)
          (tbl m 0) (iblk m c 0 t) (iblk m c 1 t) (iblk m c 2 t) (iblk m c 3 t) h1 (fun h2 => (cond2_iff _ _).mp h2 h1)).2 _)
    isplitl [H0]; · iexact H0
    isplitl [H1]; · iexact H1
    isplitl [H2]; · iexact H2
    isplitl [H3]; · iexact H3
    isplitl [HT]; · iexact HT
    isplitl [H4]; · iexists _; iexact H4
    iintro ⟨H0, H1, H2, H3, HT, ⟨%e4, H4⟩⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _ _)
  ·
    have hout : outAt m c t = VO.read (Elt F) (VO.writes (Elt F) VO.junk
        (runB c (grid0.coords t) (ms0 m t) (hs0 m t) (ms1 m t) (hs1 m t) (ms2 m t) (hs2 m t) (ms3 m t) (hs3 m t) (ms4 m t) (hs4 m t)
          (tbl m 0) (iblk m c 0 t) (iblk m c 1 t) (iblk m c 2 t) (iblk m c 3 t) h1 ((cond2_iff _ _).mpr h1)).1) := by
      unfold outAt piecesAt; rw [dif_neg h1]
    rw [hout]
    iintro ⟨⟨HΦ, HT⟩, Ho, ⟨%d0, H0⟩, ⟨%d1, H1⟩, ⟨%d2, H2⟩, ⟨%d3, H3⟩, ⟨%d4, H4⟩⟩
    iapply ((runB c (grid0.coords t) (ms0 m t) (hs0 m t) (ms1 m t) (hs1 m t) (ms2 m t) (hs2 m t) (ms3 m t) (hs3 m t) (ms4 m t) (hs4 m t)
          (tbl m 0) (iblk m c 0 t) (iblk m c 1 t) (iblk m c 2 t) (iblk m c 3 t) h1 ((cond2_iff _ _).mpr h1)).2 _)
    isplitl [H0]; · iexact H0
    isplitl [H1]; · iexact H1
    isplitl [H2]; · iexact H2
    isplitl [H3]; · iexact H3
    isplitl [HT]; · iexact HT
    isplitl [H4]; · iexists _; iexact H4
    iintro ⟨H0, H1, H2, H3, HT, ⟨%e4, H4⟩⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KRun.lean ====
/-
  The kernel program's run and frame: the host lines, the region point by point, the host lines after it. Every weakly
  fair execution terminates, nothing faulting; the region's arrays end at what the write-backs made them, every other
  buffer at what the later lines leave, and no line and no point writes an argument array.
-/
import proofs.«122239_j24352464569736_2_alg».proof.Proof.KObl
import proofs.«122239_j24352464569736_2_alg».proof.Proof.Gen.KernelIdeal.Launch
import proofs.«122239_j24352464569736_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.StableHlo (after_cons after_nil)

variable (m : (ℓ : Loc nD τ sig) → Buf (Elt F) ℓ) (ρ : Dev nD → PrngReg)

/-! ## The run -/

set_option backward.isDefEq.respectTransparency.types false in
/-- From any memory with zero counters every weakly fair execution of @main terminates, and every final state has the
    region's arrays at what the write-backs made them and every other unscoped buffer as the lines after the region
    leave it. -/
theorem run_main : θ_run defs (onTc (τ := τ) (main (F := F))) (s₀ m ρ)
    (Pipeline.FramePost (Pipeline.pin pcfgs (adm m)) (dats m) 0 (Pipeline.afterTail pcfgs (adm m) (dats m) 0 (V0 m) [hostOps1])) :=
  Pipeline.θ_run_frameP_around pcfgs (adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-! ## The arguments are never written -/

theorem prefix_arg0 (W : Valuation τ sig (Elt F)) : StableHlo.after (prefixOps (F := F)).flatten W (main_arg0 : DevRef τ sig) = W (main_arg0 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg0 (W : Valuation τ sig (Elt F)) : StableHlo.after (hostOps1 (F := F)) W (main_arg0 : DevRef τ sig) = W (main_arg0 : DevRef τ sig) := by
  simp only [hostOps1]
  after_results_simp
theorem prefix_arg1 (W : Valuation τ sig (Elt F)) : StableHlo.after (prefixOps (F := F)).flatten W (main_arg1 : DevRef τ sig) = W (main_arg1 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg1 (W : Valuation τ sig (Elt F)) : StableHlo.after (hostOps1 (F := F)) W (main_arg1 : DevRef τ sig) = W (main_arg1 : DevRef τ sig) := by
  simp only [hostOps1]
  after_results_simp
theorem prefix_arg2 (W : Valuation τ sig (Elt F)) : StableHlo.after (prefixOps (F := F)).flatten W (main_arg2 : DevRef τ sig) = W (main_arg2 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg2 (W : Valuation τ sig (Elt F)) : StableHlo.after (hostOps1 (F := F)) W (main_arg2 : DevRef τ sig) = W (main_arg2 : DevRef τ sig) := by
  simp only [hostOps1]
  after_results_simp
theorem prefix_arg3 (W : Valuation τ sig (Elt F)) : StableHlo.after (prefixOps (F := F)).flatten W (main_arg3 : DevRef τ sig) = W (main_arg3 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg3 (W : Valuation τ sig (Elt F)) : StableHlo.after (hostOps1 (F := F)) W (main_arg3 : DevRef τ sig) = W (main_arg3 : DevRef τ sig) := by
  simp only [hostOps1]
  after_results_simp
theorem prefix_arg4 (W : Valuation τ sig (Elt F)) : StableHlo.after (prefixOps (F := F)).flatten W (main_arg4 : DevRef τ sig) = W (main_arg4 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg4 (W : Valuation τ sig (Elt F)) : StableHlo.after (hostOps1 (F := F)) W (main_arg4 : DevRef τ sig) = W (main_arg4 : DevRef τ sig) := by
  simp only [hostOps1]
  after_results_simp
theorem prefix_arg5 (W : Valuation τ sig (Elt F)) : StableHlo.after (prefixOps (F := F)).flatten W (main_arg5 : DevRef τ sig) = W (main_arg5 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg5 (W : Valuation τ sig (Elt F)) : StableHlo.after (hostOps1 (F := F)) W (main_arg5 : DevRef τ sig) = W (main_arg5 : DevRef τ sig) := by
  simp only [hostOps1]
  after_results_simp

theorem afterTail_arg0 (c : Dev nD) :
    Pipeline.afterTail pcfgs (adm m) (dats m) 0 (V0 m) [hostOps1] c main_arg0 = m ((c.tc : Thread nD τ).loc main_arg0) := by
  unfold Pipeline.afterTail
  rw [show ([hostOps1] : List (List (HloOp τ sig (Elt F)))).flatten = hostOps1 from by simp only [List.flatten_cons, List.flatten_nil, List.append_nil],
    tail_arg0, Pipeline.withArrays_of_ne _ _ _ _ main_arg0 (show ∀ w : Fin 5, Pipeline.arrRef spec0 w ≠ main_arg0 from by decide)]
  exact prefix_arg0 _
theorem afterTail_arg1 (c : Dev nD) :
    Pipeline.afterTail pcfgs (adm m) (dats m) 0 (V0 m) [hostOps1] c main_arg1 = m ((c.tc : Thread nD τ).loc main_arg1) := by
  unfold Pipeline.afterTail
  rw [show ([hostOps1] : List (List (HloOp τ sig (Elt F)))).flatten = hostOps1 from by simp only [List.flatten_cons, List.flatten_nil, List.append_nil],
    tail_arg1, Pipeline.withArrays_of_ne _ _ _ _ main_arg1 (show ∀ w : Fin 5, Pipeline.arrRef spec0 w ≠ main_arg1 from by decide)]
  exact prefix_arg1 _
theorem afterTail_arg2 (c : Dev nD) :
    Pipeline.afterTail pcfgs (adm m) (dats m) 0 (V0 m) [hostOps1] c main_arg2 = m ((c.tc : Thread nD τ).loc main_arg2) := by
  unfold Pipeline.afterTail
  rw [show ([hostOps1] : List (List (HloOp τ sig (Elt F)))).flatten = hostOps1 from by simp only [List.flatten_cons, List.flatten_nil, List.append_nil],
    tail_arg2, Pipeline.withArrays_of_ne _ _ _ _ main_arg2 (show ∀ w : Fin 5, Pipeline.arrRef spec0 w ≠ main_arg2 from by decide)]
  exact prefix_arg2 _
theorem afterTail_arg3 (c : Dev nD) :
    Pipeline.afterTail pcfgs (adm m) (dats m) 0 (V0 m) [hostOps1] c main_arg3 = m ((c.tc : Thread nD τ).loc main_arg3) := by
  unfold Pipeline.afterTail
  rw [show ([hostOps1] : List (List (HloOp τ sig (Elt F)))).flatten = hostOps1 from by simp only [List.flatten_cons, List.flatten_nil, List.append_nil],
    tail_arg3, Pipeline.withArrays_of_ne _ _ _ _ main_arg3 (show ∀ w : Fin 5, Pipeline.arrRef spec0 w ≠ main_arg3 from by decide)]
  exact prefix_arg3 _
theorem afterTail_arg4 (c : Dev nD) :
    Pipeline.afterTail pcfgs (adm m) (dats m) 0 (V0 m) [hostOps1] c main_arg4 = m ((c.tc : Thread nD τ).loc main_arg4) := by
  unfold Pipeline.afterTail
  rw [show ([hostOps1] : List (List (HloOp τ sig (Elt F)))).flatten = hostOps1 from by simp only [List.flatten_cons, List.flatten_nil, List.append_nil],
    tail_arg4, Pipeline.withArrays_of_ne _ _ _ _ main_arg4 (show ∀ w : Fin 5, Pipeline.arrRef spec0 w ≠ main_arg4 from by decide)]
  exact prefix_arg4 _
theorem afterTail_arg5 (c : Dev nD) :
    Pipeline.afterTail pcfgs (adm m) (dats m) 0 (V0 m) [hostOps1] c main_arg5 = m ((c.tc : Thread nD τ).loc main_arg5) := by
  unfold Pipeline.afterTail
  rw [show ([hostOps1] : List (List (HloOp τ sig (Elt F)))).flatten = hostOps1 from by simp only [List.flatten_cons, List.flatten_nil, List.append_nil],
    tail_arg5, Pipeline.withArrays_of_ne _ _ _ _ main_arg5 (show ∀ w : Fin 5, Pipeline.arrRef spec0 w ≠ main_arg5 from by decide)]
  exact prefix_arg5 _

/-- THE FRAME: from any memory the program runs to its end, nothing faulting, its six argument arrays as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (show ∀ w : Fin 5, (spec0 w).arr.view.ref ≠ main_arg0 from by decide))).trans (afterTail_arg0 m c),
     ((h c).2 main_arg1 (Pipeline.mem_restRefs_of main_arg1 (by decide) (show ∀ w : Fin 5, (spec0 w).arr.view.ref ≠ main_arg1 from by decide))).trans (afterTail_arg1 m c),
     ((h c).2 main_arg2 (Pipeline.mem_restRefs_of main_arg2 (by decide) (show ∀ w : Fin 5, (spec0 w).arr.view.ref ≠ main_arg2 from by decide))).trans (afterTail_arg2 m c),
     ((h c).2 main_arg3 (Pipeline.mem_restRefs_of main_arg3 (by decide) (show ∀ w : Fin 5, (spec0 w).arr.view.ref ≠ main_arg3 from by decide))).trans (afterTail_arg3 m c),
     ((h c).2 main_arg4 (Pipeline.mem_restRefs_of main_arg4 (by decide) (show ∀ w : Fin 5, (spec0 w).arr.view.ref ≠ main_arg4 from by decide))).trans (afterTail_arg4 m c),
     ((h c).2 main_arg5 (Pipeline.mem_restRefs_of main_arg5 (by decide) (show ∀ w : Fin 5, (spec0 w).arr.view.ref ≠ main_arg5 from by decide))).trans (afterTail_arg5 m c)⟩) (run_main m ρ)

end Cert.KernelIdeal.Hand

end
-- ==== Proof.BBody.lean ====
/-
  The kernel's body at one grid point.

  The body reads one word of the table of live row counts (the entry of the point's expert) and compares the tile's
  first row, 512 times the tile number, with it. When the tile starts below the count it loads the tile of rows and the
  expert's three weight blocks and stores the whole output tile; otherwise it stores the whole zero tile. Either way the
  four input buffers and the table are left as found, and the output buffer is left holding exactly one stored piece.
-/
import proofs.«122239_j24352464569736_2_alg».proof.Proof.Gen.Kernel.Launch
import proofs.«122239_j24352464569736_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The table of live row counts, as the body is handed it: the whole scalar-memory buffer. -/
abbrev tbM : Memref sig .tc .smem S16 .i32 := Memref.whole main_v54

/-- The word the body loads at a grid point: the table's entry for the point's expert. -/
abbrev word (i : grid0.Coords) (T : S16.Idx → Elt F .i32) : Elt F .i32 :=
  View.readAt (Elt F) (tbM).view (Rect.unit (s := S16) (k0_off1 i) S1.size (k0_off1_inb i)).toLoadRect T (Shape.Idx.first (numel1_S1.symm ▸ Nat.one_pos))

set_option maxHeartbeats 4000000 in
/-- A tile that holds data: the body loads its four input tiles, computes, and stores the whole output tile. -/
noncomputable def runA (c : Dev nD) (i : grid0.Coords)
    (arg3 : Memref sig .tc .vmem S1x512x1024 .bf16) (harg3 : arg3.IsWhole) (arg4 : Memref sig .tc .vmem S1x1024x512 .bf16) (harg4 : arg4.IsWhole)
    (arg5 : Memref sig .tc .vmem S1x1024x512 .bf16) (harg5 : arg5.IsWhole) (arg6 : Memref sig .tc .vmem S1x512x1024 .bf16) (harg6 : arg6.IsWhole)
    (arg7 : Memref sig .tc .vmem S1x512x1024 .bf16) (harg7 : arg7.IsWhole)
    (T : S16.Idx → Elt F .i32) (x : Vec F S1x512x1024 .bf16) (wg wu : Vec F S1x1024x512 .bf16) (wd : Vec F S1x512x1024 .bf16)
    (h1 : k0_cond1 i (word (F := F) i T) = 1#1) (h2 : ¬ k0_cond2 i (word (F := F) i T) = 1#1) :
    { L : List (View.Piece (Elt F) S1x512x1024 .bf16) //
      ∀ (K : PUnit → sProp 𝕄),
        iprop(owns (c : Thread nD τ) arg3 fullShare x ∗ owns (c : Thread nD τ) arg4 fullShare wg ∗ owns (c : Thread nD τ) arg5 fullShare wu
            ∗ owns (c : Thread nD τ) arg6 fullShare wd ∗ (tbM.view.loc (c : Thread nD τ) ↦{fullShare.right} T)
            ∗ (∃ d, owns (c : Thread nD τ) arg7 fullShare d)
            ∗ (iprop(owns (c : Thread nD τ) arg3 fullShare x ∗ owns (c : Thread nD τ) arg4 fullShare wg ∗ owns (c : Thread nD τ) arg5 fullShare wu
                ∗ owns (c : Thread nD τ) arg6 fullShare wd ∗ (tbM.view.loc (c : Thread nD τ) ↦{fullShare.right} T)
                ∗ (∃ f, arg7.view.loc (c : Thread nD τ) ↦[arg7.view.set]{fullShare} arg7.view.writes (Elt F) f L)) -∗ K ⟨⟩))
          ⊢ wp frame (wpE (defs₀ (F := F)) Variants.none c none) Set.univ
              (cc0__moe_gemm_kernel i tbM (Memref.isWhole_whole _) arg3 harg3 arg4 harg4 arg5 harg5 arg6 harg6 arg7 harg7) K } := by
  refine ⟨?_, fun K => ?run⟩
  case run =>
    rw [cc0__moe_gemm_kernel_eq_skeleton]; unfold cc0__moe_gemm_kernel_skel
    unfold owns
    iintro ⟨⟨%f3, %hf3, H3⟩, ⟨%f4, %hf4, H4⟩, ⟨%f5, %hf5, H5⟩, ⟨%f6, %hf6, H6⟩, HT, ⟨%d7, %f7, -, H7⟩, Hk⟩
    obtain rfl := harg3.eq_unread hf3; obtain rfl := harg4.eq_unread hf4; obtain rfl := harg5.eq_unread hf5; obtain rfl := harg6.eq_unread hf6
    have hT : (tbM).IsWhole := Memref.isWhole_whole _
    sl_exec (disch := first | (guard_target = k0_cond1 _ _ = _; exact h1) | (guard_target = ¬ k0_cond2 _ _ = _; exact h2) | (guard_target = k0_cond2 _ _ = _ → False; exact h2))
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [HT]; · iexact HT
    iexists _; iexact H7

set_option maxHeartbeats 4000000 in
/-- A tile past its expert's live rows: the body stores the zero tile, whatever the input tiles hold. -/
noncomputable def runB (c : Dev nD) (i : grid0.Coords)
    (arg3 : Memref sig .tc .vmem S1x512x1024 .bf16) (harg3 : arg3.IsWhole) (arg4 : Memref sig .tc .vmem S1x1024x512 .bf16) (harg4 : arg4.IsWhole)
    (arg5 : Memref sig .tc .vmem S1x1024x512 .bf16) (harg5 : arg5.IsWhole) (arg6 : Memref sig .tc .vmem S1x512x1024 .bf16) (harg6 : arg6.IsWhole)
    (arg7 : Memref sig .tc .vmem S1x512x1024 .bf16) (harg7 : arg7.IsWhole)
    (T : S16.Idx → Elt F .i32) (x : Vec F S1x512x1024 .bf16) (wg wu : Vec F S1x1024x512 .bf16) (wd : Vec F S1x512x1024 .bf16)
    (h1 : ¬ k0_cond1 i (word (F := F) i T) = 1#1) (h2 : k0_cond2 i (word (F := F) i T) = 1#1) :
    { L : List (View.Piece (Elt F) S1x512x1024 .bf16) //
      ∀ (K : PUnit → sProp 𝕄),
        iprop(owns (c : Thread nD τ) arg3 fullShare x ∗ owns (c : Thread nD τ) arg4 fullShare wg ∗ owns (c : Thread nD τ) arg5 fullShare wu
            ∗ owns (c : Thread nD τ) arg6 fullShare wd ∗ (tbM.view.loc (c : Thread nD τ) ↦{fullShare.right} T)
            ∗ (∃ d, owns (c : Thread nD τ) arg7 fullShare d)
            ∗ (iprop(owns (c : Thread nD τ) arg3 fullShare x ∗ owns (c : Thread nD τ) arg4 fullShare wg ∗ owns (c : Thread nD τ) arg5 fullShare wu
                ∗ owns (c : Thread nD τ) arg6 fullShare wd ∗ (tbM.view.loc (c : Thread nD τ) ↦{fullShare.right} T)
                ∗ (∃ f, arg7.view.loc (c : Thread nD τ) ↦[arg7.view.set]{fullShare} arg7.view.writes (Elt F) f L)) -∗ K ⟨⟩))
          ⊢ wp frame (wpE (defs₀ (F := F)) Variants.none c none) Set.univ
              (cc0__moe_gemm_kernel i tbM (Memref.isWhole_whole _) arg3 harg3 arg4 harg4 arg5 harg5 arg6 harg6 arg7 harg7) K } := by
  refine ⟨?_, fun K => ?run⟩
  case run =>
    rw [cc0__moe_gemm_kernel_eq_skeleton]; unfold cc0__moe_gemm_kernel_skel
    unfold owns
    iintro ⟨⟨%f3, %hf3, H3⟩, ⟨%f4, %hf4, H4⟩, ⟨%f5, %hf5, H5⟩, ⟨%f6, %hf6, H6⟩, HT, ⟨%d7, %f7, -, H7⟩, Hk⟩
    obtain rfl := harg3.eq_unread hf3; obtain rfl := harg4.eq_unread hf4; obtain rfl := harg5.eq_unread hf5; obtain rfl := harg6.eq_unread hf6
    have hT : (tbM).IsWhole := Memref.isWhole_whole _
    sl_exec (disch := first | (guard_target = k0_cond2 _ _ = _; exact h2) | (guard_target = ¬ k0_cond1 _ _ = _; exact h1) | (guard_target = k0_cond1 _ _ = _ → False; exact h1))
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [HT]; · iexact HT
    iexists _; iexact H7

end Cert.Kernel.Hand

end
-- ==== Proof.BKit.lean ====
/-
  The kernel's @main around its one region: ten stretches of host lines, the region, one more stretch.

  The contents the region is entered with are the fold of the earlier lines over the launch contents; the table of live
  row counts is read off them. The later lines touch neither the table nor any scoped buffer, allocate nothing, and
  write none of the region's five arrays.
-/
import proofs.«122239_j24352464569736_2_alg».proof.Proof.BBody
import proofs.«122239_j24352464569736_2_alg».proof.Proof.Gen.Kernel.Launch
import proofs.«122239_j24352464569736_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## @main around the region -/

variable (m : (ℓ : Loc nD τ sig) → Buf (Elt F) ℓ) (ρ : Dev nD → PrngReg)

/-- The host lines before the region, stretch by stretch. -/
abbrev prefixOps : List (List (HloOp τ sig (Elt F))) :=
  [hostOps0, hostOps0_1, hostOps0_2, hostOps0_3, hostOps0_4, hostOps0_5, hostOps0_6, hostOps0_7, hostOps0_8, hostOps0_9]

/-- The core's buffer contents when the region is entered: after the host lines before it. -/
abbrev V0 (c : Dev nD) : Valuation τ sig (Elt F) := StableHlo.after (prefixOps (F := F)).flatten (fun b => m (c, b))
/-- The same read at a TensorCore reference. -/
abbrev V (c : Dev nD) (b : Ref sig .tc) : Buf (Elt F) ((c : Thread nD τ).loc b) := V0 m c (Proc.devRef .tc b)

/-- The table of live row counts the region is entered with (one device). -/
def tbl : pre0.Contents (Elt F) := fun k => V m (0 : Fin 1) (pre0.ref k)
/-- The pipeline is taken at those contents: no index map reads the table, so any contents are admissible. -/
def adm : (p : Fin 1) → (pcfgs (F := F) p).Adm := fun _ => ⟨tbl m, trivial⟩

theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub⟩

theorem prefix_fresh : (prefixOps (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainPK (Ix := Unit) (Name := ℕ) (U := UR sig nD τ) (Lvl := ℕ) (pcfgs (F := F)) 0 defs₀ 𝒱₀ m (main (F := F)) (V m)
      (fun _ => Pipeline.chain [StableHlo.seq hostOps1]) :=
  Pipeline.hmainP_around (pcfgs (F := F)) 0 defs₀ 𝒱₀ m main prefixOps [hostOps1] prefix_sub prefix_fresh (fun c => (main_chain c).trans rfl)

/-! ## The lines after the region -/

/-- The lines after the region touch the pipeline's arrays and the bypassing buffers only, never the table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) fun k => ?_
  obtain rfl : k = 0 := Subsingleton.elim _ _
  fin_cases hop <;>
    simp only [StableHlo.nullary_bufs, StableHlo.unary_bufs, StableHlo.binary_bufs, StableHlo.ternary_bufs, StableHlo.reshape_bufs,
      Finset.mem_insert, Finset.mem_singleton, not_or] <;>
    (repeat' constructor) <;> exact StableHlo.devRef_ne_of_ne (by decide)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write no array of the pipeline: each writes only its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  fin_cases hop <;> intro w <;> fin_cases w <;>
    simp only [StableHlo.nullary_writes, StableHlo.unary_writes, StableHlo.binary_writes, StableHlo.ternary_writes, StableHlo.reshape_writes,
      Finset.mem_singleton] <;> exact StableHlo.devRef_ne_of_ne (by decide)

end Cert.Kernel.Hand

end
-- ==== Proof.BData.lean ====
/-
  The kernel's region, point by point: where each window's block sits, what the body finds in each staging buffer and
  what it leaves there.

  The four input windows are only read, so each input buffer holds its array's block at every point, fetched there or
  carried over. The output window's block index is the grid point itself, so it is written back at every point, and what
  is written is the one piece the body stored: the computed tile where the tile starts below the expert's live count,
  the zero tile elsewhere (the two branch conditions are each other's negation).
-/
import proofs.«122239_j24352464569736_2_alg».proof.Proof.BKit
import proofs.«122239_j24352464569736_2_alg».proof.Proof.Gen.Kernel.Launch
import proofs.«122239_j24352464569736_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- On every device the table holds those contents (there is one device). -/
theorem V_pre (c : Dev nD) (j : Fin 1) : V m c (pre0.ref j) = tbl m j := by
  obtain rfl : c = 0 := Subsingleton.elim _ _; rfl

/-- The pipeline at the table's contents. -/
abbrev cfgM : Pipeline.Cfg sig Λ₀ := cfg0 (adm m 0)

/-- The table's half the region hands the body. -/
theorem PhiT_eq (c : Dev nD) : (Pipeline.ΦT pre0 (tbl m) c : sProp 𝕄) = (tbM.view.loc (c : Thread nD τ) ↦{fullShare.right} tbl m 0) := by
  unfold Pipeline.ΦT Pipeline.prefHeld
  rw [show (Finset.univ : Finset (Fin 1)) = {(0 : Fin 1)} from by decide, bigSep_singleton]
  rfl

/-! ## The schedule -/

/-- The output window is written back at every point: its block index is the point itself. -/
theorem flush4 (a : (pcfg0 (F := F)).Adm) : ∀ t : Fin (cfg0 a).N, ((cfg0 a).win 4).flush t = true :=
  (by decide +kernel : ∀ t : Fin grid0.N, Pipeline.Window.flushOf grid0 true cc0_transform_4 t = true)

/-- Each window's current staging memref at a point, and its wholeness. -/
abbrev ms0 (t : Fin (cfgM m).N) : Memref sig .tc .vmem S1x512x1024 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1024x512 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1024x512 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S1x512x1024 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x512x1024 .bf16 := spec0_4.stage ((cfgM m).slots t 4)
abbrev hs4 (t : Fin (cfgM m).N) : (ms4 m t).IsWhole := hstage0_4 (((cfgM m).slots t 4).cast nbuf0_4)

/-- The body as the pipeline calls it at a point. -/
abbrev bodyAt (t : Fin (cfgM m).N) : Prog (TpuEff nD τ sig (Elt F) Λ₀ .tc) PUnit :=
  cc0__moe_gemm_kernel (grid0.coords t) tbM (Memref.isWhole_whole _) (ms0 m t) (hs0 m t) (ms1 m t) (hs1 m t) (ms2 m t) (hs2 m t)
    (ms3 m t) (hs3 m t) (ms4 m t) (hs4 m t)

/-! ## The windows' blocks -/

/-- A window's block at a point, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_in0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions exclude each other -/

/-- The second branch's condition is the first's negation: both test one comparison, the second its complement. -/
theorem cond2_iff (i : grid0.Coords) (v : BitVec 32) : k0_cond2 i v = 1#1 ↔ ¬ k0_cond1 i v = 1#1 := by
  have key : ∀ b : BitVec 1, (Scalar.cmpi .ne (Scalar.extui (Scalar.xori b 1#1) : BitVec 32) 0#32 = 1#1)
      ↔ ¬ (Scalar.cmpi .ne (Scalar.extui b : BitVec 32) 0#32 = 1#1) := by decide
  unfold k0_cond2 k0_cond1
  exact key _

/-! ## What the body leaves in the output's buffer -/

/-- One staging buffer of the output window, through which its contents are stated. -/
abbrev VO : View sig .tc .vmem S1x512x1024 .bf16 := (Memref.whole cc0_stg4_0 : Memref sig .tc .vmem S1x512x1024 .bf16).view

/-- The table word the body reads at a point. -/
abbrev wordAt (t : Fin (cfgM m).N) : Elt F .i32 := word (F := F) (grid0.coords t) (tbl m 0)

/-- The pieces the body stores at a point: the computed tile where the tile starts below the expert's live count,
    the zero tile elsewhere. -/
def piecesAt (c : Dev nD) (t : Fin (cfgM m).N) : List (View.Piece (Elt F) S1x512x1024 .bf16) :=
  if h1 : k0_cond1 (grid0.coords t) (wordAt m t) = 1#1 then
    (runA c (grid0.coords t) (ms0 m t) (hs0 m t) (ms1 m t) (hs1 m t) (ms2 m t) (hs2 m t) (ms3 m t) (hs3 m t) (ms4 m t) (hs4 m t)
      (tbl m 0) (iblk m c 0 t) (iblk m c 1 t) (iblk m c 2 t) (iblk m c 3 t) h1 (fun h2 => (cond2_iff _ _).mp h2 h1)).1
  else
    (runB c (grid0.coords t) (ms0 m t) (hs0 m t) (ms1 m t) (hs1 m t) (ms2 m t) (hs2 m t) (ms3 m t) (hs3 m t) (ms4 m t) (hs4 m t)
      (tbl m 0) (iblk m c 0 t) (iblk m c 1 t) (iblk m c 2 t) (iblk m c 3 t) h1 ((cond2_iff _ _).mpr h1)).1

/-- What the output's staging buffer holds after the body at a point: its pieces read back. -/
def outAt (c : Dev nD) (t : Fin (cfgM m).N) : Vec F S1x512x1024 .bf16 :=
  VO.read (Elt F) (VO.writes (Elt F) VO.junk (piecesAt m c t))

/-- Either way the one stored piece is the whole tile. -/
theorem coverA (c : Dev nD) (i : grid0.Coords) (arg3 harg3 arg4 harg4 arg5 harg5 arg6 harg6 arg7 harg7) (T x wg wu wd) (h1 h2) (y : S1x512x1024.Idx) :
    ∃ pc ∈ (runA (F := F) c i arg3 harg3 arg4 harg4 arg5 harg5 arg6 harg6 arg7 harg7 T x wg wu wd h1 h2).1, y ∈ pc.1.set :=
  View.cover_of_tiledL (runA (F := F) c i arg3 harg3 arg4 harg4 arg5 harg5 arg6 harg6 arg7 harg7 T x wg wu wd h1 h2).1 S1x512x1024.size (by sl_kernel_rfl) y
theorem coverB (c : Dev nD) (i : grid0.Coords) (arg3 harg3 arg4 harg4 arg5 harg5 arg6 harg6 arg7 harg7) (T x wg wu wd) (h1 h2) (y : S1x512x1024.Idx) :
    ∃ pc ∈ (runB (F := F) c i arg3 harg3 arg4 harg4 arg5 harg5 arg6 harg6 arg7 harg7 T x wg wu wd h1 h2).1, y ∈ pc.1.set :=
  View.cover_of_tiledL (runB (F := F) c i arg3 harg3 arg4 harg4 arg5 harg5 arg6 harg6 arg7 harg7 T x wg wu wd h1 h2).1 S1x512x1024.size (by sl_kernel_rfl) y

/-! ## The pipeline's proof data -/

/-- The arrays as the region finds them; after the body at a point each input's buffer at its block and the output's
    at what the body stored; the invariant the class's, with the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = outAt m c t := by dsimp only [dats]; try rfl

theorem before_0 (c : Dev nD) (t : Fin (cfgM m).N) (d) : (dats m 0 c).before 0 t d = iblk m c 0 t :=
  before_in0 m (dats m 0 c) (A_eq m c 0) (after_0 m c) t d
theorem before_1 (c : Dev nD) (t : Fin (cfgM m).N) (d) : (dats m 0 c).before 1 t d = iblk m c 1 t :=
  before_in1 m (dats m 0 c) (A_eq m c 1) (after_1 m c) t d
theorem before_2 (c : Dev nD) (t : Fin (cfgM m).N) (d) : (dats m 0 c).before 2 t d = iblk m c 2 t :=
  before_in2 m (dats m 0 c) (A_eq m c 2) (after_2 m c) t d
theorem before_3 (c : Dev nD) (t : Fin (cfgM m).N) (d) : (dats m 0 c).before 3 t d = iblk m c 3 t :=
  before_in3 m (dats m 0 c) (A_eq m c 3) (after_3 m c) t d

/-- The output's buffer is handed back at what the body stored, at every point: the point writes its block back. -/
theorem leaves_4 (c : Dev nD) (t : Fin (cfgM m).N) :
    (dats m 0 c).leavesExact 4 t = owns (c : Thread nD τ) (ms4 m t) fullShare (outAt m c t) := by
  unfold Dat.leavesExact
  rw [flush4 (adm m 0) t, after_4]
  generalize (cfgM m).idle 4 ((cfgM m).grid.coords t) = b
  cases b <;> rfl

end Cert.Kernel.Hand

end
-- ==== Proof.BObl.lean ====
/-
  The body obligation of the kernel's region: at every grid point, from the invariant, the table's half and the five
  staging buffers at what they then hold, the body runs to the same with the output's buffer at the piece it stored.
  The table word decides which of the two runs applies; both leave the inputs and the table as found.
-/
import proofs.«122239_j24352464569736_2_alg».proof.Proof.BData
import proofs.«122239_j24352464569736_2_alg».proof.Proof.Gen.Kernel.Launch
import proofs.«122239_j24352464569736_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

theorem leaves_0 (c : Dev nD) (t : Fin (cfgM m).N) : (dats m 0 c).leavesExact 0 t = owns (c : Thread nD τ) (ms0 m t) fullShare (iblk m c 0 t) := by
  unfold Dat.leavesExact; rw [after_0]; rfl
theorem leaves_1 (c : Dev nD) (t : Fin (cfgM m).N) : (dats m 0 c).leavesExact 1 t = owns (c : Thread nD τ) (ms1 m t) fullShare (iblk m c 1 t) := by
  unfold Dat.leavesExact; rw [after_1]; rfl
theorem leaves_2 (c : Dev nD) (t : Fin (cfgM m).N) : (dats m 0 c).leavesExact 2 t = owns (c : Thread nD τ) (ms2 m t) fullShare (iblk m c 2 t) := by
  unfold Dat.leavesExact; rw [after_2]; rfl
theorem leaves_3 (c : Dev nD) (t : Fin (cfgM m).N) : (dats m 0 c).leavesExact 3 t = owns (c : Thread nD τ) (ms3 m t) fullShare (iblk m c 3 t) := by
  unfold Dat.leavesExact; rw [after_3]; rfl

/-- What the body is called with at a point, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))

/-- and what it returns. -/
def bodyPost (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 2000000 in
/-- The body at any point: the inputs' buffers hold their blocks; the table word decides which of the two runs applies;
    the invariant and the table pass through unread; nothing is owed. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3]
  rw [leaves_0, leaves_1, leaves_2, leaves_3, leaves_4]
  rw [show (dats m 0 c).Φ t.succ = (dats m 0 c).Φ t.castSucc from rfl,
    show (dats m 0 c).owesAt () t.succ = (dats m 0 c).owesAt () t.castSucc from rfl]
  rw [show (dats m 0 c).Φ t.castSucc = iprop(Pipeline.ΦA spec0 c ∗ Pipeline.ΦT pre0 (tbl m) c) from rfl, PhiT_eq]
  by_cases h1 : k0_cond1 (grid0.coords t) (wordAt m t) = 1#1
  ·
    have hout : outAt m c t = VO.read (Elt F) (VO.writes (Elt F) VO.junk
        (runA c (grid0.coords t) (ms0 m t) (hs0 m t) (ms1 m t) (hs1 m t) (ms2 m t) (hs2 m t) (ms3 m t) (hs3 m t) (ms4 m t) (hs4 m t)
          (tbl m 0) (iblk m c 0 t) (iblk m c 1 t) (iblk m c 2 t) (iblk m c 3 t) h1 (fun h2 => (cond2_iff _ _).mp h2 h1)).1) := by
      unfold outAt piecesAt; rw [dif_pos h1]
    rw [hout]
    iintro ⟨⟨HΦ, HT⟩, Ho, ⟨%d0, H0⟩, ⟨%d1, H1⟩, ⟨%d2, H2⟩, ⟨%d3, H3⟩, ⟨%d4, H4⟩⟩
    iapply ((runA c (grid0.coords t) (ms0 m t) (hs0 m t) (ms1 m t) (hs1 m t) (ms2 m t) (hs2 m t) (ms3 m t) (hs3 m t) (ms4 m t) (hs4 m t)
          (tbl m 0) (iblk m c 0 t) (iblk m c 1 t) (iblk m c 2 t) (iblk m c 3 t) h1 (fun h2 => (cond2_iff _ _).mp h2 h1)).2 _)
    isplitl [H0]; · iexact H0
    isplitl [H1]; · iexact H1
    isplitl [H2]; · iexact H2
    isplitl [H3]; · iexact H3
    isplitl [HT]; · iexact HT
    isplitl [H4]; · iexists _; iexact H4
    iintro ⟨H0, H1, H2, H3, HT, ⟨%e4, H4⟩⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverA c _ _ _ _ _ _ _ _ _ _ _ _ _ _ _ _ _ _)
  ·
    have hout : outAt m c t = VO.read (Elt F) (VO.writes (Elt F) VO.junk
        (runB c (grid0.coords t) (ms0 m t) (hs0 m t) (ms1 m t) (hs1 m t) (ms2 m t) (hs2 m t) (ms3 m t) (hs3 m t) (ms4 m t) (hs4 m t)
          (tbl m 0) (iblk m c 0 t) (iblk m c 1 t) (iblk m c 2 t) (iblk m c 3 t) h1 ((cond2_iff _ _).mpr h1)).1) := by
      unfold outAt piecesAt; rw [dif_neg h1]
    rw [hout]
    iintro ⟨⟨HΦ, HT⟩, Ho, ⟨%d0, H0⟩, ⟨%d1, H1⟩, ⟨%d2, H2⟩, ⟨%d3, H3⟩, ⟨%d4, H4⟩⟩
    iapply ((runB c (grid0.coords t) (ms0 m t) (hs0 m t) (ms1 m t) (hs1 m t) (ms2 m t) (hs2 m t) (ms3 m t) (hs3 m t) (ms4 m t) (hs4 m t)
          (tbl m 0) (iblk m c 0 t) (iblk m c 1 t) (iblk m c 2 t) (iblk m c 3 t) h1 ((cond2_iff _ _).mpr h1)).2 _)
    isplitl [H0]; · iexact H0
    isplitl [H1]; · iexact H1
    isplitl [H2]; · iexact H2
    isplitl [H3]; · iexact H3
    isplitl [HT]; · iexact HT
    isplitl [H4]; · iexists _; iexact H4
    iintro ⟨H0, H1, H2, H3, HT, ⟨%e4, H4⟩⟩
    isplitl [HΦ HT]
    · isplitl [HΦ]; · iexact HΦ
      iexact HT
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverB c _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BRun.lean ====
/-
  The kernel program's run and frame: the host lines, the region point by point, the host lines after it. Every weakly
  fair execution terminates, nothing faulting; the region's arrays end at what the write-backs made them, every other
  buffer at what the later lines leave, and no line and no point writes an argument array.
-/
import proofs.«122239_j24352464569736_2_alg».proof.Proof.BObl
import proofs.«122239_j24352464569736_2_alg».proof.Proof.Gen.Kernel.Launch
import proofs.«122239_j24352464569736_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.StableHlo (after_cons after_nil)

variable (m : (ℓ : Loc nD τ sig) → Buf (Elt F) ℓ) (ρ : Dev nD → PrngReg)

/-! ## The run -/

set_option backward.isDefEq.respectTransparency.types false in
/-- From any memory with zero counters every weakly fair execution of @main terminates, and every final state has the
    region's arrays at what the write-backs made them and every other unscoped buffer as the lines after the region
    leave it. -/
theorem run_main : θ_run defs (onTc (τ := τ) (main (F := F))) (s₀ m ρ)
    (Pipeline.FramePost (Pipeline.pin pcfgs (adm m)) (dats m) 0 (Pipeline.afterTail pcfgs (adm m) (dats m) 0 (V0 m) [hostOps1])) :=
  Pipeline.θ_run_frameP_around pcfgs (adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-! ## The arguments are never written -/

theorem prefix_arg0 (W : Valuation τ sig (Elt F)) : StableHlo.after (prefixOps (F := F)).flatten W (main_arg0 : DevRef τ sig) = W (main_arg0 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg0 (W : Valuation τ sig (Elt F)) : StableHlo.after (hostOps1 (F := F)) W (main_arg0 : DevRef τ sig) = W (main_arg0 : DevRef τ sig) := by
  simp only [hostOps1]
  after_results_simp
theorem prefix_arg1 (W : Valuation τ sig (Elt F)) : StableHlo.after (prefixOps (F := F)).flatten W (main_arg1 : DevRef τ sig) = W (main_arg1 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg1 (W : Valuation τ sig (Elt F)) : StableHlo.after (hostOps1 (F := F)) W (main_arg1 : DevRef τ sig) = W (main_arg1 : DevRef τ sig) := by
  simp only [hostOps1]
  after_results_simp
theorem prefix_arg2 (W : Valuation τ sig (Elt F)) : StableHlo.after (prefixOps (F := F)).flatten W (main_arg2 : DevRef τ sig) = W (main_arg2 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg2 (W : Valuation τ sig (Elt F)) : StableHlo.after (hostOps1 (F := F)) W (main_arg2 : DevRef τ sig) = W (main_arg2 : DevRef τ sig) := by
  simp only [hostOps1]
  after_results_simp
theorem prefix_arg3 (W : Valuation τ sig (Elt F)) : StableHlo.after (prefixOps (F := F)).flatten W (main_arg3 : DevRef τ sig) = W (main_arg3 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg3 (W : Valuation τ sig (Elt F)) : StableHlo.after (hostOps1 (F := F)) W (main_arg3 : DevRef τ sig) = W (main_arg3 : DevRef τ sig) := by
  simp only [hostOps1]
  after_results_simp
theorem prefix_arg4 (W : Valuation τ sig (Elt F)) : StableHlo.after (prefixOps (F := F)).flatten W (main_arg4 : DevRef τ sig) = W (main_arg4 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg4 (W : Valuation τ sig (Elt F)) : StableHlo.after (hostOps1 (F := F)) W (main_arg4 : DevRef τ sig) = W (main_arg4 : DevRef τ sig) := by
  simp only [hostOps1]
  after_results_simp
theorem prefix_arg5 (W : Valuation τ sig (Elt F)) : StableHlo.after (prefixOps (F := F)).flatten W (main_arg5 : DevRef τ sig) = W (main_arg5 : DevRef τ sig) := by
  simp only [prefixOps, hostOps0, hostOps0_1, hostOps0_2, hostOps0_3, hostOps0_4, hostOps0_5, hostOps0_6, hostOps0_7, hostOps0_8, hostOps0_9, List.flatten_cons, List.flatten_nil, List.append_nil, List.cons_append, List.nil_append]
  after_results_simp
theorem tail_arg5 (W : Valuation τ sig (Elt F)) : StableHlo.after (hostOps1 (F := F)) W (main_arg5 : DevRef τ sig) = W (main_arg5 : DevRef τ sig) := by
  simp only [hostOps1]
  after_results_simp

theorem afterTail_arg0 (c : Dev nD) :
    Pipeline.afterTail pcfgs (adm m) (dats m) 0 (V0 m) [hostOps1] c main_arg0 = m ((c.tc : Thread nD τ).loc main_arg0) := by
  unfold Pipeline.afterTail
  rw [show ([hostOps1] : List (List (HloOp τ sig (Elt F)))).flatten = hostOps1 from by simp only [List.flatten_cons, List.flatten_nil, List.append_nil],
    tail_arg0, Pipeline.withArrays_of_ne _ _ _ _ main_arg0 (show ∀ w : Fin 5, Pipeline.arrRef spec0 w ≠ main_arg0 from by decide)]
  exact prefix_arg0 _
theorem afterTail_arg1 (c : Dev nD) :
    Pipeline.afterTail pcfgs (adm m) (dats m) 0 (V0 m) [hostOps1] c main_arg1 = m ((c.tc : Thread nD τ).loc main_arg1) := by
  unfold Pipeline.afterTail
  rw [show ([hostOps1] : List (List (HloOp τ sig (Elt F)))).flatten = hostOps1 from by simp only [List.flatten_cons, List.flatten_nil, List.append_nil],
    tail_arg1, Pipeline.withArrays_of_ne _ _ _ _ main_arg1 (show ∀ w : Fin 5, Pipeline.arrRef spec0 w ≠ main_arg1 from by decide)]
  exact prefix_arg1 _
theorem afterTail_arg2 (c : Dev nD) :
    Pipeline.afterTail pcfgs (adm m) (dats m) 0 (V0 m) [hostOps1] c main_arg2 = m ((c.tc : Thread nD τ).loc main_arg2) := by
  unfold Pipeline.afterTail
  rw [show ([hostOps1] : List (List (HloOp τ sig (Elt F)))).flatten = hostOps1 from by simp only [List.flatten_cons, List.flatten_nil, List.append_nil],
    tail_arg2, Pipeline.withArrays_of_ne _ _ _ _ main_arg2 (show ∀ w : Fin 5, Pipeline.arrRef spec0 w ≠ main_arg2 from by decide)]
  exact prefix_arg2 _
theorem afterTail_arg3 (c : Dev nD) :
    Pipeline.afterTail pcfgs (adm m) (dats m) 0 (V0 m) [hostOps1] c main_arg3 = m ((c.tc : Thread nD τ).loc main_arg3) := by
  unfold Pipeline.afterTail
  rw [show ([hostOps1] : List (List (HloOp τ sig (Elt F)))).flatten = hostOps1 from by simp only [List.flatten_cons, List.flatten_nil, List.append_nil],
    tail_arg3, Pipeline.withArrays_of_ne _ _ _ _ main_arg3 (show ∀ w : Fin 5, Pipeline.arrRef spec0 w ≠ main_arg3 from by decide)]
  exact prefix_arg3 _
theorem afterTail_arg4 (c : Dev nD) :
    Pipeline.afterTail pcfgs (adm m) (dats m) 0 (V0 m) [hostOps1] c main_arg4 = m ((c.tc : Thread nD τ).loc main_arg4) := by
  unfold Pipeline.afterTail
  rw [show ([hostOps1] : List (List (HloOp τ sig (Elt F)))).flatten = hostOps1 from by simp only [List.flatten_cons, List.flatten_nil, List.append_nil],
    tail_arg4, Pipeline.withArrays_of_ne _ _ _ _ main_arg4 (show ∀ w : Fin 5, Pipeline.arrRef spec0 w ≠ main_arg4 from by decide)]
  exact prefix_arg4 _
theorem afterTail_arg5 (c : Dev nD) :
    Pipeline.afterTail pcfgs (adm m) (dats m) 0 (V0 m) [hostOps1] c main_arg5 = m ((c.tc : Thread nD τ).loc main_arg5) := by
  unfold Pipeline.afterTail
  rw [show ([hostOps1] : List (List (HloOp τ sig (Elt F)))).flatten = hostOps1 from by simp only [List.flatten_cons, List.flatten_nil, List.append_nil],
    tail_arg5, Pipeline.withArrays_of_ne _ _ _ _ main_arg5 (show ∀ w : Fin 5, Pipeline.arrRef spec0 w ≠ main_arg5 from by decide)]
  exact prefix_arg5 _

/-- THE FRAME: from any memory the program runs to its end, nothing faulting, its six argument arrays as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (show ∀ w : Fin 5, (spec0 w).arr.view.ref ≠ main_arg0 from by decide))).trans (afterTail_arg0 m c),
     ((h c).2 main_arg1 (Pipeline.mem_restRefs_of main_arg1 (by decide) (show ∀ w : Fin 5, (spec0 w).arr.view.ref ≠ main_arg1 from by decide))).trans (afterTail_arg1 m c),
     ((h c).2 main_arg2 (Pipeline.mem_restRefs_of main_arg2 (by decide) (show ∀ w : Fin 5, (spec0 w).arr.view.ref ≠ main_arg2 from by decide))).trans (afterTail_arg2 m c),
     ((h c).2 main_arg3 (Pipeline.mem_restRefs_of main_arg3 (by decide) (show ∀ w : Fin 5, (spec0 w).arr.view.ref ≠ main_arg3 from by decide))).trans (afterTail_arg3 m c),
     ((h c).2 main_arg4 (Pipeline.mem_restRefs_of main_arg4 (by decide) (show ∀ w : Fin 5, (spec0 w).arr.view.ref ≠ main_arg4 from by decide))).trans (afterTail_arg4 m c),
     ((h c).2 main_arg5 (Pipeline.mem_restRefs_of main_arg5 (by decide) (show ∀ w : Fin 5, (spec0 w).arr.view.ref ≠ main_arg5 from by decide))).trans (afterTail_arg5 m c)⟩) (run_main m ρ)

end Cert.Kernel.Hand

end
-- ==== Proof.LibSortRank.lean ====
/-
  A stable sort by a key, read as a ranking.

  A stable sort of `n` positions by a comparator "the key is strictly smaller" (keys in any linear order) reads the
  table through one bijection `π` of the positions, and along `π` the keys never decrease. Hence the sorted
  position `i` of an element with key `e` lies in the bucket of `e`:

      #{ j | key j < e }  ≤  i  <  #{ j | key j < e } + #{ j | key j = e }.

  This is what turns "positions grouped by an id, each group numbered from its start" (an argsort by id, a
  histogram of the ids and its exclusive prefix sum) into the statement that the number a position gets inside its
  group is smaller than the group's size.
-/
import Idealize.ShloMosaic.Lib.SortFacts
import Mathlib.Data.Fintype.Card
import Mathlib.Order.Interval.Finset.Fin

namespace Idealize.ShloMosaic.SortRank

open Finset

/-! ## The two-operand sort of a rank-1 table reads both operands through one self-map of the positions -/

/-- The self-map of the positions through which `Host.sort2` of two rank-1 tables along axis 0 reads them. -/
noncomputable def perm2 {n : Nat} {α β : Type} (cmp : α × β → α × β → BitVec 1) (x : (⟨1, ![n]⟩ : Shape).Idx → α)
    (y : (⟨1, ![n]⟩ : Shape).Idx → β) : Fin n → Fin n :=
  sortedFrom (fun k k' => cmp (x (Shape.Idx.ofFin k), y (Shape.Idx.ofFin k)) (x (Shape.Idx.ofFin k'), y (Shape.Idx.ofFin k')) == 1#1)

theorem sort2_rank1_fst {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).1 j = x (Shape.Idx.ofFin (perm2 cmp x y (j 0))) := by
  unfold Host.sort2 perm2
  simp

theorem sort2_rank1_snd {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (Shape.Idx.ofFin (perm2 cmp x y (j 0))) := by
  unfold Host.sort2 perm2
  simp

theorem perm2_bijective {n : Nat} {α β : Type} (cmp : α × β → α × β → BitVec 1) (x : (⟨1, ![n]⟩ : Shape).Idx → α)
    (y : (⟨1, ![n]⟩ : Shape).Idx → β) : Function.Bijective (perm2 cmp x y) :=
  ⟨sortedFrom_injective _, sortedFrom_surjective _⟩

/-! ## Sorting by a key: the keys never decrease, and a sorted position lies in its key's bucket -/

section key
variable {n : Nat} {κ : Type} [LinearOrder κ] (key : Fin n → κ) (before : Fin n → Fin n → Bool)
  (hbefore : ∀ k k', before k k' = true ↔ key k < key k')

include hbefore

/-- Along the sorting permutation the keys never decrease. -/
theorem key_mono {i j : Fin n} (hij : i ≤ j) : key (sortedFrom before i) ≤ key (sortedFrom before j) := by
  rcases hij.lt_or_eq with h | rfl
  · have hno := sortedFrom_noInversion before before
      (fun a b hab => by
        cases hba : before b a
        · rfl
        · exact absurd ((hbefore b a).mp hba) (not_lt.mpr ((hbefore a b).mp hab).le))
      (fun _ _ h => h)
      (fun a b c hab hbc => by
        cases hac : before a c
        · rfl
        · have h1 : ¬ key a < key b := fun h => by rw [(hbefore a b).mpr h] at hab; exact Bool.noConfusion hab
          have h2 : ¬ key b < key c := fun h => by rw [(hbefore b c).mpr h] at hbc; exact Bool.noConfusion hbc
          exact absurd ((hbefore a c).mp hac) (not_lt.mpr ((not_lt.mp h2).trans (not_lt.mp h1))))
      i j h
    refine not_lt.mp fun hlt => ?_
    rw [(hbefore _ _).mpr hlt] at hno
    exact Bool.noConfusion hno
  · exact le_rfl

/-- Counting positions by a property of the element the sort puts there is counting elements. -/
theorem card_filter_sorted (P : Fin n → Prop) [DecidablePred P] :
    (univ.filter fun i' : Fin n => P (sortedFrom before i')).card = (univ.filter fun j : Fin n => P j).card :=
  Finset.card_bijective (sortedFrom before) ⟨sortedFrom_injective before, sortedFrom_surjective before⟩
    (fun i' => by simp only [mem_filter, mem_univ, true_and])

/-- The elements with a strictly smaller key all come before position `i`. -/
theorem card_lt_le (i : Fin n) : (univ.filter fun j : Fin n => key j < key (sortedFrom before i)).card ≤ i.val := by
  rw [← card_filter_sorted key before hbefore (fun j => key j < key (sortedFrom before i))]
  calc (univ.filter fun i' : Fin n => key (sortedFrom before i') < key (sortedFrom before i)).card
      ≤ (Finset.Iio i).card := Finset.card_le_card fun i' hi' => by
        simp only [mem_filter, mem_univ, true_and] at hi'
        refine Finset.mem_Iio.mpr (lt_of_not_ge fun hge => ?_)
        exact absurd hi' (not_lt.mpr (key_mono key before hbefore hge))
    _ = i.val := Fin.card_Iio i

/-- Position `i` and everything before it hold elements whose key is at most position `i`'s. -/
theorem lt_card_le (i : Fin n) : i.val < (univ.filter fun j : Fin n => key j ≤ key (sortedFrom before i)).card := by
  rw [← card_filter_sorted key before hbefore (fun j => key j ≤ key (sortedFrom before i))]
  calc i.val < (Finset.Iic i).card := by rw [Fin.card_Iic]; exact Nat.lt_succ_self _
    _ ≤ (univ.filter fun i' : Fin n => key (sortedFrom before i') ≤ key (sortedFrom before i)).card :=
      Finset.card_le_card fun i' hi' => by
        simp only [mem_filter, mem_univ, true_and]
        exact key_mono key before hbefore (Finset.mem_Iic.mp hi')

/-- The number a sorted position gets inside its key's group — its position less the number of elements with a
    smaller key — is smaller than the group's size. -/
theorem rank_in_bucket (i : Fin n) :
    i.val - (univ.filter fun j : Fin n => key j < key (sortedFrom before i)).card
      < (univ.filter fun j : Fin n => key j = key (sortedFrom before i)).card := by
  have h1 := card_lt_le key before hbefore i
  have h2 := lt_card_le key before hbefore i
  have hsplit : (univ.filter fun j : Fin n => key j ≤ key (sortedFrom before i)).card
      = (univ.filter fun j : Fin n => key j < key (sortedFrom before i)).card
        + (univ.filter fun j : Fin n => key j = key (sortedFrom before i)).card := by
    rw [← Finset.card_union_of_disjoint]
    · congr 1
      ext j
      simp only [mem_filter, mem_univ, true_and, mem_union]
      exact le_iff_lt_or_eq
    · refine Finset.disjoint_filter.mpr fun j _ hlt heq => ?_
      exact absurd heq (ne_of_lt hlt)
  omega

end key

/-! ## A histogram of the keys and its exclusive prefix sum

With natural-number keys, the group sizes `cnt e = #{ j | key j = e }` and their exclusive prefix sum
`∑ e' < e, cnt e'` — the position where group `e` starts once the positions are sorted by key: the prefix sum is the
number of strictly smaller keys, so a sorted position less its group's start is below its group's size. -/

section histogram
variable {n : Nat} (key : Fin n → Nat)

/-- The sizes of the groups below `e` add up to the number of keys below `e`. -/
theorem sum_card_eq_lt (e : Nat) :
    (∑ e' ∈ Finset.range e, (univ.filter fun j : Fin n => key j = e').card) = (univ.filter fun j : Fin n => key j < e).card := by
  rw [Finset.card_eq_sum_card_fiberwise (f := key) (s := univ.filter fun j : Fin n => key j < e) (t := Finset.range e)
    (fun j hj => Finset.mem_range.mpr (Finset.mem_filter.mp hj).2)]
  refine Finset.sum_congr rfl fun e' he' => ?_
  congr 1
  ext j
  simp only [mem_filter, mem_univ, true_and]
  constructor
  · intro h; exact ⟨h ▸ Finset.mem_range.mp he', h⟩
  · intro h; exact h.2

variable (before : Fin n → Fin n → Bool) (hbefore : ∀ k k', before k k' = true ↔ key k < key k')
include hbefore

/-- A group's start is at or before each of its sorted positions. -/
theorem start_le (i : Fin n) :
    (∑ e' ∈ Finset.range (key (sortedFrom before i)), (univ.filter fun j : Fin n => key j = e').card) ≤ i.val := by
  rw [sum_card_eq_lt]
  exact card_lt_le key before hbefore i

/-- Numbering inside the groups: a sorted position less its group's start is below the group's size. -/
theorem sub_start_lt (i : Fin n) :
    i.val - (∑ e' ∈ Finset.range (key (sortedFrom before i)), (univ.filter fun j : Fin n => key j = e').card)
      < (univ.filter fun j : Fin n => key j = key (sortedFrom before i)).card := by
  rw [sum_card_eq_lt]
  exact rank_in_bucket key before hbefore i

end histogram

/-! ## The comparator an argsort of machine words prints

An argsort by signed comparison of the keys (the carried positions do not take part) sorts by the keys read as
signed integers: its "before" relation is `<` on `toInt`, so everything above applies with `key := toInt` (or, for
keys known non-negative, `toInt.toNat`). -/

/-- "Sorts strictly before" under the signed comparison of the first components is `<` on the signed readings. -/
theorem slt_before_iff {w : Nat} {β : Type} (l r : BitVec w × β) :
    ((IntOp.cmpi .slt l.1 r.1 == 1#1) = true) ↔ l.1.toInt < r.1.toInt := by
  unfold IntOp.cmpi
  rw [beq_iff_eq]
  cases h : l.1.slt r.1
  · simp only [BitVec.ofBool_false]
    constructor
    · intro h0; exact absurd h0 (by decide)
    · intro hlt
      have hs := BitVec.slt_iff_toInt_lt.mpr hlt
      rw [h] at hs
      exact absurd hs (by decide)
  · simp only [BitVec.ofBool_true]
    constructor
    · intro _; exact BitVec.slt_iff_toInt_lt.mp h
    · intro _; rfl

/-- For non-negative keys the order on the signed readings is the order on their natural numbers. -/
theorem toInt_lt_iff_toNat_of_nonneg {a b : Int} (ha : 0 ≤ a) (hb : 0 ≤ b) : a < b ↔ a.toNat < b.toNat := by
  omega

end Idealize.ShloMosaic.SortRank
-- ==== Proof.LibCumsum.lean ====
/-
  An integer running sum written as a sliding window.

  jax writes `cumsum` of `n` integers as a `reduce_window` by addition: a window of `n` positions, stride one, the
  operand padded by `n - 1` copies of the initial value in front and none behind. With the initial value `0`, result
  `j` is the sum of the operand's entries `0 … j` (as machine words: the sum wraps as the additions do).
-/
import Idealize.ShloMosaic.PureOps
import Idealize.ShloMosaic.Lib.SortFacts
import Mathlib.Algebra.BigOperators.Fin
import Mathlib.Data.BitVec

namespace Idealize.ShloMosaic.Cumsum

open Finset

/-- A left fold by addition is the start plus the sum of the terms. -/
theorem foldl_add_eq_sum {M ι : Type} [AddCommMonoid M] (g : ι → M) (l : List ι) (v : M) :
    l.foldl (fun r m => r + g m) v = v + (l.map g).sum := by
  induction l generalizing v with
  | nil => simp
  | cons a l ih => simp [ih, add_assoc]

/-- The positions of a rank-1 shape are its coordinates. -/
def idx1 (n : Nat) : Fin n ≃ (⟨1, ![n]⟩ : Shape).Idx where
  toFun := Shape.Idx.ofFin
  invFun q := q 0
  left_inv k := Shape.Idx.ofFin_zero k
  right_inv q := (Shape.Idx.eq_ofFin q).symm

/-- The table's entry at a natural number, zero past its end. -/
def entry {n w : Nat} (x : (⟨1, ![n]⟩ : Shape).Idx → BitVec w) (m : Nat) : BitVec w :=
  if hm : m < n then x (Shape.Idx.ofFin ⟨m, hm⟩) else 0

/-- Result `j` of the sliding-window running sum is the sum of the entries up to `j`. -/
theorem reduceWindow_cumsum {n w : Nat} (x : (⟨1, ![n]⟩ : Shape).Idx → BitVec w)
    (init : (⟨0, ![]⟩ : Shape).Idx → BitVec w)
    (h : (⟨1, ![n]⟩ : Shape).ReduceWindows ![n] ![1] ![n - 1] ![0] ⟨1, ![n]⟩)
    (hu : 0 < (⟨0, ![]⟩ : Shape).numel) (hinit : init (Shape.Idx.first hu) = 0)
    (j : (⟨1, ![n]⟩ : Shape).Idx) :
    Host.reduceWindow (s := ⟨1, ![n]⟩) IntOp.addi ![n] ![1] ![n - 1] ![0] x init h hu j
      = ∑ k ∈ univ.filter (fun k : Fin n => k ≤ j 0), x (Shape.Idx.ofFin k) := by
  unfold Host.reduceWindow
  simp only [IntOp.addi, hinit]
  rw [foldl_add_eq_sum, zero_add, ← Fin.sum_univ_def]
  have hj : (j 0).val < n := (j 0).isLt
  have hN : (⟨1, ![n]⟩ : Shape).numel = n := by simp [Shape.numel]
  -- each term, as a function of the natural number of the window position
  have hterm : ∀ i : Fin (⟨1, ![n]⟩ : Shape).numel,
      (if h_1 : ∀ a : Fin 1, ![n - 1] a ≤ (j (Fin.cast h.1.symm a)).val * ![1] a + ((⟨1, ![n]⟩ : Shape).rowMajor.symm i a).val ∧
            (j (Fin.cast h.1.symm a)).val * ![1] a + ((⟨1, ![n]⟩ : Shape).rowMajor.symm i a).val - ![n - 1] a < ![n] a then
          x fun a => ⟨(j (Fin.cast h.1.symm a)).val * ![1] a + ((⟨1, ![n]⟩ : Shape).rowMajor.symm i a).val - ![n - 1] a, (h_1 a).2⟩
        else 0)
        = if n - 1 ≤ (j 0).val + i.val then entry x ((j 0).val + i.val - (n - 1)) else 0 := by
    intro i
    have hi : (((⟨1, ![n]⟩ : Shape).rowMajor.symm i) 0).val = i.val := by
      have := Shape.rowMajor_val_one ((⟨1, ![n]⟩ : Shape).rowMajor.symm i)
      rw [Equiv.apply_symm_apply] at this
      exact this.symm
    have hil : i.val < n := lt_of_lt_of_eq i.isLt hN
    by_cases hc : n - 1 ≤ (j 0).val + i.val
    · have hcond : ∀ a : Fin 1, ![n - 1] a ≤ (j (Fin.cast h.1.symm a)).val * ![1] a + ((⟨1, ![n]⟩ : Shape).rowMajor.symm i a).val ∧
            (j (Fin.cast h.1.symm a)).val * ![1] a + ((⟨1, ![n]⟩ : Shape).rowMajor.symm i a).val - ![n - 1] a < ![n] a := by
        intro a
        obtain rfl : a = 0 := Subsingleton.elim _ _
        show n - 1 ≤ (j 0).val * 1 + _ ∧ (j 0).val * 1 + _ - (n - 1) < n
        rw [hi]; omega
      rw [dif_pos hcond, if_pos hc]
      have hlt : (j 0).val + i.val - (n - 1) < n := by omega
      rw [entry, dif_pos hlt]
      refine congrArg x (funext fun a => ?_)
      obtain rfl : a = 0 := Subsingleton.elim _ _
      refine Fin.ext ?_
      show (j 0).val * 1 + _ - (n - 1) = _
      rw [hi]; simp
    · rw [dif_neg (fun hall => hc ?_), if_neg hc]
      have := (hall 0).1
      have e : (![n - 1] (0 : Fin 1) ≤ (j (Fin.cast h.1.symm 0)).val * ![1] (0 : Fin 1) + ((⟨1, ![n]⟩ : Shape).rowMajor.symm i 0).val)
          = (n - 1 ≤ (j 0).val * 1 + ((⟨1, ![n]⟩ : Shape).rowMajor.symm i 0).val) := rfl
      rw [e, hi] at this; omega
  rw [Finset.sum_congr rfl (fun i _ => hterm i)]
  rw [Fin.sum_univ_eq_sum_range (fun m => if n - 1 ≤ (j 0).val + m then entry x ((j 0).val + m - (n - 1)) else 0), hN]
  have hR : ∑ k ∈ univ.filter (fun k : Fin n => k ≤ j 0), x (Shape.Idx.ofFin k)
      = ∑ m ∈ Finset.range n, if m ≤ (j 0).val then entry x m else 0 := by
    rw [← Fin.sum_univ_eq_sum_range (fun m => if m ≤ (j 0).val then entry x m else 0), Finset.sum_filter]
    refine Finset.sum_congr rfl fun k _ => ?_
    by_cases hk : k ≤ j 0
    · rw [if_pos hk, if_pos (Fin.le_def.mp hk), entry, dif_pos k.isLt]
    · rw [if_neg hk, if_neg (fun hle => hk (Fin.le_def.mpr hle))]
  rw [hR, ← Finset.sum_filter, ← Finset.sum_filter]
  refine Finset.sum_nbij' (fun m => (j 0).val + m - (n - 1)) (fun k => k + (n - 1) - (j 0).val) ?_ ?_ ?_ ?_ ?_
  · intro m hm; simp only [Finset.mem_filter, Finset.mem_range] at hm ⊢; omega
  · intro k hk; simp only [Finset.mem_filter, Finset.mem_range] at hk ⊢; omega
  · intro m hm; simp only [Finset.mem_filter, Finset.mem_range] at hm; show (j 0).val + m - (n - 1) + (n - 1) - (j 0).val = m; omega
  · intro k hk; simp only [Finset.mem_filter, Finset.mem_range] at hk; show (j 0).val + (k + (n - 1) - (j 0).val) - (n - 1) = k; omega
  · intro m _; rfl

/-- At a literal length: sixteen 32-bit counters, the window padded by fifteen in front. -/
example (x : (⟨1, ![16]⟩ : Shape).Idx → BitVec 32) (init : (⟨0, ![]⟩ : Shape).Idx → BitVec 32)
    (h : (⟨1, ![16]⟩ : Shape).ReduceWindows ![16] ![1] ![15] ![0] ⟨1, ![16]⟩)
    (hu : 0 < (⟨0, ![]⟩ : Shape).numel) (hinit : init (Shape.Idx.first hu) = 0) (j : (⟨1, ![16]⟩ : Shape).Idx) :
    Host.reduceWindow (s := ⟨1, ![16]⟩) IntOp.addi ![16] ![1] ![15] ![0] x init h hu j
      = ∑ k ∈ univ.filter (fun k : Fin 16 => k ≤ j 0), x (Shape.Idx.ofFin k) :=
  reduceWindow_cumsum (n := 16) x init h hu hinit j

end Idealize.ShloMosaic.Cumsum
-- ==== Proof.LibRowIdx.lean ====
/-
  Row gathers and row scatters read at an index.

  A graph layer moves rows: `h[src]` gathers row `src e` of an `[N, C]` array for every edge `e`, and a segment sum
  scatters row `e` of an `[M, C]` array onto row `dst e` of an `[N, C]` array. The start indices come as an `[M, 1]`
  array of words. A gather reads its start index as a signed integer and clamps it into `[0, N - 1]`; a scatter
  reads it signed and DROPS the row when it is outside `[0, N)`. The same for a flat `[N]` array and `[M]` updates.
  Each statement is for the dimension numbers as a record over any extents; a program's own record is one of these
  at its literal extents.
-/
import Idealize.ShloMosaic.PureOps.ShapeOps
import Idealize.ShloMosaic.Lib.ValueIdx

noncomputable section

namespace Idealize.ShloMosaic.RowIdx

open Idealize.ShloMosaic.ValueIdx

variable {α : Type}

/-- An axis is kept exactly when it is not among the removed ones. -/
theorem mem_kept {s : Shape} (axes : List (Fin s.rank)) (a : Fin s.rank) : a ∈ s.kept axes ↔ a ∉ axes := by
  simp [Shape.kept, List.mem_filter, List.mem_finRange]

theorem one_ne_zero_fin2 : (1 : Fin 2) ≠ 0 := by decide

/-! ## The four dimension-number records -/

/-- Rows of an `[N, C]` operand gathered at `[M, 1]` start indices into `[M, C]`. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Elements of an `[N]` operand gathered at `[M, 1]` start indices into `[M]`. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Rows of `[M, C]` updates scattered at `[M, 1]` indices onto an `[N, C]` operand. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Elements of `[M]` updates scattered at `[M, 1]` indices onto an `[N]` operand. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The row a gather reads for the start word `b`: `b` as a signed integer, clamped into `[0, N - 1]`. -/
def clampRow (N : Nat) {w : Nat} (hN : 0 < N) (b : BitVec w) : Fin N := ⟨min b.toInt.toNat (N - 1), by omega⟩

/-! ## The gathers -/

/-- The row gather at `(e, c)`: the operand at the clamped row of edge `e`, column `c`. -/
theorem rowGather_apply {N C M w : Nat} (hN : 0 < N) (wf) (x : (⟨2, ![N, C]⟩ : Shape).Idx → α) (idx : IVec ⟨2, ![M, 1]⟩ w)
    (e : Fin M) (c : Fin C) :
    Host.gather (rowGather N C M wf) x idx (ix2 e c) = x (ix2 (clampRow N hN (idx (ix2 e (0 : Fin 1)))) c) := by
  unfold Host.gather
  refine congrArg x (funext fun a => ?_)
  match a with
  | ⟨0, _⟩ =>
    refine Fin.ext ?_
    show (rowGather N C M wf).start (ix2 e c) idx 0 + (rowGather N C M wf).batchCoord (ix2 e c) 0
      + (rowGather N C M wf).offCoord (ix2 e c) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C M wf).startIndexMap from List.mem_singleton.mpr rfl)]
    have hsi : (rowGather N C M wf).siIdx (ix2 e c) ⟨List.idxOf (0 : Fin 2) (rowGather N C M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    refine Fin.ext ?_
    show (rowGather N C M wf).start (ix2 e c) idx 1 + (rowGather N C M wf).batchCoord (ix2 e c) 1
      + (rowGather N C M wf).offCoord (ix2 e c) 1 = c.val
    rw [GatherDims.batchCoord_eq_zero _ _ _ List.not_mem_nil]
    have hs : (rowGather N C M wf).start (ix2 e c) idx 1 = 0 := by
      unfold GatherDims.start
      rw [dif_neg (show (1 : Fin 2) ∉ (rowGather N C M wf).startIndexMap from fun h => one_ne_zero_fin2 (List.mem_singleton.mp h))]
    have ho : (rowGather N C M wf).offCoord (ix2 e c) 1 = c.val := by
      unfold GatherDims.offCoord
      rw [dif_pos ((GatherDims.mem_sKept _ _).mpr ⟨fun h => one_ne_zero_fin2 (List.mem_singleton.mp h), List.not_mem_nil⟩)]
      rfl
    rw [hs, ho]; omega

/-- The flat gather at `e`: the operand at the clamped start of edge `e`. -/
theorem vecGather_apply {N M w : Nat} (hN : 0 < N) (wf) (x : (⟨1, ![N]⟩ : Shape).Idx → α) (idx : IVec ⟨2, ![M, 1]⟩ w)
    (e : Fin M) :
    Host.gather (vecGather N M wf) x idx (ix1 e) = x (ix1 (clampRow N hN (idx (ix2 e (0 : Fin 1))))) := by
  unfold Host.gather
  refine congrArg x (funext fun a => ?_)
  match a with
  | ⟨0, _⟩ =>
    refine Fin.ext ?_
    show (vecGather N M wf).start (ix1 e) idx 0 + (vecGather N M wf).batchCoord (ix1 e) 0
      + (vecGather N M wf).offCoord (ix1 e) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N M wf).startIndexMap from List.mem_singleton.mpr rfl)]
    have hsi : (vecGather N M wf).siIdx (ix1 e) ⟨List.idxOf (0 : Fin 1) (vecGather N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-! ## The scatters -/

/-- Where row `e`, column `c` of the updates lands: on row `idx e` read signed, same column, when that row is inside
    the operand; nowhere otherwise. -/
theorem rowScatter_resultIdx? {N C M w : Nat} (wf) (idx : IVec ⟨2, ![M, 1]⟩ w) (e : Fin M) (c : Fin C) :
    (rowScatter N C M wf).resultIdx? (ix2 e c) idx =
      if h : 0 ≤ (idx (ix2 e (0 : Fin 1))).toInt ∧ (idx (ix2 e (0 : Fin 1))).toInt < (N : Int) then
        some (ix2 (⟨(idx (ix2 e (0 : Fin 1))).toInt.toNat, by omega⟩ : Fin N) c)
      else none := by
  have hsi : (rowScatter N C M wf).siIdx (ix2 e c) ⟨List.idxOf (0 : Fin 2) (rowScatter N C M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (rowScatter N C M wf).start (ix2 e c) idx 0 = (idx (ix2 e (0 : Fin 1))).toInt := by
    unfold ScatterDims.start
    rw [dif_pos (show (0 : Fin 2) ∈ (rowScatter N C M wf).scatterDimsToOperandDims from List.mem_singleton.mpr rfl), hsi]
  have hs1 : (rowScatter N C M wf).start (ix2 e c) idx 1 = 0 := by
    unfold ScatterDims.start
    rw [dif_neg (show (1 : Fin 2) ∉ (rowScatter N C M wf).scatterDimsToOperandDims from fun h => one_ne_zero_fin2 (List.mem_singleton.mp h))]
  have hw0 : (rowScatter N C M wf).window (ix2 e c) 0 = 0 := by
    unfold ScatterDims.window
    rw [dif_neg (show (0 : Fin 2) ∉ (rowScatter N C M wf).sKept from fun h => (mem_kept _ _).mp h (List.mem_singleton.mpr rfl))]
  have hw1 : (rowScatter N C M wf).window (ix2 e c) 1 = c.val := by
    unfold ScatterDims.window
    rw [dif_pos (show (1 : Fin 2) ∈ (rowScatter N C M wf).sKept from (mem_kept _ _).mpr fun h => one_ne_zero_fin2 (List.mem_singleton.mp h))]
    rfl
  unfold ScatterDims.resultIdx?
  by_cases h : 0 ≤ (idx (ix2 e (0 : Fin 1))).toInt ∧ (idx (ix2 e (0 : Fin 1))).toInt < (N : Int)
  · have hall : ∀ a, 0 ≤ (rowScatter N C M wf).start (ix2 e c) idx a + (rowScatter N C M wf).window (ix2 e c) a ∧
        (rowScatter N C M wf).start (ix2 e c) idx a + (rowScatter N C M wf).window (ix2 e c) a
          < (⟨2, ![N, C]⟩ : Shape).size a := by
      intro a
      match a with
      | ⟨0, _⟩ =>
        show 0 ≤ (rowScatter N C M wf).start (ix2 e c) idx 0 + ((rowScatter N C M wf).window (ix2 e c) 0 : Int) ∧
          (rowScatter N C M wf).start (ix2 e c) idx 0 + ((rowScatter N C M wf).window (ix2 e c) 0 : Int) < (N : Int)
        rw [hs0, hw0]; omega
      | ⟨1, _⟩ =>
        show 0 ≤ (rowScatter N C M wf).start (ix2 e c) idx 1 + ((rowScatter N C M wf).window (ix2 e c) 1 : Int) ∧
          (rowScatter N C M wf).start (ix2 e c) idx 1 + ((rowScatter N C M wf).window (ix2 e c) 1 : Int) < (C : Int)
        rw [hs1, hw1]; have := c.isLt; omega
    rw [dif_pos hall, dif_pos h]
    refine congrArg some (funext fun a => ?_)
    match a with
    | ⟨0, _⟩ =>
      refine Fin.ext ?_
      show ((rowScatter N C M wf).start (ix2 e c) idx 0 + ((rowScatter N C M wf).window (ix2 e c) 0 : Int)).toNat
        = (idx (ix2 e (0 : Fin 1))).toInt.toNat
      rw [hs0, hw0]; simp
    | ⟨1, _⟩ =>
      refine Fin.ext ?_
      show ((rowScatter N C M wf).start (ix2 e c) idx 1 + ((rowScatter N C M wf).window (ix2 e c) 1 : Int)).toNat = c.val
      rw [hs1, hw1]; simp
  · rw [dif_neg h, dif_neg]
    intro hall
    have h0 := hall 0
    have h0' : 0 ≤ (rowScatter N C M wf).start (ix2 e c) idx 0 + ((rowScatter N C M wf).window (ix2 e c) 0 : Int) ∧
        (rowScatter N C M wf).start (ix2 e c) idx 0 + ((rowScatter N C M wf).window (ix2 e c) 0 : Int) < (N : Int) := h0
    rw [hs0, hw0] at h0'
    exact h ⟨by omega, by omega⟩

/-- Where element `e` of the updates lands: on `idx e` read signed, when that is inside the operand. -/
theorem vecScatter_resultIdx? {N M w : Nat} (wf) (idx : IVec ⟨2, ![M, 1]⟩ w) (e : Fin M) :
    (vecScatter N M wf).resultIdx? (ix1 e) idx =
      if h : 0 ≤ (idx (ix2 e (0 : Fin 1))).toInt ∧ (idx (ix2 e (0 : Fin 1))).toInt < (N : Int) then
        some (ix1 (⟨(idx (ix2 e (0 : Fin 1))).toInt.toNat, by omega⟩ : Fin N))
      else none := by
  have hsi : (vecScatter N M wf).siIdx (ix1 e) ⟨List.idxOf (0 : Fin 1) (vecScatter N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  have hs0 : (vecScatter N M wf).start (ix1 e) idx 0 = (idx (ix2 e (0 : Fin 1))).toInt := by
    unfold ScatterDims.start
    rw [dif_pos (show (0 : Fin 1) ∈ (vecScatter N M wf).scatterDimsToOperandDims from List.mem_singleton.mpr rfl), hsi]
  have hw0 : (vecScatter N M wf).window (ix1 e) 0 = 0 := by
    unfold ScatterDims.window
    rw [dif_neg (show (0 : Fin 1) ∉ (vecScatter N M wf).sKept from fun h => (mem_kept _ _).mp h (List.mem_singleton.mpr rfl))]
  unfold ScatterDims.resultIdx?
  by_cases h : 0 ≤ (idx (ix2 e (0 : Fin 1))).toInt ∧ (idx (ix2 e (0 : Fin 1))).toInt < (N : Int)
  · have hall : ∀ a, 0 ≤ (vecScatter N M wf).start (ix1 e) idx a + (vecScatter N M wf).window (ix1 e) a ∧
        (vecScatter N M wf).start (ix1 e) idx a + (vecScatter N M wf).window (ix1 e) a
          < (⟨1, ![N]⟩ : Shape).size a := by
      intro a
      match a with
      | ⟨0, _⟩ =>
        show 0 ≤ (vecScatter N M wf).start (ix1 e) idx 0 + ((vecScatter N M wf).window (ix1 e) 0 : Int) ∧
          (vecScatter N M wf).start (ix1 e) idx 0 + ((vecScatter N M wf).window (ix1 e) 0 : Int) < (N : Int)
        rw [hs0, hw0]; omega
    rw [dif_pos hall, dif_pos h]
    refine congrArg some (funext fun a => ?_)
    match a with
    | ⟨0, _⟩ =>
      refine Fin.ext ?_
      show ((vecScatter N M wf).start (ix1 e) idx 0 + ((vecScatter N M wf).window (ix1 e) 0 : Int)).toNat
        = (idx (ix2 e (0 : Fin 1))).toInt.toNat
      rw [hs0, hw0]; simp
  · rw [dif_neg h, dif_neg]
    intro hall
    have h0 := hall 0
    have h0' : 0 ≤ (vecScatter N M wf).start (ix1 e) idx 0 + ((vecScatter N M wf).window (ix1 e) 0 : Int) ∧
        (vecScatter N M wf).start (ix1 e) idx 0 + ((vecScatter N M wf).window (ix1 e) 0 : Int) < (N : Int) := h0
    rw [hs0, hw0] at h0'
    exact h ⟨by omega, by omega⟩

end Idealize.ShloMosaic.RowIdx

end
-- ==== Proof.LibIntScatter.lean ====
/-
  An accumulating scatter over a commutative addition, read at an element.

  `x.at[idx].add(v)` on integers prints as `Host.scatter` with the body "add": the left fold, over the updates in
  row-major order, of "add the update to the element it lands on, drop it when it lands outside". Addition being
  commutative and associative, the element at `i` ends as its start plus the sum of all updates that land on `i`. With
  start `0` and every update `1` that is a HISTOGRAM: the number of updates landing on `i` (as a machine word: the count
  modulo the word size).
-/
import Idealize.ShloMosaic.PureOps.ShapeOps
import Mathlib.Algebra.BigOperators.Fin
import Mathlib.Data.BitVec

namespace Idealize.ShloMosaic.IntScatter

open Finset

variable {s si u : Shape} {w : Nat} {α : Type} [AddCommMonoid α]

/-- One update of the fold: the element the update lands on takes it, nothing else moves. -/
theorem step_apply (d : ScatterDims s si u) (idx : IVec si w) (upd : u.Idx → α) (r : s.Idx → α) (q : u.Idx) (i : s.Idx) :
    (match d.resultIdx? q idx with
      | some i0 => fun i' => if i' = i0 then r i0 + upd q else r i'
      | none => r) i
      = r i + (if d.resultIdx? q idx = some i then upd q else 0) := by
  cases hq : d.resultIdx? q idx with
  | none => simp
  | some i0 =>
    by_cases hi : i = i0
    · subst hi; simp
    · have : ¬ (some i0 = some i) := fun h => hi (Option.some.inj h).symm
      simp [hi, this]

/-- The fold over any list of update positions. -/
theorem foldl_apply (d : ScatterDims s si u) (idx : IVec si w) (upd : u.Idx → α) (l : List (Fin u.numel)) (r : s.Idx → α)
    (i : s.Idx) :
    (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
  induction l generalizing r with
  | nil => simp
  | cons a l ih =>
    rw [List.foldl_cons, ih, step_apply, List.map_cons, List.sum_cons, add_assoc]

/-- The accumulating scatter at an element: its start plus every update that lands there. -/
theorem scatter_add_apply (d : ScatterDims s si u) (x : s.Idx → α) (idx : IVec si w) (upd : u.Idx → α) (i : s.Idx) :
    Host.scatter d (fun a b => a + b) x idx upd i
      = x i + ∑ q ∈ univ.filter (fun q : u.Idx => d.resultIdx? q idx = some i), upd q := by
  unfold Host.scatter
  refine (foldl_apply d idx upd (List.finRange u.numel) x i).trans ?_
  rw [← Fin.sum_univ_def,
    Equiv.sum_comp u.rowMajor.symm (fun q => if d.resultIdx? q idx = some i then upd q else 0), Finset.sum_filter]

/-- A histogram: ones scattered onto zeros count the updates that land on each element. -/
theorem scatter_ones_count {β : Type} [Semiring β] (d : ScatterDims s si u) (idx : IVec si w) (i : s.Idx) :
    Host.scatter d (fun a b => a + b) (fun _ => (0 : β)) idx (fun _ => (1 : β)) i
      = ((univ.filter fun q : u.Idx => d.resultIdx? q idx = some i).card : β) := by
  rw [scatter_add_apply, zero_add, Finset.sum_const, nsmul_eq_mul, mul_one]

/-- The same at machine words, with the body the printed integer addition. -/
theorem scatter_addi_ones_count (d : ScatterDims s si u) (idx : IVec si w) {v : Nat} (i : s.Idx) :
    Host.scatter d (IntOp.addi (w := v)) (fun _ => 0#v) idx (fun _ => 1#v) i
      = BitVec.ofNat v (univ.filter fun q : u.Idx => d.resultIdx? q idx = some i).card := by
  have h := scatter_ones_count (β := BitVec v) d idx i
  have e : (IntOp.addi (w := v)) = fun a b => a + b := by funext a b; rfl
  rw [e]
  refine h.trans ?_
  exact BitVec.natCast_eq_ofNat v _

end Idealize.ShloMosaic.IntScatter
-- ==== Proof.LibBincount.lean ====
/-
  `bincount`: the histogram of a vector of ids.

  jax writes `jnp.bincount(ids, length = N)` (after clipping the ids at zero) as ones scattered by addition onto `N` zeros
  at the `[M, 1]` start indices `ids`. Bin `t` ends holding the number of ids equal to `t` (read signed; an id outside
  `[0, N)` lands nowhere), as a machine word.
-/
import proofs.«122239_j24352464569736_2_alg».proof.Proof.LibRowIdx
import proofs.«122239_j24352464569736_2_alg».proof.Proof.LibIntScatter

namespace Idealize.ShloMosaic.Bincount

open Finset Idealize.ShloMosaic.ValueIdx Idealize.ShloMosaic.RowIdx

/-- The positions of a vector are its coordinates. -/
theorem ix1_bijective (M : Nat) : Function.Bijective (ix1 : Fin M → (⟨1, ![M]⟩ : Shape).Idx) :=
  ⟨fun a b h => by have := congrFun h 0; exact this, fun j => ⟨j 0, (eq_ix1 j).symm⟩⟩

/-- Bin `t` of the histogram counts the ids equal to `t`. -/
theorem bincount_apply {N M w v : Nat} (wf) (idx : IVec ⟨2, ![M, 1]⟩ w) (t : Fin N) :
    Host.scatter (vecScatter N M wf) (IntOp.addi (w := v)) (fun _ => 0#v) idx (fun _ => 1#v) (ix1 t)
      = BitVec.ofNat v (univ.filter fun e : Fin M => (idx (ix2 e (0 : Fin 1))).toInt = (t.val : Int)).card := by
  rw [IntScatter.scatter_addi_ones_count]
  congr 1
  symm
  refine Finset.card_bijective ix1 (ix1_bijective M) fun e => ?_
  simp only [mem_filter, mem_univ, true_and]
  rw [vecScatter_resultIdx?]
  by_cases h : 0 ≤ (idx (ix2 e (0 : Fin 1))).toInt ∧ (idx (ix2 e (0 : Fin 1))).toInt < (N : Int)
  · rw [dif_pos h]
    constructor
    · intro ht
      refine congrArg some (congrArg ix1 (Fin.ext ?_))
      show (idx (ix2 e (0 : Fin 1))).toInt.toNat = t.val
      omega
    · intro hs
      have h0 := congrArg Fin.val (congrFun (Option.some.inj hs) 0)
      have h1 : (idx (ix2 e (0 : Fin 1))).toInt.toNat = t.val := h0
      omega
  · rw [dif_neg h]
    constructor
    · intro ht; exact absurd ⟨by omega, by have := t.isLt; omega⟩ h
    · intro hs; exact absurd hs (by simp)

end Idealize.ShloMosaic.Bincount
-- ==== Proof.Dispatch.lean ====
/-
  The dispatch of a capacity-routed mixture of experts, as pure functions of the expert ids alone.

  Every (token, choice) pair is a position 0 … 8191 carrying an expert id. The positions are sorted stably by id; a
  histogram of the ids gives each expert's group size, its exclusive prefix sum the place where the group starts
  among the sorted positions; a sorted position less its group's start is its number inside the group, and a
  position whose number is below the capacity 2048 is given the slot  id * 2048 + number , every other position the
  dump slot 32768. The fact proved here: a kept position's number is below min (group size, capacity).
-/
import proofs.«122239_j24352464569736_2_alg».proof.KernelIdeal
import proofs.«122239_j24352464569736_2_alg».proof.Proof.LibSortRank
import proofs.«122239_j24352464569736_2_alg».proof.Proof.LibCumsum
import proofs.«122239_j24352464569736_2_alg».proof.Proof.LibBincount
import proofs.«122239_j24352464569736_2_alg».proof.Proof.LibRowIdx

noncomputable section

namespace Cert.Proof.Dispatch

open Finset Idealize.ShloMosaic Idealize.ShloMosaic.ValueIdx Cert.KernelIdeal

variable [Facts₀]
open Facts₀

/-! ## The host lines %0 … %54 as functions of the ids -/

/-- A scalar constant spread over the 8192 positions. -/
def splat (c : BitVec 32) : IVec S8192 32 := broadcastInDim S8192 ![] bcast_S_S8192 (constantI S_ 32 c)

/-- A vector of start indices made ready for a gather or scatter into `n` rows: a negative index counts from the
    end (`x + n`), and the vector becomes a column. -/
def asIndex (n : BitVec 32) (v : IVec S8192 32) : IVec S8192x1 32 :=
  broadcastInDim S8192x1 ![0] bcast_S8192_S8192x1_0 (select (cmpi .slt v (splat 0#32)) (addi v (splat n)) v)

/-- %0: the ids, one per position. -/
def flatE (ids : IVec S4096x2 32) : IVec S8192 32 := shapeCast S8192 ids shapeCasts_S4096x2_S8192

/-- %3: the token of a position, `position // 2` (a floor division: truncate, then step down when the signs differ
    and the remainder is not zero). -/
def tokOf : IVec S8192 32 :=
  let pos : IVec S8192 32 := iotaInDim S8192 32 0
  let two : IVec S_ 32 := constantI S_ 32 2#32
  let q := Host.divsi pos (broadcastInDim S8192 ![] bcast_S_S8192 two)
  let sdiff := cmpi .ne (signi pos) (broadcastInDim S8192 ![] bcast_S_S8192 (signi two))
  let r := Host.remsi pos (broadcastInDim S8192 ![] bcast_S_S8192 two)
  let rne := cmpi .ne r (splat 0#32)
  select (andi sdiff rne) (subi q (splat 1#32)) q

/-- %4: the positions in the order of a stable sort by id. -/
def order (ids : IVec S4096x2 32) : IVec S8192 32 :=
  (Host.sort2 S8192 0 comparator_i32_i32_d0 (flatE ids) (iotaInDim S8192 32 0)).2

/-- %11: the sorted ids. -/
def se (ids : IVec S4096x2 32) : IVec S8192 32 :=
  Host.gather gather_S8192_S8192x1_S8192_n_0_n_n_0_1_1 (flatE ids) (asIndex 8192#32 (order ids))

/-- %18: the sorted tokens. -/
def st (ids : IVec S4096x2 32) : IVec S8192 32 :=
  Host.gather gather_S8192_S8192x1_S8192_n_0_n_n_0_1_1 tokOf (asIndex 8192#32 (order ids))

/-- %35: the histogram of the ids (clipped at zero). -/
def counts (ids : IVec S4096x2 32) : IVec S16 32 :=
  Host.scatter scatter_S16_S8192x1_S8192_n_0_0_1 IntOp.addi
    (broadcastInDim S16 ![] bcast_S_S16 (constantI S_ 32 0#32))
    (asIndex 16#32 (maxsi (splat 0#32) (flatE ids)))
    (splat 1#32)

/-- %36: the running sum of the histogram. -/
def cums (ids : IVec S4096x2 32) : IVec S16 32 :=
  Host.reduceWindow IntOp.addi ![16] ![1] ![15] ![0] (counts ids)
    (broadcastInDim S_ ![] bcast_S_S_ (constantI S_ 32 0#32)) reduceWindows_S16_S16_w16s1p15_0 h_S_

/-- %37: where each id's group starts among the sorted positions. -/
def starts (ids : IVec S4096x2 32) : IVec S16 32 := subi (cums ids) (counts ids)

/-- %46: a sorted position's number inside its group. -/
def pos (ids : IVec S4096x2 32) : IVec S8192 32 :=
  subi (iotaInDim S8192 32 0) (Host.gather gather_S16_S8192x1_S8192_n_0_n_n_0_1_1 (starts ids) (asIndex 16#32 (se ids)))

/-- %48: the number is below the capacity. -/
def valid (ids : IVec S4096x2 32) : IVec S8192 1 := cmpi .slt (pos ids) (splat 2048#32)

/-- %52: the slot, or the dump slot. -/
def slot (ids : IVec S4096x2 32) : IVec S8192 32 :=
  select (valid ids) (addi (muli (se ids) (splat 2048#32)) (pos ids)) (splat 32768#32)

/-- %54: the rows of each group that are kept. -/
def live (ids : IVec S4096x2 32) : IVec S16 32 :=
  minsi (counts ids) (broadcastInDim S16 ![] bcast_S_S16 (constantI S_ 32 2048#32))

/-! ## Words -/

theorem toInt_ofNat_small {n : Nat} (h : n < 2147483648) : (BitVec.ofNat 32 n).toInt = (n : Int) := by
  have h1 : (BitVec.ofNat 32 n).toNat = n := by rw [BitVec.toNat_ofNat]; omega
  rw [BitVec.toInt_eq_toNat_of_lt (by rw [h1]; omega), h1]

/-- The signed comparison says "smaller" exactly when the signed readings are. -/
theorem cmpi_slt_iff (x y : BitVec 32) : IntOp.cmpi .slt x y = 1#1 ↔ x.toInt < y.toInt :=
  beq_iff_eq.symm.trans (SortRank.slt_before_iff (β := Unit) (x, ()) (y, ()))

/-- A word that reads non-negative is the word of its reading. -/
theorem eq_ofNat_of_nonneg (x : BitVec 32) (h : 0 ≤ x.toInt) : x = BitVec.ofNat 32 x.toInt.toNat := by
  have h2 : x.toInt = (x.toNat : Int) := by
    rw [BitVec.toInt_eq_toNat_cond]; split
    · rfl
    · rename_i hc; rw [BitVec.toInt_eq_toNat_cond, if_neg hc] at h; have := x.isLt; omega
  rw [h2, Int.toNat_natCast, BitVec.ofNat_toNat, BitVec.setWidth_eq]

theorem ofNat_sub_ofNat {a b : Nat} (h : b ≤ a) : BitVec.ofNat 32 a - BitVec.ofNat 32 b = BitVec.ofNat 32 (a - b) := by
  rw [← BitVec.natCast_eq_ofNat, ← BitVec.natCast_eq_ofNat, ← BitVec.natCast_eq_ofNat, Nat.cast_sub h]

/-! ## Reading the index plumbing -/

/-- A vector turned into a column reads the vector. -/
theorem column_apply (v : IVec S8192 32) (i : Fin 8192) :
    broadcastInDim S8192x1 ![0] bcast_S8192_S8192x1_0 v (ix2 i (0 : Fin 1)) = v (ix1 i) := by
  unfold broadcastInDim
  refine congrArg v (funext fun a => ?_)
  match a with
  | ⟨0, _⟩ => rfl

/-- On a non-negative index the normalisation "a negative index counts from the end" does nothing. -/
theorem asIndex_apply (n : BitVec 32) (v : IVec S8192 32) (i : Fin 8192) (h : 0 ≤ (v (ix1 i)).toInt) :
    asIndex n v (ix2 i (0 : Fin 1)) = v (ix1 i) := by
  unfold asIndex
  rw [column_apply]
  show Scalar.select (IntOp.cmpi .slt (v (ix1 i)) 0#32) (IntOp.addi (v (ix1 i)) n) (v (ix1 i)) = v (ix1 i)
  unfold Scalar.select
  rw [if_neg]
  intro hc
  have := (cmpi_slt_iff _ _).mp hc
  rw [BitVec.toInt_zero] at this
  omega

/-! ## The ids, the sorting permutation and its key -/

section facts
variable (ids : IVec S4096x2 32) (hr : ∀ j, 0 ≤ (ids j).toInt ∧ (ids j).toInt < 16)

theorem ofFin_eq_ix1 {n : Nat} (k : Fin n) : Shape.Idx.ofFin k = ix1 k := (Shape.Idx.eq_ofFin (ix1 k)).symm

include hr in
theorem flatE_range (k : Fin 8192) : 0 ≤ (flatE ids (ix1 k)).toInt ∧ (flatE ids (ix1 k)).toInt < 16 := hr _

/-- The id of a position, as a natural number. -/
def key (k : Fin 8192) : Nat := (flatE ids (ix1 k)).toInt.toNat

include hr in
theorem key_lt (k : Fin 8192) : key ids k < 16 := by
  have := flatE_range ids hr k
  unfold key; omega

include hr in
theorem flatE_eq (k : Fin 8192) : flatE ids (ix1 k) = BitVec.ofNat 32 (key ids k) :=
  eq_ofNat_of_nonneg _ (flatE_range ids hr k).1

include hr in
theorem flatE_toInt (k : Fin 8192) : (flatE ids (ix1 k)).toInt = (key ids k : Int) := by
  have := flatE_range ids hr k
  unfold key; omega

/-- "Sorts strictly before": the comparator of the sort, on the positions. -/
def before (k k' : Fin 8192) : Bool :=
  comparator_i32_i32_d0 (flatE ids (Shape.Idx.ofFin k), iotaInDim S8192 32 0 (Shape.Idx.ofFin k))
    (flatE ids (Shape.Idx.ofFin k'), iotaInDim S8192 32 0 (Shape.Idx.ofFin k')) == 1#1

/-- The bijection of the positions through which the stable sort reads. -/
def perm : Fin 8192 → Fin 8192 := sortedFrom (before ids)

theorem perm_eq_perm2 : perm ids = SortRank.perm2 comparator_i32_i32_d0 (flatE ids) (iotaInDim S8192 32 0) := rfl

theorem perm_bijective : Function.Bijective (perm ids) :=
  ⟨sortedFrom_injective _, sortedFrom_surjective _⟩

include hr in
theorem before_iff (k k' : Fin 8192) : before ids k k' = true ↔ key ids k < key ids k' := by
  unfold before comparator_i32_i32_d0
  rw [ofFin_eq_ix1, ofFin_eq_ix1]
  refine (SortRank.slt_before_iff _ _).trans ?_
  exact SortRank.toInt_lt_iff_toNat_of_nonneg (flatE_range ids hr k).1 (flatE_range ids hr k').1

/-- %4 at a position: the position the sort reads there. -/
theorem order_apply (i : Fin 8192) : order ids (ix1 i) = BitVec.ofNat 32 (perm ids i).val := by
  unfold order
  rw [perm_eq_perm2]
  refine (SortRank.sort2_rank1_snd _ _ _ (ix1 i)).trans ?_
  show iotaInDim S8192 32 0 (Shape.Idx.ofFin (SortRank.perm2 comparator_i32_i32_d0 (flatE ids) (iotaInDim S8192 32 0) i)) = _
  generalize SortRank.perm2 comparator_i32_i32_d0 (flatE ids) (iotaInDim S8192 32 0) i = p
  rfl

theorem order_nonneg (i : Fin 8192) : 0 ≤ (order ids (ix1 i)).toInt := by
  rw [order_apply, toInt_ofNat_small (by have := (perm ids i).isLt; omega)]
  omega

theorem clampRow_ofNat {N : Nat} (hN : 0 < N) (hN' : N ≤ 8192) (p : Fin N) :
    RowIdx.clampRow N hN (BitVec.ofNat 32 p.val) = p := by
  refine Fin.ext ?_
  show min (BitVec.ofNat 32 p.val).toInt.toNat (N - 1) = p.val
  rw [toInt_ofNat_small (by have := p.isLt; omega)]
  have := p.isLt
  omega

/-- %11 at a position: the id of the position the sort reads there. -/
theorem se_apply (i : Fin 8192) : se ids (ix1 i) = flatE ids (ix1 (perm ids i)) := by
  have hrec : gather_S8192_S8192x1_S8192_n_0_n_n_0_1_1 = RowIdx.vecGather 8192 8192 gather_S8192_S8192x1_S8192_n_0_n_n_0_1_1_wf := rfl
  unfold se
  rw [hrec, RowIdx.vecGather_apply (by omega : 0 < 8192), asIndex_apply _ _ _ (order_nonneg ids i), order_apply,
    clampRow_ofNat (by omega) (by omega)]

/-- %18 at a position: the token of the position the sort reads there. -/
theorem st_apply (i : Fin 8192) : st ids (ix1 i) = tokOf (ix1 (perm ids i)) := by
  have hrec : gather_S8192_S8192x1_S8192_n_0_n_n_0_1_1 = RowIdx.vecGather 8192 8192 gather_S8192_S8192x1_S8192_n_0_n_n_0_1_1_wf := rfl
  unfold st
  rw [hrec, RowIdx.vecGather_apply (by omega : 0 < 8192), asIndex_apply _ _ _ (order_nonneg ids i), order_apply,
    clampRow_ofNat (by omega) (by omega)]

/-! ## The histogram, its prefix sums, and the numbering inside the groups -/

/-- The size of the group of id `e`. -/
def cnt (e : Nat) : Nat := (univ.filter fun j : Fin 8192 => key ids j = e).card

/-- Where the group of id `e` starts: the sizes of the groups of the smaller ids. -/
def startOf (e : Nat) : Nat := ∑ e' ∈ Finset.range e, cnt ids e'

theorem cnt_le (e : Nat) : cnt ids e ≤ 8192 := by
  unfold cnt
  exact (Finset.card_le_univ _).trans (by simp)

include hr in
/-- A group's start is at or before each of its sorted positions. -/
theorem start_le (i : Fin 8192) : startOf ids (key ids (perm ids i)) ≤ i.val :=
  SortRank.start_le (key ids) (before ids) (before_iff ids hr) i

include hr in
/-- A sorted position's number inside its group is below the group's size. -/
theorem sub_start_lt (i : Fin 8192) : i.val - startOf ids (key ids (perm ids i)) < cnt ids (key ids (perm ids i)) :=
  SortRank.sub_start_lt (key ids) (before ids) (before_iff ids hr) i

attribute [irreducible] perm

include hr in
/-- %35 at an id: the size of its group. -/
theorem counts_apply (e : Fin 16) : counts ids (ix1 e) = BitVec.ofNat 32 (cnt ids e.val) := by
  have hrec : scatter_S16_S8192x1_S8192_n_0_0_1 = RowIdx.vecScatter 16 8192 scatter_S16_S8192x1_S8192_n_0_0_1_wf := rfl
  unfold counts
  rw [hrec]
  show Host.scatter (RowIdx.vecScatter 16 8192 scatter_S16_S8192x1_S8192_n_0_0_1_wf) (IntOp.addi (w := 32)) (fun _ => 0#32)
    (asIndex 16#32 (maxsi (splat 0#32) (flatE ids))) (fun _ => 1#32) (ix1 e) = _
  refine (Bincount.bincount_apply _ _ e).trans ?_
  unfold cnt
  refine congrArg (BitVec.ofNat 32) (congrArg Finset.card (Finset.filter_congr fun k _ => ?_))
  have hm : maxsi (splat 0#32) (flatE ids) (ix1 k) = flatE ids (ix1 k) := by
    show IntOp.maxsi 0#32 (flatE ids (ix1 k)) = _
    unfold IntOp.maxsi
    rw [if_neg]
    intro hc
    have h1 := BitVec.slt_iff_toInt_lt.mp hc
    rw [BitVec.toInt_zero] at h1
    have := (flatE_range ids hr k).1
    omega
  rw [asIndex_apply _ _ _ (by rw [hm]; exact (flatE_range ids hr k).1), hm, flatE_toInt ids hr k]
  omega

include hr in
/-- %36 at an id: the sizes of the groups up to it. -/
theorem cums_apply (e : Fin 16) :
    cums ids (ix1 e) = ∑ k ∈ univ.filter (fun k : Fin 16 => k ≤ e), BitVec.ofNat 32 (cnt ids k.val) := by
  unfold cums
  refine (Cumsum.reduceWindow_cumsum (n := 16) (counts ids) _ reduceWindows_S16_S16_w16s1p15_0 h_S_ rfl (ix1 e)).trans ?_
  refine Finset.sum_congr rfl fun k _ => ?_
  rw [ofFin_eq_ix1, counts_apply ids hr]

theorem sum_lt_eq_range (g : Nat → Nat) (e : Fin 16) :
    ∑ k ∈ univ.filter (fun k : Fin 16 => k < e), g k.val = ∑ m ∈ Finset.range e.val, g m := by
  refine Finset.sum_bij (fun k _ => k.val) ?_ ?_ ?_ ?_
  · intro k hk
    simp only [mem_filter, mem_univ, true_and] at hk
    exact Finset.mem_range.mpr hk
  · intro a _ b _ hab
    exact Fin.ext hab
  · intro m hm
    have hm' := Finset.mem_range.mp hm
    have := e.isLt
    refine ⟨⟨m, by omega⟩, ?_, rfl⟩
    simp only [mem_filter, mem_univ, true_and]
    exact hm'
  · intro _ _; rfl

include hr in
/-- %37 at an id: where its group starts. -/
theorem starts_apply (e : Fin 16) : starts ids (ix1 e) = BitVec.ofNat 32 (startOf ids e.val) := by
  show IntOp.subi (cums ids (ix1 e)) (counts ids (ix1 e)) = _
  rw [cums_apply ids hr, counts_apply ids hr]
  unfold IntOp.subi startOf
  have hsplit : univ.filter (fun k : Fin 16 => k ≤ e) = insert e (univ.filter fun k : Fin 16 => k < e) := by
    ext k
    simp only [mem_filter, mem_univ, true_and, mem_insert]
    exact le_iff_eq_or_lt
  rw [hsplit, Finset.sum_insert (by simp), add_sub_cancel_left, ← sum_lt_eq_range]
  simp only [← BitVec.natCast_eq_ofNat]
  rw [Nat.cast_sum]

include hr in
/-- %46 at a sorted position: its number inside its group. -/
theorem pos_apply (i : Fin 8192) :
    pos ids (ix1 i) = BitVec.ofNat 32 (i.val - startOf ids (key ids (perm ids i))) := by
  have hrec : gather_S16_S8192x1_S8192_n_0_n_n_0_1_1 = RowIdx.vecGather 16 8192 gather_S16_S8192x1_S8192_n_0_n_n_0_1_1_wf := rfl
  show IntOp.subi (iotaInDim S8192 32 0 (ix1 i))
    (Host.gather gather_S16_S8192x1_S8192_n_0_n_n_0_1_1 (starts ids) (asIndex 16#32 (se ids)) (ix1 i)) = _
  rw [hrec, RowIdx.vecGather_apply (by omega : 0 < 16),
    asIndex_apply _ _ _ (by rw [se_apply]; exact (flatE_range ids hr _).1), se_apply, flatE_eq ids hr]
  have hc := clampRow_ofNat (N := 16) (by omega) (by omega) ⟨key ids (perm ids i), key_lt ids hr _⟩
  rw [hc, starts_apply ids hr]
  exact ofNat_sub_ofNat (start_le ids hr i)

include hr in
theorem pos_toInt (i : Fin 8192) :
    (pos ids (ix1 i)).toInt = ((i.val - startOf ids (key ids (perm ids i)) : Nat) : Int) := by
  rw [pos_apply ids hr, toInt_ofNat_small (by have := i.isLt; omega)]

include hr in
/-- %48 at a sorted position: its number is below the capacity. -/
theorem valid_iff (i : Fin 8192) :
    valid ids (ix1 i) = 1#1 ↔ i.val - startOf ids (key ids (perm ids i)) < 2048 := by
  show IntOp.cmpi .slt (pos ids (ix1 i)) 2048#32 = 1#1 ↔ _
  rw [cmpi_slt_iff, pos_toInt ids hr]
  have h2 : (2048#32 : BitVec 32).toInt = 2048 := by decide
  rw [h2]
  omega

include hr in
/-- %54 at an id: the smaller of its group's size and the capacity. -/
theorem live_toInt (e : Fin 16) : (live ids (ix1 e)).toInt = (min (cnt ids e.val) 2048 : Nat) := by
  show (IntOp.minsi (counts ids (ix1 e)) 2048#32).toInt = _
  unfold IntOp.minsi
  rw [counts_apply ids hr]
  have hc := cnt_le ids e.val
  have h1 : (BitVec.ofNat 32 (cnt ids e.val)).toInt = (cnt ids e.val : Int) := toInt_ofNat_small (by omega)
  have h2 : (2048#32 : BitVec 32).toInt = 2048 := by decide
  split
  · rename_i h
    have := BitVec.slt_iff_toInt_lt.mp h
    rw [h1, h2] at this
    rw [h1]; omega
  · rename_i h
    have : ¬ (BitVec.ofNat 32 (cnt ids e.val)).toInt < (2048#32 : BitVec 32).toInt := fun hlt => h (BitVec.slt_iff_toInt_lt.mpr hlt)
    rw [h1, h2] at this
    rw [h2]; omega

end facts

/-! ## The dispatch fact -/

/-- A kept position's slot is `id * 2048 + number` with the number below the rows kept of that id's group; every
    other position goes to the dump slot. -/
theorem slot_facts (ids : IVec S4096x2 32) (hr : ∀ j, 0 ≤ (ids j).toInt ∧ (ids j).toInt < 16) (i : Fin 8192) :
    (valid ids (ix1 i) = 1#1 → ∃ (e : Fin 16) (p : Fin 2048),
        slot ids (ix1 i) = BitVec.ofNat 32 (e.val * 2048 + p.val) ∧ (p.val : Int) < (live ids (ix1 e)).toInt)
    ∧ (valid ids (ix1 i) ≠ 1#1 → slot ids (ix1 i) = 32768#32) := by
  constructor
  · intro hv
    have hp := (valid_iff ids hr i).mp hv
    refine ⟨⟨key ids (perm ids i), key_lt ids hr _⟩, ⟨i.val - startOf ids (key ids (perm ids i)), hp⟩, ?_, ?_⟩
    · show Scalar.select (valid ids (ix1 i)) (IntOp.addi (IntOp.muli (se ids (ix1 i)) 2048#32) (pos ids (ix1 i))) 32768#32 = _
      unfold Scalar.select
      rw [if_pos (show valid ids (ix1 i) = 1 from hv), se_apply, flatE_eq ids hr, pos_apply ids hr]
      show BitVec.ofNat 32 (key ids (perm ids i)) * BitVec.ofNat 32 2048
        + BitVec.ofNat 32 (i.val - startOf ids (key ids (perm ids i))) = _
      rw [BitVec.ofNat_add, BitVec.ofNat_mul]
    · rw [live_toInt ids hr]
      have := sub_start_lt ids hr i
      show ((i.val - startOf ids (key ids (perm ids i)) : Nat) : Int) < ((min (cnt ids (key ids (perm ids i))) 2048 : Nat) : Int)
      omega
  · intro hv
    show Scalar.select (valid ids (ix1 i)) (IntOp.addi (IntOp.muli (se ids (ix1 i)) 2048#32) (pos ids (ix1 i))) 32768#32 = _
    unfold Scalar.select
    rw [if_neg (show ¬ valid ids (ix1 i) = 1 from hv)]

end Cert.Proof.Dispatch

end
-- ==== Proof.XeZero.lean ====
/-
  The dispatch buffer of a capacity-routed mixture of experts, and the rows of it that stay zero.

  The buffer starts as 32769 rows of zeros. Every sorted position writes the (rounded) activation row of its token onto
  the row its slot names: a kept position of group e with number p onto row e * 2048 + p, every other position onto the
  last row, which is then cut off. A row e * 2048 + p whose p is at or past the number of kept rows of group e is
  therefore never written and holds zeros.
-/
import proofs.«122239_j24352464569736_2_alg».proof.Proof.Dispatch
import proofs.«122239_j24352464569736_2_alg».proof.Proof.LibRowIdx
import Idealize.ShloMosaic.Lib.Pipeline.Value
import Idealize.ShloMosaic.Lib.IdealHost
import Idealize.ShloMosaic.Lib.Affine

noncomputable section

namespace Cert.Proof.Xe

open Idealize.ShloMosaic Idealize.ShloMosaic.ValueIdx Cert.KernelIdeal Cert.Proof.Dispatch

variable {s si u : Shape} {w : Nat} {α : Type}

/-- The fold of a scatter over any list of update positions leaves alone an element no update lands on. -/
theorem scatter_foldl_unhit (d : ScatterDims s si u) (f : α → α → α) (idx : IVec si w) (upd : u.Idx → α) (i : s.Idx)
    (h : ∀ q : u.Idx, d.resultIdx? q idx ≠ some i) (l : List (Fin u.numel)) (r : s.Idx → α) :
    (l.foldl (fun r n =>
        match d.resultIdx? (u.rowMajor.symm n) idx with
        | some i0 => fun i' => if i' = i0 then f (r i0) (upd (u.rowMajor.symm n)) else r i'
        | none => r) r) i = r i := by
  induction l generalizing r with
  | nil => rfl
  | cons a l ih =>
    rw [List.foldl_cons, ih]
    cases hq : d.resultIdx? (u.rowMajor.symm a) idx with
    | none => rfl
    | some i0 =>
      have hne : i ≠ i0 := fun e => h _ (e ▸ hq)
      exact if_neg hne

/-- A scatter, whatever its body, leaves alone an element no update lands on. -/
theorem scatter_unhit (d : ScatterDims s si u) (f : α → α → α) (x : s.Idx → α) (idx : IVec si w) (upd : u.Idx → α) (i : s.Idx)
    (h : ∀ q : u.Idx, d.resultIdx? q idx ≠ some i) : Host.scatter d f x idx upd i = x i :=
  scatter_foldl_unhit d f idx upd i h (List.finRange u.numel) x

/-- A natural number below 2^31, as a 32-bit word read signed, is itself. -/
theorem toInt_ofNat_small (n : Nat) (h : n < 2 ^ 31) : (BitVec.ofNat 32 n).toInt = (n : Int) := by
  have e := BitVec.toInt_eq_toNat_cond (BitVec.ofNat 32 n)
  rw [BitVec.toNat_ofNat, Nat.mod_eq_of_lt (by omega)] at e
  rw [e, if_pos (by omega)]

/-- The normalisation of a start index leaves a word that is not negative as it is. -/
theorem select_of_nonneg (x n : BitVec 32) (h : 0 ≤ x.toInt) :
    Scalar.select (IntOp.cmpi .slt x 0#32) (IntOp.addi x n) x = x := by
  unfold Scalar.select
  refine if_neg fun h1 => ?_
  have h2 := IntOp.cmpi_slt.1 h1
  have h3 : (0#32 : BitVec 32).toInt = 0 := by decide
  omega

/-- A row of updates that lands somewhere lands on the row its start word names, read signed. -/
theorem row_of_land {N C M w : Nat} (wf) (idx : IVec ⟨2, ![M, 1]⟩ w) (i : Fin M) (c : Fin C)
    (j : (⟨2, ![N, C]⟩ : Shape).Idx) (h : (RowIdx.rowScatter N C M wf).resultIdx? (ix2 i c) idx = some j) :
    ((j 0).val : Int) = (idx (ix2 i (0 : Fin 1))).toInt := by
  rw [RowIdx.rowScatter_resultIdx?] at h
  split at h
  · rename_i hb
    cases h
    show (((idx (ix2 i (0 : Fin 1))).toInt.toNat : Nat) : Int) = _
    omega
  · cases h

variable [Facts₀]
open Facts₀

/-- The dispatch buffer: 32769 rows of zeros (the last one a dump row); the rounded activation row of each sorted
    position's token is written onto the row that is the position's slot; the dump row is cut off and the 32768 rows
    left are read as 16 groups of 2048 rows. -/
def xe (hs : FVec Ideal S4096x1024 .f32) (ids : IVec S4096x2 32) : FVec Ideal S16x2048x1024 .bf16 :=
  shapeCast S16x2048x1024
    (extractStridedSlice S32768x1024 ![0, 0]
      (Host.scatter scatter_S32769x1024_S8192x1_S8192x1024_1_0_0_1 (fun _ b => b)
        (broadcastInDim S32769x1024 ![] bcast_S_S32769x1024 (constant (F := Ideal) S_ .bf16 0x0000#16))
        (asIndex 32769#32 (slot ids))
        (Host.gather gather_S4096x1024_S8192x1_S8192x1024_1_0_n_n_0_1_11024
          (truncf (F := Ideal) .bf16 hs bitsLt_bf16_f32) (asIndex 4096#32 (st ids))))
      slices_S32769x1024_S32768x1024_0_0)
    shapeCasts_S32768x1024_S16x2048x1024

/-- A column of start indices read at a row: the word there, moved up by `n` when it is negative. -/
theorem asIndex_apply (n : BitVec 32) (v : IVec S8192 32) (i : Fin 8192) :
    asIndex n v (ix2 i (0 : Fin 1))
      = Scalar.select (IntOp.cmpi .slt (v (ix1 i)) 0#32) (IntOp.addi (v (ix1 i)) n) (v (ix1 i)) := by
  unfold asIndex
  refine (broadcastInDim_apply _ _ _ (ix2 i (0 : Fin 1)) (ix1 i) (fun a => ?_)).trans ?_
  · match a with
    | ⟨0, _⟩ => rfl
  · rfl

/-- In the dispatch buffer a row of a group at or past the group's number of kept rows is zero: the kept positions
    of group `e'` write the rows `e' * 2048 + p'` with `p'` below that number, every other position writes the dump row,
    so nothing is written on such a row and it keeps the zero it started with. -/
theorem xe_row_zero (hs : FVec Ideal S4096x1024 .f32) (ids : IVec S4096x2 32)
    (hslot : ∀ i : Fin 8192,
      (valid ids (ix1 i) = 1#1 → ∃ (e : Fin 16) (p : Fin 2048),
        slot ids (ix1 i) = BitVec.ofNat 32 (e.val * 2048 + p.val) ∧ (p.val : Int) < (live ids (ix1 e)).toInt) ∧
      (valid ids (ix1 i) ≠ 1#1 → slot ids (ix1 i) = 32768#32))
    (e : Fin 16) (p : Fin 2048) (hp : (live ids (ix1 e)).toInt ≤ (p.val : Int)) (k : Fin 1024) :
    xe hs ids (ix3 e p k) = 0 := by
  have he := e.isLt
  have hp2 := p.isLt
  have hr : e.val * 2048 + p.val < 32768 := by omega
  have hr' : e.val * 2048 + p.val < 32769 := by omega
  unfold xe
  refine (shapeCast_apply _ _ (ix3 e p k) (ix2 (⟨e.val * 2048 + p.val, hr⟩ : Fin 32768) k) ?_).trans ?_
  · rw [Shape.rowMajor_val_two, Shape.rowMajor_val_three]; rfl
  refine (extractStridedSlice_apply _ _ _ (ix2 (⟨e.val * 2048 + p.val, hr⟩ : Fin 32768) k)
    (ix2 (⟨e.val * 2048 + p.val, hr'⟩ : Fin 32769) k) (fun a => ?_)).trans ?_
  · match a with
    | ⟨0, _⟩ => exact (Nat.zero_add _).symm
    | ⟨1, _⟩ => exact (Nat.zero_add _).symm
  refine (scatter_unhit _ _ _ _ _ _ (fun q hq => ?_)).trans ?_
  · obtain ⟨i, c, rfl⟩ : ∃ i c, q = ix2 i c := ⟨q 0, q 1, eq_ix2 q⟩
    have hrow := row_of_land (N := 32769) (C := 1024) (M := 8192) scatter_S32769x1024_S8192x1_S8192x1024_1_0_0_1_wf
      (asIndex 32769#32 (slot ids)) i c _ hq
    change ((e.val * 2048 + p.val : Nat) : Int) = _ at hrow
    rw [asIndex_apply] at hrow
    by_cases hv : valid ids (ix1 i) = 1#1
    · obtain ⟨e', p', hs', hl'⟩ := (hslot i).1 hv
      have he' := e'.isLt
      have hp' := p'.isLt
      have ht := toInt_ofNat_small (e'.val * 2048 + p'.val) (by omega)
      rw [hs', select_of_nonneg _ _ (by omega), ht] at hrow
      have hee : e' = e := Fin.ext (by omega)
      subst hee
      omega
    · have hs' := (hslot i).2 hv
      have ht : (32768#32 : BitVec 32).toInt = 32768 := by decide
      rw [hs', select_of_nonneg _ _ (by omega), ht] at hrow
      omega
  · exact Ideal.ofBits_zero_bf16

end Cert.Proof.Xe
-- ==== Proof.XeRef.lean ====
/-
  The reference's dispatch buffer, and that it is the kernel's.

  The reference builds the same buffer without rounding the activations: 32769 rows of zeros, the activation row of each
  sorted position's token written onto the row that is the position's slot, the last row cut off, the rest read as 16
  groups of 2048 rows. At the ideal values a change of float format is the identity and both zero patterns denote 0, so
  the two buffers are one array.
-/
import proofs.«122239_j24352464569736_2_alg».proof.Proof.XeZero
import proofs.«122239_j24352464569736_2_alg».proof.ReferenceIdeal

noncomputable section

namespace Cert.Proof.Xe

open Idealize.ShloMosaic Idealize.ShloMosaic.ValueIdx Cert.ReferenceIdeal

variable [hR : Cert.ReferenceIdeal.Facts₀]
open Cert.ReferenceIdeal.Facts₀

/-- The reference's own normalisation of a vector of start indices into `n` rows (a negative index counts from the
    end), made a column. -/
def asIndexRef (n : BitVec 32) (v : IVec S8192 32) : IVec S8192x1 32 :=
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 n))) v)

/-- The reference's dispatch buffer as a function of the activations, the sorted tokens and the slots. -/
def xeRefOf (hs : FVec Ideal S4096x1024 .f32) (stv slotv : IVec S8192 32) : FVec Ideal S16x2048x1024 .f32 :=
  shapeCast S16x2048x1024
    (extractStridedSlice S32768x1024 ![0, 0]
      (Host.scatter scatter_S32769x1024_S8192x1_S8192x1024_1_0_0_1 (fun _ b => b)
        (broadcastInDim S32769x1024 ![] bcast_S_S32769x1024 (constant (F := Ideal) S_ .f32 0x00000000#32))
        (asIndexRef 32769#32 slotv)
        (Host.gather gather_S4096x1024_S8192x1_S8192x1024_1_0_n_n_0_1_11024 hs (asIndexRef 4096#32 stv)))
      slices_S32769x1024_S32768x1024_0_0)
    shapeCasts_S32768x1024_S16x2048x1024

variable [hK : Cert.KernelIdeal.Facts₀]

/-- The two programs normalise start indices by the same function. -/
theorem asIndexRef_eq (n : BitVec 32) (v : IVec S8192 32) : asIndexRef n v = Cert.Proof.Dispatch.asIndex n v := rfl

/-- The reference's dispatch buffer as a function of the activations and the expert ids. -/
def xeRef (hs : FVec Ideal S4096x1024 .f32) (ids : IVec S4096x2 32) : FVec Ideal S16x2048x1024 .f32 :=
  xeRefOf hs (Cert.Proof.Dispatch.st ids) (Cert.Proof.Dispatch.slot ids)

/-- Both zero patterns denote 0: the two buffers start as the same array. -/
theorem zeros_eq :
    (broadcastInDim S32769x1024 ![] bcast_S_S32769x1024 (constant (F := Ideal) S_ .f32 0x00000000#32) : S32769x1024.Idx → EReal)
      = broadcastInDim Cert.KernelIdeal.S32769x1024 ![] Cert.KernelIdeal.Facts₀.bcast_S_S32769x1024
          (constant (F := Ideal) Cert.KernelIdeal.S_ .bf16 0x0000#16) := by
  funext j
  show Ideal.ofBits .f32 0x00000000#32 = Ideal.ofBits .bf16 0x0000#16
  rw [Ideal.ofBits_zero_f32, Ideal.ofBits_zero_bf16]

/-- The reference's dispatch buffer is the kernel's. -/
theorem xeRef_eq (hs : FVec Ideal S4096x1024 .f32) (ids : IVec S4096x2 32) (j : S16x2048x1024.Idx) :
    xeRef hs ids j = xe hs ids j := by
  unfold xeRef xeRefOf xe
  rw [zeros_eq]
  rfl

end Cert.Proof.Xe
-- ==== Proof.MlpRow.lean ====
/-
  The gated-SiLU MLP of one row, read at an index on both sides, at the ideal values (floats as extended reals).

  For a row x of 1024 entries and an expert's weights G, U (1024 × 512) and D (512 × 1024), the result at column d is
  Σ_f ((g_f · logistic g_f) · u_f) · D f d with g_f = Σ_k x_k · G k f and u_f = Σ_k x_k · U k f  (`mlpRow`).
  The kernel body's stored tile is this function of row r of its token tile (`pay1_apply`); the tile it stores for an
  inactive block is zero (`pay2_apply`); the reference's three batched products around its SiLU are this function of
  row p of expert e's buffer (`refYe_apply`); and a zero row gives zero (`mlpRow_zero`).
-/
import proofs.«122239_j24352464569736_2_alg».proof.Proof.Gen.KernelIdeal.Skeleton
import proofs.«122239_j24352464569736_2_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember
import Idealize.ShloMosaic.Lib.IdealHost

noncomputable section

open scoped BigOperators

namespace Cert.Proof.Mlp

open Idealize.ShloMosaic Idealize.ShloMosaic.ValueIdx

/-- The MLP of one row: for each hidden unit f the gate g = Σ_k x k * G k f and up u = Σ_k x k * U k f, the activation (g * logistic g) * u, contracted with the down weights. -/
def mlpRow (x : Fin 1024 → EReal) (G U : Fin 1024 → Fin 512 → EReal) (D : Fin 512 → Fin 1024 → EReal) (d : Fin 1024) : EReal :=
  ∑ f : Fin 512, (((∑ k : Fin 1024, x k * G k f) * Ideal.logistic (∑ k : Fin 1024, x k * G k f)) * (∑ k : Fin 1024, x k * U k f)) * D f d

/-- The tile stored for an inactive block: the bf16 zero pattern splat over the tile, which denotes 0. -/
theorem pay2_apply (j : Cert.KernelIdeal.S1x512x1024.Idx) : Cert.KernelIdeal.Gen.k0_pay2 (F := Ideal) j = 0 := by
  unfold Cert.KernelIdeal.Gen.k0_pay2
  show Ideal.ofBits .bf16 0x0000#16 = 0
  exact IdealRules.sign_bit.ideal_zero .bf16

/-- A zero row gives a zero result: every gate sum is 0 (0 * x = 0 on the extended reals, at the infinities too), so
    every term of the outer sum has the factor 0. -/
theorem mlpRow_zero (G U : Fin 1024 → Fin 512 → EReal) (D : Fin 512 → Fin 1024 → EReal) (hG : ∀ k f, ∃ r : ℝ, G k f = (r : EReal)) (hU : ∀ k f, ∃ r : ℝ, U k f = (r : EReal)) (hD : ∀ f d, ∃ r : ℝ, D f d = (r : EReal)) (d : Fin 1024) : mlpRow (fun _ => 0) G U D d = 0 := by
  unfold mlpRow
  simp only [zero_mul, Finset.sum_const_zero]

open Idealize.ShloMosaic.StackMember in
/-- A matrix product accumulated into the zero splat, with the plain dimension numbers (rows × contraction by
    contraction × columns), read at (a, b): the sum over the contracted coordinate of the products of the entries. -/
theorem matmul_plain_zero_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant (F := Ideal) ⟨2, ![m, n]⟩ .f32 0x00000000#32) (ix2 a b)
      = ∑ c : Fin k, A (ix2 a c) * B (ix2 c b) := by
  rw [matmul_zero_eq_dotGeneral]
  exact dotGeneral_plain_apply none A B a b

/-- The same product when both operands are blocks with a leading unit axis, viewed as matrices: the entries are the
    blocks' at (0, a, c) and (0, c, b). -/
theorem matmul_blocks_zero_apply {m k n : Nat} {φ₁ φ₂ : FTy} (A : FVec Ideal ⟨3, ![1, m, k]⟩ φ₁) (B : FVec Ideal ⟨3, ![1, k, n]⟩ φ₂)
    (hA : (⟨3, ![1, m, k]⟩ : Shape).ShapeCasts ⟨2, ![m, k]⟩) (hB : (⟨3, ![1, k, n]⟩ : Shape).ShapeCasts ⟨2, ![k, n]⟩)
    (a : Fin m) (b : Fin n) :
    matmul (DotDims.plain m k n) none (shapeCast ⟨2, ![m, k]⟩ A hA) (shapeCast ⟨2, ![k, n]⟩ B hB)
        (constant (F := Ideal) ⟨2, ![m, n]⟩ .f32 0x00000000#32) (ix2 a b)
      = ∑ c : Fin k, A (ix3 (0 : Fin 1) a c) * B (ix3 (0 : Fin 1) c b) := by
  rw [matmul_plain_zero_apply]
  refine Finset.sum_congr rfl fun c _ => ?_
  rw [shapeCast_1ab_ab_apply, shapeCast_1ab_ab_apply]

/-- The stored tile of the kernel body at (0, r, d): the MLP of row r of the token tile against the expert's three
    weight blocks. The two roundings to bf16 are the identity on the extended reals. -/
theorem pay1_apply (x : Vec Ideal Cert.KernelIdeal.S1x512x1024 .bf16) (wg wu : Vec Ideal Cert.KernelIdeal.S1x1024x512 .bf16) (wd : Vec Ideal Cert.KernelIdeal.S1x512x1024 .bf16) (r : Fin 512) (d : Fin 1024) :
    Cert.KernelIdeal.Gen.k0_pay1 (F := Ideal) x wg wu wd (ix3 (0 : Fin 1) r d)
      = mlpRow (fun k => x (ix3 (0 : Fin 1) r k)) (fun k f => wg (ix3 (0 : Fin 1) k f)) (fun k f => wu (ix3 (0 : Fin 1) k f)) (fun f d' => wd (ix3 (0 : Fin 1) f d')) d := by
  unfold Cert.KernelIdeal.Gen.k0_pay1
  rw [shapeCast_ab_1ab_apply, truncf_apply]
  refine (matmul_plain_zero_apply _ _ r d).trans ?_
  unfold mlpRow
  refine Finset.sum_congr rfl fun f _ => ?_
  have hgate := matmul_blocks_zero_apply (φ₁ := .bf16) (φ₂ := .bf16) x wg Cert.KernelIdeal.Gen.shapeCasts_S1x512x1024_S512x1024
    Cert.KernelIdeal.Gen.shapeCasts_S1x1024x512_S1024x512 r f
  have hup := matmul_blocks_zero_apply (φ₁ := .bf16) (φ₂ := .bf16) x wu Cert.KernelIdeal.Gen.shapeCasts_S1x512x1024_S512x1024
    Cert.KernelIdeal.Gen.shapeCasts_S1x1024x512_S1024x512 r f
  rw [shapeCast_1ab_ab_apply, ← hgate, ← hup]
  rfl

section Reference
open Cert.ReferenceIdeal

/-- The reference's expert MLP on the dispatched buffers: the gate product, SiLU of it as the host spells it
    (x · (1 / (1 + exp (−x))), the two ones broadcast scalar constants), the up product, their product, and the down
    product — the functions of the reference's five lines, composed. -/
def refYe (xe : FVec Ideal S16x2048x1024 .f32) (g u : FVec Ideal S16x1024x512 .f32) (dn : FVec Ideal S16x512x1024 .f32) :
    FVec Ideal S16x2048x1024 .f32 :=
  Host.dotGeneral dot_S16x2048x512_S16x512x1024_S16x2048x1024_2_1_1_2_0_0 none
    (mulf
      (mulf (Host.dotGeneral dot_S16x2048x1024_S16x1024x512_S16x2048x512_2_1_1_2_0_0 none xe g)
        (Host.divf
          (broadcastInDim S16x2048x512 ![] Gen.bcast_S_S16x2048x512 (constant (F := Ideal) S_ .f32 0x3F800000#32))
          (addf
            (broadcastInDim S16x2048x512 ![] Gen.bcast_S_S16x2048x512 (constant (F := Ideal) S_ .f32 0x3F800000#32))
            (Host.exp (Host.negf (Host.dotGeneral dot_S16x2048x1024_S16x1024x512_S16x2048x512_2_1_1_2_0_0 none xe g))))))
      (Host.dotGeneral dot_S16x2048x1024_S16x1024x512_S16x2048x512_2_1_1_2_0_0 none xe u))
    dn

open Idealize.ShloMosaic.StackMember in
/-- The reference's expert MLP at (e, p, d) is the MLP of row p of expert e's buffer against expert e's weights. -/
theorem refYe_apply (xe : FVec Ideal S16x2048x1024 .f32) (g u : FVec Ideal S16x1024x512 .f32) (dn : FVec Ideal S16x512x1024 .f32)
    (e : Fin 16) (p : Fin 2048) (d : Fin 1024) :
    refYe xe g u dn (ix3 e p d)
      = mlpRow (fun k => xe (ix3 e p k)) (fun k f => g (ix3 e k f)) (fun k f => u (ix3 e k f)) (fun f d' => dn (ix3 e f d')) d := by
  unfold refYe mlpRow
  refine (dotGeneral_stack_apply Gen.dot_S16x2048x512_S16x512x1024_S16x2048x1024_2_1_1_2_0_0_wf none _ dn e p d).trans ?_
  refine Finset.sum_congr rfl fun f _ => ?_
  have hgate := dotGeneral_stack_apply Gen.dot_S16x2048x1024_S16x1024x512_S16x2048x512_2_1_1_2_0_0_wf none xe g e p f
  have hup := dotGeneral_stack_apply Gen.dot_S16x2048x1024_S16x1024x512_S16x2048x512_2_1_1_2_0_0_wf none xe u e p f
  have hone : broadcastInDim S16x2048x512 ![] Gen.bcast_S_S16x2048x512 (constant (F := Ideal) S_ .f32 0x3F800000#32)
      = fun _ => (1 : EReal) := funext fun _ => Ideal.ofBits_one_f32
  beta_reduce
  rw [← hgate, ← hup, hone]
  rfl

end Reference

end Cert.Proof.Mlp
-- ==== Proof.Stages.lean ====
/-
  The two programs' host lines read as pure functions of their argument arrays.

  Around the kernel's one region the host lines are straight-line code: each buffer they leave is one composed
  function of the buffers they were given. Before the region: the dispatch (sorted tokens, sorted weights, kept
  positions, slots, kept rows per expert), the gathered expert inputs and the weights rounded to bf16. After it: the
  combine, as one function of the expert outputs and four dispatch buffers. The reference is one such line from its
  six arguments to its result.
-/
import proofs.«122239_j24352464569736_2_alg».proof.Proof.Dispatch
import proofs.«122239_j24352464569736_2_alg».proof.Proof.KKit
import proofs.«122239_j24352464569736_2_alg».proof.Proof.XeZero
import proofs.«122239_j24352464569736_2_alg».proof.Proof.XeRef
import proofs.«122239_j24352464569736_2_alg».proof.Proof.MlpRow
import proofs.«122239_j24352464569736_2_alg».proof.Proof.RefRun
import Idealize.ShloMosaic.Lib.StableHlo.Run

noncomputable section

namespace Cert.Proof.Stages

section kernel

open Idealize.ShloMosaic Idealize.ShloMosaic.TcCoe Idealize.ShloMosaic.StableHlo Idealize.ShloMosaic.ValueIdx
open Cert.KernelIdeal Cert.Proof.Dispatch

variable [Cert.KernelIdeal.Facts]
open Facts₀ Facts

/-! ## The combine: the kernel's lines after the region -/

/-- Lines %77 … %100: row `slot` of the expert outputs for every sorted position (the dump slot clamped into the
    table), widened to f32, scaled by the position's weight where the position is kept and by zero where it is not,
    and added onto the row of the position's token. -/
def tailK (ye : FVec Ideal S16x2048x1024 .bf16) (slotv : IVec S8192 32) (validv : IVec S8192 1)
    (swv : FVec Ideal S8192 .f32) (stv : IVec S8192 32) : FVec Ideal S4096x1024 .f32 :=
  Host.scatterAdd scatter_S4096x1024_S8192x1_S8192x1024_1_0_0_1
    (broadcastInDim S4096x1024 ![] Facts₀.bcast_S_S4096x1024 (constant S_ .f32 0x00000000#32))
    (asIndex 4096#32 stv)
    (mulf
      (extf .f32
        (Host.gather gather_S32768x1024_S8192x1_S8192x1024_1_0_n_n_0_1_11024
          (shapeCast S32768x1024 ye Facts₀.shapeCasts_S16x2048x1024_S32768x1024)
          (asIndex 32768#32 (minsi slotv (splat 32767#32))))
        Facts₀.bitsLt_bf16_f32)
      (broadcastInDim S8192x1024 ![0, 1] Facts₀.bcast_S8192x1_S8192x1024_0_1
        (broadcastInDim S8192x1 ![0] Facts₀.bcast_S8192_S8192x1_0 (mulf swv (uitofp .f32 validv)))))

attribute [local irreducible] Host.sort2 Host.gather Host.scatter Host.reduceWindow Host.scatterAdd in
set_option maxRecDepth 16384 in
/-- The result of the lines after the region is the combine of the five buffers they read. -/
theorem tail_eq (W : Valuation τ sig (Elt Ideal)) :
    after (Gen.hostOps1 (F := Ideal)) W (main_v100 : DevRef τ sig)
      = tailK (W (main_v76 : DevRef τ sig)) (W (main_v52 : DevRef τ sig)) (W (main_v48 : DevRef τ sig))
          (W (main_v25 : DevRef τ sig)) (W (main_v18 : DevRef τ sig)) := by
  simp only [Gen.hostOps1]
  after_results_simp
  rfl

theorem tail_arg0 (W : Valuation τ sig (Elt Ideal)) :
    after (Gen.hostOps1 (F := Ideal)) W (main_arg0 : DevRef τ sig) = W (main_arg0 : DevRef τ sig) := by
  simp only [Gen.hostOps1]
  after_results_simp

theorem tail_arg1 (W : Valuation τ sig (Elt Ideal)) :
    after (Gen.hostOps1 (F := Ideal)) W (main_arg1 : DevRef τ sig) = W (main_arg1 : DevRef τ sig) := by
  simp only [Gen.hostOps1]
  after_results_simp

theorem tail_arg2 (W : Valuation τ sig (Elt Ideal)) :
    after (Gen.hostOps1 (F := Ideal)) W (main_arg2 : DevRef τ sig) = W (main_arg2 : DevRef τ sig) := by
  simp only [Gen.hostOps1]
  after_results_simp

theorem tail_arg3 (W : Valuation τ sig (Elt Ideal)) :
    after (Gen.hostOps1 (F := Ideal)) W (main_arg3 : DevRef τ sig) = W (main_arg3 : DevRef τ sig) := by
  simp only [Gen.hostOps1]
  after_results_simp

theorem tail_arg4 (W : Valuation τ sig (Elt Ideal)) :
    after (Gen.hostOps1 (F := Ideal)) W (main_arg4 : DevRef τ sig) = W (main_arg4 : DevRef τ sig) := by
  simp only [Gen.hostOps1]
  after_results_simp

theorem tail_arg5 (W : Valuation τ sig (Elt Ideal)) :
    after (Gen.hostOps1 (F := Ideal)) W (main_arg5 : DevRef τ sig) = W (main_arg5 : DevRef τ sig) := by
  simp only [Gen.hostOps1]
  after_results_simp

/-! ## The kernel's lines before the region -/

/-- %25: the sorted routing weights. -/
def sw (ids : IVec S4096x2 32) (w : FVec Ideal S4096x2 .f32) : FVec Ideal S8192 .f32 :=
  Host.gather gather_S8192_S8192x1_S8192_n_0_n_n_0_1_1 (shapeCast S8192 w Facts₀.shapeCasts_S4096x2_S8192)
    (asIndex 8192#32 (order ids))

/-- The kernel's host lines before the region, as one list. -/
abbrev preOps : List (HloOp τ sig (Elt Ideal)) := (Hand.prefixOps (F := Ideal)).flatten

/-- The same list spelt out, operation by operation. -/
macro "pre_ops_literal" : tactic =>
  `(tactic| simp only [preOps, Hand.prefixOps, List.flatten_cons, List.flatten_nil, Gen.hostOps0, Gen.hostOps0_1, Gen.hostOps0_2,
      Gen.hostOps0_3, Gen.hostOps0_4, Gen.hostOps0_5, Gen.hostOps0_6, Gen.hostOps0_7, Gen.hostOps0_8, Gen.hostOps0_9,
      List.cons_append, List.nil_append, List.append_nil])

attribute [local irreducible] Host.sort2 Host.gather Host.scatter Host.reduceWindow Host.scatterAdd in
set_option maxRecDepth 16384 in
theorem pre_v18 (W : Valuation τ sig (Elt Ideal)) :
    after preOps W (main_v18 : DevRef τ sig) = st (W (main_arg1 : DevRef τ sig)) := by
  pre_ops_literal
  after_results_simp
  rfl

attribute [local irreducible] Host.sort2 Host.gather Host.scatter Host.reduceWindow Host.scatterAdd in
set_option maxRecDepth 16384 in
theorem pre_v25 (W : Valuation τ sig (Elt Ideal)) :
    after preOps W (main_v25 : DevRef τ sig) = sw (W (main_arg1 : DevRef τ sig)) (W (main_arg2 : DevRef τ sig)) := by
  pre_ops_literal
  after_results_simp
  rfl

attribute [local irreducible] Host.sort2 Host.gather Host.scatter Host.reduceWindow Host.scatterAdd in
set_option maxRecDepth 16384 in
theorem pre_v48 (W : Valuation τ sig (Elt Ideal)) :
    after preOps W (main_v48 : DevRef τ sig) = valid (W (main_arg1 : DevRef τ sig)) := by
  pre_ops_literal
  after_results_simp
  rfl

attribute [local irreducible] Host.sort2 Host.gather Host.scatter Host.reduceWindow Host.scatterAdd in
set_option maxRecDepth 16384 in
theorem pre_v52 (W : Valuation τ sig (Elt Ideal)) :
    after preOps W (main_v52 : DevRef τ sig) = slot (W (main_arg1 : DevRef τ sig)) := by
  pre_ops_literal
  after_results_simp
  rfl

attribute [local irreducible] Host.sort2 Host.gather Host.scatter Host.reduceWindow Host.scatterAdd in
set_option maxRecDepth 16384 in
theorem pre_v54 (W : Valuation τ sig (Elt Ideal)) :
    after preOps W (main_v54 : DevRef τ sig) = live (W (main_arg1 : DevRef τ sig)) := by
  pre_ops_literal
  after_results_simp
  rfl

attribute [local irreducible] Host.sort2 Host.gather Host.scatter Host.reduceWindow Host.scatterAdd in
set_option maxRecDepth 16384 in
set_option maxHeartbeats 1600000 in
theorem pre_v72 (W : Valuation τ sig (Elt Ideal)) :
    after preOps W (main_v72 : DevRef τ sig) = Cert.Proof.Xe.xe (W (main_arg0 : DevRef τ sig)) (W (main_arg1 : DevRef τ sig)) := by
  pre_ops_literal
  after_results_simp
  rfl

attribute [local irreducible] Host.sort2 Host.gather Host.scatter Host.reduceWindow Host.scatterAdd in
set_option maxRecDepth 16384 in
theorem pre_v73 (W : Valuation τ sig (Elt Ideal)) :
    after preOps W (main_v73 : DevRef τ sig) = truncf (F := Ideal) .bf16 (W (main_arg3 : DevRef τ sig)) Facts₀.bitsLt_bf16_f32 := by
  pre_ops_literal
  after_results_simp

attribute [local irreducible] Host.sort2 Host.gather Host.scatter Host.reduceWindow Host.scatterAdd in
set_option maxRecDepth 16384 in
theorem pre_v74 (W : Valuation τ sig (Elt Ideal)) :
    after preOps W (main_v74 : DevRef τ sig) = truncf (F := Ideal) .bf16 (W (main_arg4 : DevRef τ sig)) Facts₀.bitsLt_bf16_f32 := by
  pre_ops_literal
  after_results_simp

attribute [local irreducible] Host.sort2 Host.gather Host.scatter Host.reduceWindow Host.scatterAdd in
set_option maxRecDepth 16384 in
theorem pre_v75 (W : Valuation τ sig (Elt Ideal)) :
    after preOps W (main_v75 : DevRef τ sig) = truncf (F := Ideal) .bf16 (W (main_arg5 : DevRef τ sig)) Facts₀.bitsLt_bf16_f32 := by
  pre_ops_literal
  after_results_simp

theorem pre_arg0 (W : Valuation τ sig (Elt Ideal)) :
    after preOps W (main_arg0 : DevRef τ sig) = W (main_arg0 : DevRef τ sig) := by
  pre_ops_literal
  after_results_simp

theorem pre_arg1 (W : Valuation τ sig (Elt Ideal)) :
    after preOps W (main_arg1 : DevRef τ sig) = W (main_arg1 : DevRef τ sig) := by
  pre_ops_literal
  after_results_simp

theorem pre_arg2 (W : Valuation τ sig (Elt Ideal)) :
    after preOps W (main_arg2 : DevRef τ sig) = W (main_arg2 : DevRef τ sig) := by
  pre_ops_literal
  after_results_simp

theorem pre_arg3 (W : Valuation τ sig (Elt Ideal)) :
    after preOps W (main_arg3 : DevRef τ sig) = W (main_arg3 : DevRef τ sig) := by
  pre_ops_literal
  after_results_simp

theorem pre_arg4 (W : Valuation τ sig (Elt Ideal)) :
    after preOps W (main_arg4 : DevRef τ sig) = W (main_arg4 : DevRef τ sig) := by
  pre_ops_literal
  after_results_simp

theorem pre_arg5 (W : Valuation τ sig (Elt Ideal)) :
    after preOps W (main_arg5 : DevRef τ sig) = W (main_arg5 : DevRef τ sig) := by
  pre_ops_literal
  after_results_simp

/-! ## The reference's combine, and that it is the kernel's -/

/-- The reference's lines %75 … %97: the same combine on expert outputs kept in f32 (no widening step). -/
def refTail (ye : FVec Ideal S16x2048x1024 .f32) (slotv : IVec S8192 32) (validv : IVec S8192 1)
    (swv : FVec Ideal S8192 .f32) (stv : IVec S8192 32) : FVec Ideal S4096x1024 .f32 :=
  Host.scatterAdd scatter_S4096x1024_S8192x1_S8192x1024_1_0_0_1
    (broadcastInDim S4096x1024 ![] Facts₀.bcast_S_S4096x1024 (constant S_ .f32 0x00000000#32))
    (asIndex 4096#32 stv)
    (mulf
      (Host.gather gather_S32768x1024_S8192x1_S8192x1024_1_0_n_n_0_1_11024
        (shapeCast S32768x1024 ye Facts₀.shapeCasts_S16x2048x1024_S32768x1024)
        (asIndex 32768#32 (minsi slotv (splat 32767#32))))
      (broadcastInDim S8192x1024 ![0, 1] Facts₀.bcast_S8192x1_S8192x1024_0_1
        (broadcastInDim S8192x1 ![0] Facts₀.bcast_S8192_S8192x1_0 (mulf swv (uitofp .f32 validv)))))

attribute [local irreducible] Host.gather Host.scatterAdd in
/-- At the ideal values widening bf16 to f32 changes nothing, so on equal expert outputs the two combines agree. -/
theorem tail_bridge (yeK : FVec Ideal S16x2048x1024 .bf16) (yeR : FVec Ideal S16x2048x1024 .f32)
    (h : ∀ j, yeK j = yeR j) (s : IVec S8192 32) (v : IVec S8192 1) (w : FVec Ideal S8192 .f32) (t : IVec S8192 32) :
    tailK yeK s v w t = refTail yeR s v w t := by
  have e : yeK = yeR := funext h
  subst e
  rfl

end kernel

end Cert.Proof.Stages

end
-- ==== Proof.YeEq.lean ====
/-
  The expert MLP's result buffer is the same on both sides.

  The kernel computes the MLP of a row only in the 512-row tiles that start below the expert's number of kept rows, and
  stores zeros in every other tile; the reference computes the MLP of every row of the dispatch buffer. The two agree
  because a row at or past the number of kept rows is zero in the dispatch buffer, and the MLP of a zero row is zero:
  a tile that starts at or past that number holds only such rows.
-/
import proofs.«122239_j24352464569736_2_alg».proof.Proof.MlpRow
import proofs.«122239_j24352464569736_2_alg».proof.Proof.XeZero
import proofs.«122239_j24352464569736_2_alg».proof.Proof.Dispatch

noncomputable section

namespace Cert.Proof.YeEq

open Idealize.ShloMosaic Idealize.ShloMosaic.ValueIdx Cert.Proof.Mlp

/-- The kernel's result buffer (the MLP of a row in the tiles that start below the expert's number of kept rows, zero
    in the others) is the reference's (the MLP of every row of the dispatch buffer): past the kept rows the dispatch
    buffer's rows are zero, and the MLP of a zero row is zero. -/
theorem ye_eq [Cert.KernelIdeal.Facts₀] [Cert.ReferenceIdeal.Facts₀] (hs : FVec Ideal Cert.KernelIdeal.S4096x1024 .f32) (ids : IVec Cert.KernelIdeal.S4096x2 32) (g u : FVec Ideal Cert.KernelIdeal.S16x1024x512 .f32) (dn : FVec Ideal Cert.KernelIdeal.S16x512x1024 .f32)
    (hslot : ∀ i : Fin 8192,
      (Cert.Proof.Dispatch.valid ids (ix1 i) = 1#1 → ∃ (e : Fin 16) (p : Fin 2048),
        Cert.Proof.Dispatch.slot ids (ix1 i) = BitVec.ofNat 32 (e.val * 2048 + p.val) ∧ (p.val : Int) < (Cert.Proof.Dispatch.live ids (ix1 e)).toInt) ∧
      (Cert.Proof.Dispatch.valid ids (ix1 i) ≠ 1#1 → Cert.Proof.Dispatch.slot ids (ix1 i) = 32768#32))
    (hg : ∀ j, ∃ r : ℝ, g j = (r : EReal)) (hu : ∀ j, ∃ r : ℝ, u j = (r : EReal)) (hdn : ∀ j, ∃ r : ℝ, dn j = (r : EReal))
    (xeR : FVec Ideal Cert.ReferenceIdeal.S16x2048x1024 .f32) (hxe : ∀ j, xeR j = Cert.Proof.Xe.xe hs ids j)
    (yeK : FVec Ideal Cert.KernelIdeal.S16x2048x1024 .bf16)
    (hye : ∀ (e : Fin 16) (p : Fin 2048) (d : Fin 1024), yeK (ix3 e p d) = if ((p.val / 512 * 512 : Nat) : Int) < (Cert.Proof.Dispatch.live ids (ix1 e)).toInt then mlpRow (fun k => Cert.Proof.Xe.xe hs ids (ix3 e p k)) (fun k f => g (ix3 e k f)) (fun k f => u (ix3 e k f)) (fun f d' => dn (ix3 e f d')) d else 0) :
    ∀ j, yeK j = refYe xeR g u dn j := by
  intro j
  obtain ⟨e, p, d, rfl⟩ : ∃ (e : Fin 16) (p : Fin 2048) (d : Fin 1024), j = ix3 e p d := ⟨j 0, j 1, j 2, eq_ix3 j⟩
  rw [hye e p d]
  refine Eq.trans ?_ (refYe_apply xeR g u dn e p d).symm
  have hrow : (fun k : Fin 1024 => xeR (ix3 e p k)) = fun k => Cert.Proof.Xe.xe hs ids (ix3 e p k) :=
    funext fun k => hxe (ix3 e p k)
  rw [hrow]
  split
  · rfl
  · rename_i hlt
    have hp : (Cert.Proof.Dispatch.live ids (ix1 e)).toInt ≤ (p.val : Int) := by
      have h1 : p.val / 512 * 512 ≤ p.val := Nat.div_mul_le_self p.val 512
      omega
    have hzero : (fun k : Fin 1024 => Cert.Proof.Xe.xe hs ids (ix3 e p k)) = fun _ => (0 : EReal) :=
      funext fun k => Cert.Proof.Xe.xe_row_zero hs ids hslot e p hp k
    rw [hzero]
    exact (mlpRow_zero _ _ _ (fun k f => hg _) (fun k f => hu _) (fun f d' => hdn _) d).symm

end Cert.Proof.YeEq
-- ==== Proof.PreFacts.lean ====
import proofs.«122239_j24352464569736_2_alg».proof.Pre_finite_inputs
import proofs.«122239_j24352464569736_2_alg».proof.Proof.Gen.Pre_finite_inputs
import Idealize.ShloMosaic.Lib.ReduceAll
import Idealize.ShloMosaic.PureOps.Ideal

noncomputable section

namespace Cert.Proof.PreFacts

open Idealize.ShloMosaic Cert.Pre_finite_inputs

/-- The rank-0 shape has exactly one index. -/
instance subsingleton_scalar_idx : Subsingleton S_.Idx := ⟨fun a b => funext fun d => d.elim0⟩

/-- The f32 pattern with all exponent bits set and a zero fraction denotes +∞. -/
theorem inf_eq_top : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the printed test "|x| < +∞": if its comparison bit is 1, the element is a real. -/
theorem real_of_bit {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ∃ r : ℝ, x i = (r : EReal) := by
  have h' : BitVec.ofBool (decide (max (x i) (-(x i)) < Ideal.ofBits .f32 0x7F800000#32)) = 1#1 := h
  rw [inf_eq_top] at h'
  refine real_of_abs_lt_top (x i) ?_
  by_contra hn
  rw [decide_eq_false hn] at h'
  exact absurd h' (by decide)

/-- One element of the printed test "0 ≤ n and n < 16" on 32-bit words read as signed integers. -/
theorem range_of_bit (a : IVec S4096x2 32) (hb : S_.BroadcastsInDim S4096x2 (![] : Fin 0 → Fin S4096x2.rank)) (i : S4096x2.Idx)
    (h : andi (cmpi .sge a (broadcastInDim S4096x2 ![] hb (constantI S_ 32 0#32)))
          (cmpi .slt a (broadcastInDim S4096x2 ![] hb (constantI S_ 32 16#32))) i = 1#1) :
    0 ≤ (a i).toInt ∧ (a i).toInt < 16 := by
  have h' : IntOp.andi (IntOp.cmpi .sge (a i) 0#32) (IntOp.cmpi .slt (a i) 16#32) = 1#1 := h
  obtain ⟨h0, h1⟩ := IntOp.andi_eq_one.1 h'
  have e0 := IntOp.cmpi_sge.1 h0
  have e1 := IntOp.cmpi_slt.1 h1
  exact ⟨by simpa using e0, by simpa using e1⟩

/-- A conjunction of two one-bit arrays that is 1 at an index has both bits 1 there. -/
theorem andi_split {s : Shape} (x y : IVec s 1) (i : s.Idx) (h : andi x y i = 1#1) : x i = 1#1 ∧ y i = 1#1 :=
  IntOp.andi_eq_one.1 h

theorem decode [hP : Cert.Pre_finite_inputs.Facts] (a0 : FVec Ideal Cert.Pre_finite_inputs.S4096x1024 .f32) (a1 : IVec Cert.Pre_finite_inputs.S4096x2 32) (a2 : FVec Ideal Cert.Pre_finite_inputs.S4096x2 .f32) (a3 a4 : FVec Ideal Cert.Pre_finite_inputs.S16x1024x512 .f32) (a5 : FVec Ideal Cert.Pre_finite_inputs.S16x512x1024 .f32)
    (h : Cert.Pre_finite_inputs.fn (F := Ideal) a0 a1 a2 a3 a4 a5 = (fun _ => 1#1)) :
    (∀ j, ∃ r : ℝ, a0 j = (r : EReal)) ∧ (∀ j, 0 ≤ (a1 j).toInt ∧ (a1 j).toInt < 16) ∧ (∀ j, ∃ r : ℝ, a2 j = (r : EReal))
    ∧ (∀ j, ∃ r : ℝ, a3 j = (r : EReal)) ∧ (∀ j, ∃ r : ℝ, a4 j = (r : EReal)) ∧ (∀ j, ∃ r : ℝ, a5 j = (r : EReal)) := by
  have h0 := congrFun h (fun a => a.elim0)
  dsimp only [fn, fn_part1] at h0
  obtain ⟨h0, hA1⟩ := andi_split _ _ _ h0
  obtain ⟨h0, hA5⟩ := andi_split _ _ _ h0
  obtain ⟨h0, hA4⟩ := andi_split _ _ _ h0
  obtain ⟨h0, hA3⟩ := andi_split _ _ _ h0
  obtain ⟨hA0, hA2⟩ := andi_split _ _ _ h0
  exact ⟨fun j => real_of_bit a0 _ j (Host.reduce_andi_all _ _ _ _ _ hA0 j),
    fun j => range_of_bit a1 _ j (Host.reduce_andi_all _ _ _ _ _ hA1 j),
    fun j => real_of_bit a2 _ j (Host.reduce_andi_all _ _ _ _ _ hA2 j),
    fun j => real_of_bit a3 _ j (Host.reduce_andi_all _ _ _ _ _ hA3 j),
    fun j => real_of_bit a4 _ j (Host.reduce_andi_all _ _ _ _ _ hA4 j),
    fun j => real_of_bit a5 _ j (Host.reduce_andi_all _ _ _ _ _ hA5 j)⟩

/-! The six conjuncts of `decode`, one at a time. -/

section
variable [hP : Cert.Pre_finite_inputs.Facts]
  (a0 : FVec Ideal S4096x1024 .f32) (a1 : IVec S4096x2 32) (a2 : FVec Ideal S4096x2 .f32)
  (a3 a4 : FVec Ideal S16x1024x512 .f32) (a5 : FVec Ideal S16x512x1024 .f32)
  (h : fn (F := Ideal) a0 a1 a2 a3 a4 a5 = (fun _ => 1#1))
include h

/-- Every activation entry is a real number. -/
theorem arg0_real (j : S4096x1024.Idx) : ∃ r : ℝ, a0 j = (r : EReal) := (decode a0 a1 a2 a3 a4 a5 h).1 j
/-- Every expert id, read as a signed integer, lies in [0, 16). -/
theorem arg1_range (j : S4096x2.Idx) : 0 ≤ (a1 j).toInt ∧ (a1 j).toInt < 16 := (decode a0 a1 a2 a3 a4 a5 h).2.1 j
/-- Every routing weight is a real number. -/
theorem arg2_real (j : S4096x2.Idx) : ∃ r : ℝ, a2 j = (r : EReal) := (decode a0 a1 a2 a3 a4 a5 h).2.2.1 j
/-- Every entry of the first expert matrix stack is a real number. -/
theorem arg3_real (j : S16x1024x512.Idx) : ∃ r : ℝ, a3 j = (r : EReal) := (decode a0 a1 a2 a3 a4 a5 h).2.2.2.1 j
/-- Every entry of the second expert matrix stack is a real number. -/
theorem arg4_real (j : S16x1024x512.Idx) : ∃ r : ℝ, a4 j = (r : EReal) := (decode a0 a1 a2 a3 a4 a5 h).2.2.2.2.1 j
/-- Every entry of the third expert matrix stack is a real number. -/
theorem arg5_real (j : S16x512x1024.Idx) : ∃ r : ℝ, a5 j = (r : EReal) := (decode a0 a1 a2 a3 a4 a5 h).2.2.2.2.2 j

end

end Cert.Proof.PreFacts
-- ==== Proof.KValue.lean ====
/-
  From the kernel's blocks to its result array.

  At each grid point (e, q) the body leaves in the output's buffer the computed tile of the point's four input blocks
  when the tile's first row, 512 q, is below expert e's live row count, and the zero tile otherwise. The input blocks are
  rows 512 q … 512 q + 511 of group e of the dispatch buffer and expert e's three weight matrices; the output block is
  rows 512 q … 512 q + 511 of group e of the result. The 64 output blocks tile the result array, so after the last point
  every entry of the result is the entry of the tile its point stored.
-/
import proofs.«122239_j24352464569736_2_alg».proof.Proof.KObl
import proofs.«122239_j24352464569736_2_alg».proof.Proof.Gen.KernelIdeal.Launch
import proofs.«122239_j24352464569736_2_alg».proof.Proof.Gen.KernelIdeal.Skeleton
import Idealize.ShloMosaic.Lib.Pipeline.FrameBody
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body's one stored piece reads back to -/

theorem zero3 : (![0, 0, 0] : Fin 3 → Nat) = fun _ => 0 := funext fun a => by fin_cases a <;> rfl

/-- A tile that holds data: the output's buffer ends holding the computed tile of the four loaded tiles. -/
theorem readA_eq (c : Dev nD) (i : grid0.Coords) (arg3 harg3 arg4 harg4 arg5 harg5 arg6 harg6 arg7 harg7) (T x wg wu wd) (h1 h2) :
    VO.read (Elt F) (VO.writes (Elt F) VO.junk
      (runA (F := F) c i arg3 harg3 arg4 harg4 arg5 harg5 arg6 harg6 arg7 harg7 T x wg wu wd h1 h2).1) = k0_pay1 x wg wu wd := by
  rw [View.read_writes_eq_canon _ _ _ (coverA c i arg3 harg3 arg4 harg4 arg5 harg5 arg6 harg6 arg7 harg7 T x wg wu wd h1 h2)]
  unfold runA
  dsimp only
  try sl_unfold_words
  rw [View.canon_unit_zero zero3]
  simp only [View.readAt_eq_ld, harg3.read_unread, harg4.read_unread, harg5.read_unread, harg6.read_unread,
    View.ld_unit_zero (S := S1x512x1024) zero3, View.ld_unit_zero (S := S1x1024x512) zero3]

/-- A tile past its expert's live rows: the output's buffer ends holding the zero tile. -/
theorem readB_eq (c : Dev nD) (i : grid0.Coords) (arg3 harg3 arg4 harg4 arg5 harg5 arg6 harg6 arg7 harg7) (T x wg wu wd) (h1 h2) :
    VO.read (Elt F) (VO.writes (Elt F) VO.junk
      (runB (F := F) c i arg3 harg3 arg4 harg4 arg5 harg5 arg6 harg6 arg7 harg7 T x wg wu wd h1 h2).1) = k0_pay2 := by
  rw [View.read_writes_eq_canon _ _ _ (coverB c i arg3 harg3 arg4 harg4 arg5 harg5 arg6 harg6 arg7 harg7 T x wg wu wd h1 h2)]
  unfold runB
  dsimp only
  try sl_unfold_words
  rw [View.canon_unit_zero zero3]

/-- What the output's buffer holds after the body at a point: the computed tile of the point's four input blocks where
    the tile starts below the expert's live count, the zero tile elsewhere. -/
theorem outAt_eq (c : Dev nD) (t : Fin (cfgM m).N) :
    outAt m c t = if k0_cond1 (grid0.coords t) (wordAt m t) = 1#1
      then k0_pay1 (iblk m c 0 t) (iblk m c 1 t) (iblk m c 2 t) (iblk m c 3 t) else k0_pay2 := by
  by_cases h1 : k0_cond1 (grid0.coords t) (wordAt m t) = 1#1
  · rw [if_pos h1]
    unfold outAt piecesAt
    rw [dif_pos h1]
    exact readA_eq c _ _ _ _ _ _ _ _ _ _ _ _ _ _ _ _ _ _
  · rw [if_neg h1]
    unfold outAt piecesAt
    rw [dif_neg h1]
    exact readB_eq c _ _ _ _ _ _ _ _ _ _ _ _ _ _ _ _ _ _

/-! ## The grid and the index maps -/

/-- The grid is 16 experts by 4 tiles, the tile number moving fastest: point `t` is expert `t / 4`, tile `t % 4`. -/
theorem coords_val : ∀ t : Fin grid0.N, ((grid0.coords t) 0).val = t.val / 4 ∧ ((grid0.coords t) 1).val = t.val % 4 := by
  decide +kernel

/-- The five index maps over the grid: the rows' and the result's blocks are (expert, tile, 0), each weight matrix's
    block is (expert, 0, 0). -/
theorem index_maps : ∀ t : Fin grid0.N,
    (cc0_transform_0 (grid0.coords t) 0 = t.val / 4 ∧ cc0_transform_0 (grid0.coords t) 1 = t.val % 4 ∧ cc0_transform_0 (grid0.coords t) 2 = 0)
    ∧ (cc0_transform_1 (grid0.coords t) 0 = t.val / 4 ∧ cc0_transform_1 (grid0.coords t) 1 = 0 ∧ cc0_transform_1 (grid0.coords t) 2 = 0)
    ∧ (cc0_transform_2 (grid0.coords t) 0 = t.val / 4 ∧ cc0_transform_2 (grid0.coords t) 1 = 0 ∧ cc0_transform_2 (grid0.coords t) 2 = 0)
    ∧ (cc0_transform_3 (grid0.coords t) 0 = t.val / 4 ∧ cc0_transform_3 (grid0.coords t) 1 = 0 ∧ cc0_transform_3 (grid0.coords t) 2 = 0)
    ∧ (cc0_transform_4 (grid0.coords t) 0 = t.val / 4 ∧ cc0_transform_4 (grid0.coords t) 1 = t.val % 4 ∧ cc0_transform_4 (grid0.coords t) 2 = 0) := by
  decide +kernel

/-- Each window's block index at a point is its printed index map at the point's coordinates, whatever the table holds. -/
theorem index_0 (a : (pcfg0 (F := F)).Adm) (t : Fin (cfg0 a).N) : ((cfg0 a).win 0).index t = cc0_transform_0 (grid0.coords t) := rfl
theorem index_1 (a : (pcfg0 (F := F)).Adm) (t : Fin (cfg0 a).N) : ((cfg0 a).win 1).index t = cc0_transform_1 (grid0.coords t) := rfl
theorem index_2 (a : (pcfg0 (F := F)).Adm) (t : Fin (cfg0 a).N) : ((cfg0 a).win 2).index t = cc0_transform_2 (grid0.coords t) := rfl
theorem index_3 (a : (pcfg0 (F := F)).Adm) (t : Fin (cfg0 a).N) : ((cfg0 a).win 3).index t = cc0_transform_3 (grid0.coords t) := rfl
theorem index_4 (a : (pcfg0 (F := F)).Adm) (t : Fin (cfg0 a).N) : ((cfg0 a).win 4).index t = cc0_transform_4 (grid0.coords t) := rfl

/-- The number of the point with coordinates (e, q). -/
theorem pt_lt (e : Fin 16) (q : Fin 4) : e.val * 4 + q.val < grid0.N := by
  rw [N_0]; have := e.isLt; have := q.isLt; omega

/-- A block of the dispatch buffer read at an index: rows 512 q … of group e. -/
theorem blk0_read (a : (pcfg0 (F := F)).Adm) (A : S16x2048x1024.Idx → Elt F .bf16) (t : Fin (cfg0 a).N) (e : Fin 16) (q : Fin 4)
    (ht : t.val = e.val * 4 + q.val) (r : Fin 512) (k : Fin 1024) :
    (((cfg0 a).win 0).blk t).view.read (Elt F) A (ix3 (0 : Fin 1) r k)
      = A (ix3 e (⟨q.val * 512 + r.val, by have := q.isLt; have := r.isLt; omega⟩ : Fin 2048) k) := by
  have he := e.isLt
  have hq := q.isLt
  obtain ⟨⟨i0, i1, i2⟩, -⟩ := index_maps t
  show A ((((cfg0 a).win 0).blk t).view.emb (ix3 (0 : Fin 1) r k)) = A _
  refine congrArg A (funext fun b => Fin.ext ?_)
  match b with
  | ⟨0, _⟩ =>
    show cc0_transform_0 (grid0.coords t) 0 * 1 + 1 * 0 = e.val
    rw [i0]; omega
  | ⟨1, _⟩ =>
    show cc0_transform_0 (grid0.coords t) 1 * 512 + 1 * r.val = q.val * 512 + r.val
    rw [i1]; omega
  | ⟨2, _⟩ =>
    show cc0_transform_0 (grid0.coords t) 2 * 1024 + 1 * k.val = k.val
    rw [i2]; omega

/-- A block of the first weight stack read at an index: expert e's matrix. -/
theorem blk1_read (a : (pcfg0 (F := F)).Adm) (A : S16x1024x512.Idx → Elt F .bf16) (t : Fin (cfg0 a).N) (e : Fin 16) (q : Fin 4)
    (ht : t.val = e.val * 4 + q.val) (k : Fin 1024) (f : Fin 512) :
    (((cfg0 a).win 1).blk t).view.read (Elt F) A (ix3 (0 : Fin 1) k f) = A (ix3 e k f) := by
  have he := e.isLt
  have hq := q.isLt
  obtain ⟨-, ⟨i0, i1, i2⟩, -⟩ := index_maps t
  show A ((((cfg0 a).win 1).blk t).view.emb (ix3 (0 : Fin 1) k f)) = A _
  refine congrArg A (funext fun b => Fin.ext ?_)
  match b with
  | ⟨0, _⟩ =>
    show cc0_transform_1 (grid0.coords t) 0 * 1 + 1 * 0 = e.val
    rw [i0]; omega
  | ⟨1, _⟩ =>
    show cc0_transform_1 (grid0.coords t) 1 * 1024 + 1 * k.val = k.val
    rw [i1]; omega
  | ⟨2, _⟩ =>
    show cc0_transform_1 (grid0.coords t) 2 * 512 + 1 * f.val = f.val
    rw [i2]; omega

/-- A block of the second weight stack read at an index: expert e's matrix. -/
theorem blk2_read (a : (pcfg0 (F := F)).Adm) (A : S16x1024x512.Idx → Elt F .bf16) (t : Fin (cfg0 a).N) (e : Fin 16) (q : Fin 4)
    (ht : t.val = e.val * 4 + q.val) (k : Fin 1024) (f : Fin 512) :
    (((cfg0 a).win 2).blk t).view.read (Elt F) A (ix3 (0 : Fin 1) k f) = A (ix3 e k f) := by
  have he := e.isLt
  have hq := q.isLt
  obtain ⟨-, -, ⟨i0, i1, i2⟩, -⟩ := index_maps t
  show A ((((cfg0 a).win 2).blk t).view.emb (ix3 (0 : Fin 1) k f)) = A _
  refine congrArg A (funext fun b => Fin.ext ?_)
  match b with
  | ⟨0, _⟩ =>
    show cc0_transform_2 (grid0.coords t) 0 * 1 + 1 * 0 = e.val
    rw [i0]; omega
  | ⟨1, _⟩ =>
    show cc0_transform_2 (grid0.coords t) 1 * 1024 + 1 * k.val = k.val
    rw [i1]; omega
  | ⟨2, _⟩ =>
    show cc0_transform_2 (grid0.coords t) 2 * 512 + 1 * f.val = f.val
    rw [i2]; omega

/-- A block of the third weight stack read at an index: expert e's matrix. -/
theorem blk3_read (a : (pcfg0 (F := F)).Adm) (A : S16x512x1024.Idx → Elt F .bf16) (t : Fin (cfg0 a).N) (e : Fin 16) (q : Fin 4)
    (ht : t.val = e.val * 4 + q.val) (f : Fin 512) (d : Fin 1024) :
    (((cfg0 a).win 3).blk t).view.read (Elt F) A (ix3 (0 : Fin 1) f d) = A (ix3 e f d) := by
  have he := e.isLt
  have hq := q.isLt
  obtain ⟨-, -, -, ⟨i0, i1, i2⟩, -⟩ := index_maps t
  show A ((((cfg0 a).win 3).blk t).view.emb (ix3 (0 : Fin 1) f d)) = A _
  refine congrArg A (funext fun b => Fin.ext ?_)
  match b with
  | ⟨0, _⟩ =>
    show cc0_transform_3 (grid0.coords t) 0 * 1 + 1 * 0 = e.val
    rw [i0]; omega
  | ⟨1, _⟩ =>
    show cc0_transform_3 (grid0.coords t) 1 * 512 + 1 * f.val = f.val
    rw [i1]; omega
  | ⟨2, _⟩ =>
    show cc0_transform_3 (grid0.coords t) 2 * 1024 + 1 * d.val = d.val
    rw [i2]; omega

/-! ## The input blocks at an index -/

/-- The rows' block at point (e, q): rows 512 q … 512 q + 511 of group e of the dispatch buffer. -/
theorem iblk0_apply (c : Dev nD) (t : Fin (cfgM m).N) (e : Fin 16) (q : Fin 4) (ht : t.val = e.val * 4 + q.val)
    (r : Fin 512) (k : Fin 1024) :
    (iblk m c 0 t : Vec F S1x512x1024 .bf16) (ix3 (0 : Fin 1) r k)
      = (V m c main_v72 : S16x2048x1024.Idx → Elt F .bf16)
          (ix3 e (⟨q.val * 512 + r.val, by have := q.isLt; have := r.isLt; omega⟩ : Fin 2048) k) :=
  blk0_read (adm m 0) (V m c main_v72) t e q ht r k

/-- The first weight block at point (e, q): expert e's matrix. -/
theorem iblk1_apply (c : Dev nD) (t : Fin (cfgM m).N) (e : Fin 16) (q : Fin 4) (ht : t.val = e.val * 4 + q.val)
    (k : Fin 1024) (f : Fin 512) :
    (iblk m c 1 t : Vec F S1x1024x512 .bf16) (ix3 (0 : Fin 1) k f)
      = (V m c main_v73 : S16x1024x512.Idx → Elt F .bf16) (ix3 e k f) :=
  blk1_read (adm m 0) (V m c main_v73) t e q ht k f

/-- The second weight block at point (e, q): expert e's matrix. -/
theorem iblk2_apply (c : Dev nD) (t : Fin (cfgM m).N) (e : Fin 16) (q : Fin 4) (ht : t.val = e.val * 4 + q.val)
    (k : Fin 1024) (f : Fin 512) :
    (iblk m c 2 t : Vec F S1x1024x512 .bf16) (ix3 (0 : Fin 1) k f)
      = (V m c main_v74 : S16x1024x512.Idx → Elt F .bf16) (ix3 e k f) :=
  blk2_read (adm m 0) (V m c main_v74) t e q ht k f

/-- The third weight block at point (e, q): expert e's matrix. -/
theorem iblk3_apply (c : Dev nD) (t : Fin (cfgM m).N) (e : Fin 16) (q : Fin 4) (ht : t.val = e.val * 4 + q.val)
    (f : Fin 512) (d : Fin 1024) :
    (iblk m c 3 t : Vec F S1x512x1024 .bf16) (ix3 (0 : Fin 1) f d)
      = (V m c main_v75 : S16x512x1024.Idx → Elt F .bf16) (ix3 e f d) :=
  blk3_read (adm m 0) (V m c main_v75) t e q ht f d

/-! ## From the output's blocks to the result array -/

/-- An entry of the result inside point t's output block lies in group t / 4, rows 512 (t % 4) … 512 (t % 4) + 511. -/
theorem mem_blk4 (a : (pcfg0 (F := F)).Adm) (t : Fin (cfg0 a).N) (i : S16x2048x1024.Idx)
    (hi : i ∈ (((cfg0 a).win 4).blk t).view.set) :
    (i 0).val = t.val / 4 ∧ t.val % 4 * 512 ≤ (i 1).val ∧ (i 1).val < t.val % 4 * 512 + 512 := by
  obtain ⟨-, -, -, -, ⟨i0, i1, -⟩⟩ := index_maps t
  have e1 : (((cfg0 a).win 4).blk t).view.set = (((cfg0 a).win 4).rect t).set := View.set_slice_whole main_v76 _
  have m1 := Rect.mem_set_unit.1 ((Finset.ext_iff.1 e1 i).1 hi)
  have a0 : cc0_transform_4 (grid0.coords t) 0 * 1 ≤ (i 0).val ∧ (i 0).val < cc0_transform_4 (grid0.coords t) 0 * 1 + 1 :=
    m1 (0 : Fin 3)
  have a1 : cc0_transform_4 (grid0.coords t) 1 * 512 ≤ (i 1).val ∧ (i 1).val < cc0_transform_4 (grid0.coords t) 1 * 512 + 512 :=
    m1 (1 : Fin 3)
  rw [i0] at a0; rw [i1] at a1
  omega

/-- The output blocks of different points do not meet: they differ in the expert or in the tile. -/
theorem blk4_disjoint (a : (pcfg0 (F := F)).Adm) (t t' : Fin (cfg0 a).N) (hne : t ≠ t') :
    Disjoint (((cfg0 a).win 4).blk t).view.set (((cfg0 a).win 4).blk t').view.set := by
  have hv : t.val ≠ t'.val := fun h => hne (Fin.ext h)
  refine Finset.disjoint_left.2 fun i hi hi' => ?_
  have h1 := mem_blk4 a t i hi
  have h2 := mem_blk4 a t' i hi'
  omega

/-- Where an entry of point (e, q)'s output block sits in the result: row 512 q + r of group e. -/
theorem blk4_emb (a : (pcfg0 (F := F)).Adm) (t : Fin (cfg0 a).N) (e : Fin 16) (q : Fin 4) (ht : t.val = e.val * 4 + q.val)
    (r : Fin 512) (d : Fin 1024) :
    (((cfg0 a).win 4).blk t).view.emb (ix3 (0 : Fin 1) r d)
      = (ix3 e (⟨q.val * 512 + r.val, by have := q.isLt; have := r.isLt; omega⟩ : Fin 2048) d : S16x2048x1024.Idx) := by
  have he := e.isLt
  have hq := q.isLt
  obtain ⟨-, -, -, -, ⟨i0, i1, i2⟩⟩ := index_maps t
  refine funext fun b => Fin.ext ?_
  match b with
  | ⟨0, _⟩ =>
    show cc0_transform_4 (grid0.coords t) 0 * 1 + 1 * 0 = e.val
    rw [i0]; omega
  | ⟨1, _⟩ =>
    show cc0_transform_4 (grid0.coords t) 1 * 512 + 1 * r.val = q.val * 512 + r.val
    rw [i1]; omega
  | ⟨2, _⟩ =>
    show cc0_transform_4 (grid0.coords t) 2 * 1024 + 1 * d.val = d.val
    rw [i2]; omega

/-- THE RESULT ARRAY after the region, entry by entry: row 512 q + r of group e holds row r of what the body stored at
    point (e, q). -/
theorem arr4_apply (c : Dev nD) (e : Fin 16) (q : Fin 4) (r : Fin 512) (d : Fin 1024) (t : Fin (cfgM m).N)
    (ht : t.val = e.val * 4 + q.val) :
    (dats m 0 c).arrAt 4 (cfgM m).N
        (ix3 e (⟨q.val * 512 + r.val, by have := q.isLt; have := r.isLt; omega⟩ : Fin 2048) d : S16x2048x1024.Idx)
      = outAt m c t (ix3 (0 : Fin 1) r d) := by
  have h := (dats m 0 c).arrAt_emb_eq_flushed 4 (fun t t' _ _ hne => blk4_disjoint (adm m 0) t t' hne) t (flush4 (adm m 0) t)
    (ix3 (0 : Fin 1) r d)
  rw [blk4_emb (adm m 0) t e q ht r d] at h
  refine h.trans ?_
  show ((cfgM m).win 4).cut (grid0.coords t) ((dats m 0 c).after 4 t) (ix3 (0 : Fin 1) r d) = _
  rw [after_4]
  rfl

end Cert.KernelIdeal.Hand

end
-- ==== Proof.Bridge.lean ====
/-
  The two programs compute one function of the inputs.

  Both run the same dispatch: the (token, expert) pairs sorted by expert, numbered inside their expert's group, placed
  at row expert * 2048 + number when the number is below the capacity and at a spare row otherwise. The kernel's region
  leaves, tile by tile, the expert's gated-SiLU MLP of the tile's rows where the tile starts below min(count, 2048), and
  zeros elsewhere; the reference applies the MLP to every row. Under the precondition the ids are in range, so a row at
  or past the live count is never written by the dispatch and holds zeros, and the MLP of a zero row is zero (the
  weights are finite): the two arrays are equal everywhere, and the lines after them are the same lines.
-/
import proofs.«122239_j24352464569736_2_alg».proof.Defs
import proofs.«122239_j24352464569736_2_alg».proof.Proof.RefRun
import proofs.«122239_j24352464569736_2_alg».proof.Proof.KRun
import proofs.«122239_j24352464569736_2_alg».proof.Proof.Gen.Pre_finite_inputs
import proofs.«122239_j24352464569736_2_alg».proof.Proof.Stages
import proofs.«122239_j24352464569736_2_alg».proof.Proof.YeEq
import proofs.«122239_j24352464569736_2_alg».proof.Proof.XeRef
import proofs.«122239_j24352464569736_2_alg».proof.Proof.PreFacts
import proofs.«122239_j24352464569736_2_alg».proof.Proof.KValue

set_option maxRecDepth 16384

noncomputable section

namespace Cert.Proof.Alg

open Idealize.ShloMosaic Idealize.ShloMosaic.TcCoe Idealize.SL.Sem Idealize.ShloMosaic.ValueIdx
open Cert.KernelIdeal.Hand
open Idealize.ShloMosaic.StableHlo (launchContents)
open Cert.Proof.Dispatch (slot valid st live)
open Cert.Proof.Stages (sw tailK refTail)

variable [hK : Cert.KernelIdeal.Facts] [hR : Cert.ReferenceIdeal.Facts] [hP : Cert.Pre_finite_inputs.Facts]

abbrev K_m := (ℓ : Loc Cert.KernelIdeal.nD Cert.KernelIdeal.τ Cert.KernelIdeal.sig) → Buf (Elt Ideal) ℓ
abbrev R_m := (ℓ : Loc Cert.ReferenceIdeal.nD Cert.ReferenceIdeal.τ Cert.ReferenceIdeal.sig) → Buf (Elt Ideal) ℓ

/-- What the kernel program's result buffer holds at the end: the later host lines applied to the region's exit. -/
abbrev outK (m : K_m) (c : Dev Cert.KernelIdeal.nD) : Buf (Elt Ideal) ((c.tc : Thread Cert.KernelIdeal.nD Cert.KernelIdeal.τ).loc Cert.KernelIdeal.main_v100) :=
  Pipeline.afterTail Cert.KernelIdeal.pcfgs (adm (F := Ideal) m) (dats (F := Ideal) m) 0 (V0 (F := Ideal) m) [Cert.KernelIdeal.Gen.hostOps1] c Cert.KernelIdeal.main_v100

/-- The launch contents as a valuation. -/
abbrev W0 (m : K_m) (c : Dev Cert.KernelIdeal.nD) : Valuation Cert.KernelIdeal.τ Cert.KernelIdeal.sig (Elt Ideal) := fun b => m (c, b)

/-- The region's output array at its exit. -/
abbrev yeK (m : K_m) (c : Dev Cert.KernelIdeal.nD) : FVec Ideal Cert.KernelIdeal.S16x2048x1024 .bf16 :=
  (dats (F := Ideal) m 0 c).arrAt 4 (cfgM (F := Ideal) m).N

/-- The kernel's result is its later lines applied to the region's output array and four dispatch buffers, which are the
    pure dispatch stages of the expert ids (and the routing weights). -/
theorem outK_eq (m : K_m) (c : Dev Cert.KernelIdeal.nD) :
    outK m c = tailK (yeK m c) (slot (W0 m c Cert.KernelIdeal.main_arg1)) (valid (W0 m c Cert.KernelIdeal.main_arg1))
      (sw (W0 m c Cert.KernelIdeal.main_arg1) (W0 m c Cert.KernelIdeal.main_arg2)) (st (W0 m c Cert.KernelIdeal.main_arg1)) := by
  unfold outK Pipeline.afterTail
  rw [show ([Cert.KernelIdeal.Gen.hostOps1] : List (List (HloOp Cert.KernelIdeal.τ Cert.KernelIdeal.sig (Elt Ideal)))).flatten = Cert.KernelIdeal.Gen.hostOps1 from by
    simp only [List.flatten_cons, List.flatten_nil, List.append_nil]]
  rw [Cert.Proof.Stages.tail_eq]
  have e76 : Pipeline.withArrays (Pipeline.pin Cert.KernelIdeal.pcfgs (adm (F := Ideal) m) 0).spec c (V0 (F := Ideal) m c)
        (fun w => (dats (F := Ideal) m 0 c).arrAt w (Pipeline.pin Cert.KernelIdeal.pcfgs (adm (F := Ideal) m) 0).N) (Proc.devRef .tc Cert.KernelIdeal.main_v76) = yeK m c :=
    Pipeline.withArrays_arr _ (Cert.KernelIdeal.Gen.launch0 (F := Ideal)).win.arr_inj c _ _ (4 : Fin 5)
  have e_main_v52 : Pipeline.withArrays (Pipeline.pin Cert.KernelIdeal.pcfgs (adm (F := Ideal) m) 0).spec c (V0 (F := Ideal) m c)
        (fun w => (dats (F := Ideal) m 0 c).arrAt w (Pipeline.pin Cert.KernelIdeal.pcfgs (adm (F := Ideal) m) 0).N) (Proc.devRef .tc Cert.KernelIdeal.main_v52) = V0 (F := Ideal) m c (Proc.devRef .tc Cert.KernelIdeal.main_v52) :=
    Pipeline.withArrays_of_ne _ c _ _ Cert.KernelIdeal.main_v52 (show ∀ w : Fin 5, Pipeline.arrRef Cert.KernelIdeal.spec0 w ≠ Cert.KernelIdeal.main_v52 from by decide)
  have e_main_v48 : Pipeline.withArrays (Pipeline.pin Cert.KernelIdeal.pcfgs (adm (F := Ideal) m) 0).spec c (V0 (F := Ideal) m c)
        (fun w => (dats (F := Ideal) m 0 c).arrAt w (Pipeline.pin Cert.KernelIdeal.pcfgs (adm (F := Ideal) m) 0).N) (Proc.devRef .tc Cert.KernelIdeal.main_v48) = V0 (F := Ideal) m c (Proc.devRef .tc Cert.KernelIdeal.main_v48) :=
    Pipeline.withArrays_of_ne _ c _ _ Cert.KernelIdeal.main_v48 (show ∀ w : Fin 5, Pipeline.arrRef Cert.KernelIdeal.spec0 w ≠ Cert.KernelIdeal.main_v48 from by decide)
  have e_main_v25 : Pipeline.withArrays (Pipeline.pin Cert.KernelIdeal.pcfgs (adm (F := Ideal) m) 0).spec c (V0 (F := Ideal) m c)
        (fun w => (dats (F := Ideal) m 0 c).arrAt w (Pipeline.pin Cert.KernelIdeal.pcfgs (adm (F := Ideal) m) 0).N) (Proc.devRef .tc Cert.KernelIdeal.main_v25) = V0 (F := Ideal) m c (Proc.devRef .tc Cert.KernelIdeal.main_v25) :=
    Pipeline.withArrays_of_ne _ c _ _ Cert.KernelIdeal.main_v25 (show ∀ w : Fin 5, Pipeline.arrRef Cert.KernelIdeal.spec0 w ≠ Cert.KernelIdeal.main_v25 from by decide)
  have e_main_v18 : Pipeline.withArrays (Pipeline.pin Cert.KernelIdeal.pcfgs (adm (F := Ideal) m) 0).spec c (V0 (F := Ideal) m c)
        (fun w => (dats (F := Ideal) m 0 c).arrAt w (Pipeline.pin Cert.KernelIdeal.pcfgs (adm (F := Ideal) m) 0).N) (Proc.devRef .tc Cert.KernelIdeal.main_v18) = V0 (F := Ideal) m c (Proc.devRef .tc Cert.KernelIdeal.main_v18) :=
    Pipeline.withArrays_of_ne _ c _ _ Cert.KernelIdeal.main_v18 (show ∀ w : Fin 5, Pipeline.arrRef Cert.KernelIdeal.spec0 w ≠ Cert.KernelIdeal.main_v18 from by decide)
  rw [e76, e_main_v52, e_main_v48, e_main_v25, e_main_v18]
  have h52 : V0 (F := Ideal) m c (Proc.devRef .tc Cert.KernelIdeal.main_v52) = slot (W0 m c Cert.KernelIdeal.main_arg1) := Cert.Proof.Stages.pre_v52 (W0 m c)
  have h48 : V0 (F := Ideal) m c (Proc.devRef .tc Cert.KernelIdeal.main_v48) = valid (W0 m c Cert.KernelIdeal.main_arg1) := Cert.Proof.Stages.pre_v48 (W0 m c)
  have h25 : V0 (F := Ideal) m c (Proc.devRef .tc Cert.KernelIdeal.main_v25) = sw (W0 m c Cert.KernelIdeal.main_arg1) (W0 m c Cert.KernelIdeal.main_arg2) := Cert.Proof.Stages.pre_v25 (W0 m c)
  have h18 : V0 (F := Ideal) m c (Proc.devRef .tc Cert.KernelIdeal.main_v18) = st (W0 m c Cert.KernelIdeal.main_arg1) := Cert.Proof.Stages.pre_v18 (W0 m c)
  rw [h52, h48, h25, h18]

/-- The reference's result, as a function of the six inputs: its later lines applied to its own MLP of its own dispatch
    buffer and the shared dispatch stages. -/
abbrev refOutOf (m : K_m) (c : Dev Cert.KernelIdeal.nD) : FVec Ideal Cert.KernelIdeal.S4096x1024 .f32 :=
  refTail (Cert.Proof.Mlp.refYe (Cert.Proof.Xe.xeRef (W0 m c Cert.KernelIdeal.main_arg0) (W0 m c Cert.KernelIdeal.main_arg1)) (W0 m c Cert.KernelIdeal.main_arg3) (W0 m c Cert.KernelIdeal.main_arg4) (W0 m c Cert.KernelIdeal.main_arg5))
    (slot (W0 m c Cert.KernelIdeal.main_arg1)) (valid (W0 m c Cert.KernelIdeal.main_arg1)) (sw (W0 m c Cert.KernelIdeal.main_arg1) (W0 m c Cert.KernelIdeal.main_arg2)) (st (W0 m c Cert.KernelIdeal.main_arg1))

/-- THE BRIDGE, in pure terms: under the precondition the reference's function of the inputs is what the kernel program
    leaves. The expert ids being in range, every pair read back with a non-zero weight sits below its expert's live count
    (the dispatch fact), so the rows the kernel zero-filled are rows of zeros, whose MLP is zero (finite weights). -/
theorem bridge_core (m : K_m) (c : Dev Cert.KernelIdeal.nD)
    (hpre : Cert.Pre_finite_inputs.fn (F := Ideal) (W0 m c Cert.KernelIdeal.main_arg0) (W0 m c Cert.KernelIdeal.main_arg1) (W0 m c Cert.KernelIdeal.main_arg2) (W0 m c Cert.KernelIdeal.main_arg3) (W0 m c Cert.KernelIdeal.main_arg4) (W0 m c Cert.KernelIdeal.main_arg5) = (fun _ => 1#1))
    (hye : ∀ (e : Fin 16) (p : Fin 2048) (d : Fin 1024), yeK m c (ix3 e p d)
        = if ((p.val / 512 * 512 : Nat) : Int) < (live (W0 m c Cert.KernelIdeal.main_arg1) (ix1 e)).toInt then
            Cert.Proof.Mlp.mlpRow (fun k => Cert.Proof.Xe.xe (W0 m c Cert.KernelIdeal.main_arg0) (W0 m c Cert.KernelIdeal.main_arg1) (ix3 e p k)) (fun k f => (W0 m c Cert.KernelIdeal.main_arg3) (ix3 e k f))
              (fun k f => (W0 m c Cert.KernelIdeal.main_arg4) (ix3 e k f)) (fun f d' => (W0 m c Cert.KernelIdeal.main_arg5) (ix3 e f d')) d
          else 0) :
    refOutOf m c = outK m c := by
  obtain ⟨-, hr, -, hg, hu, hdn⟩ := Cert.Proof.PreFacts.decode _ _ _ _ _ _ hpre
  rw [outK_eq]
  unfold refOutOf
  symm
  exact Cert.Proof.Stages.tail_bridge _ _
    (Cert.Proof.YeEq.ye_eq (W0 m c Cert.KernelIdeal.main_arg0) (W0 m c Cert.KernelIdeal.main_arg1) (W0 m c Cert.KernelIdeal.main_arg3) (W0 m c Cert.KernelIdeal.main_arg4) (W0 m c Cert.KernelIdeal.main_arg5) (Cert.Proof.Dispatch.slot_facts (W0 m c Cert.KernelIdeal.main_arg1) hr) hg hu hdn
      (Cert.Proof.Xe.xeRef (W0 m c Cert.KernelIdeal.main_arg0) (W0 m c Cert.KernelIdeal.main_arg1)) (Cert.Proof.Xe.xeRef_eq (W0 m c Cert.KernelIdeal.main_arg0) (W0 m c Cert.KernelIdeal.main_arg1)) (yeK m c) hye) _ _ _ _

end Cert.Proof.Alg

end
-- ==== Proof.KWord.lean ====
/-
  The word the kernel's body reads and the branch it takes on it: the word is the table's entry for the grid point's
  expert, and the first branch is taken exactly when the tile's first row, 512 times the tile number, is below it
  (as signed integers; 512 times a tile number below 4 does not wrap).
-/
import proofs.«122239_j24352464569736_2_alg».proof.Proof.KData
import proofs.«122239_j24352464569736_2_alg».proof.Proof.Gen.KernelIdeal.Launch
import Idealize.ShloMosaic.Lib.ValueIdx
import proofs.«122239_j24352464569736_2_alg».proof.Proof.LibSortRank
import proofs.«122239_j24352464569736_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The word the body loads at a grid point is the table's entry for the point's expert. -/
theorem word_eq (i : grid0.Coords) (T : S16.Idx → Elt F .i32) :
    word (F := F) i T = T (ix1 (⟨(i 0).val, (i 0).isLt⟩ : Fin 16)) := by
  unfold word
  rw [View.readAt_eq_ld]
  show T _ = T _
  congr 1
  funext a
  apply Fin.ext
  fin_cases a
  show k0_off1 i 0 + 1 * (Shape.Idx.first (numel1_S1.symm ▸ Nat.one_pos : 0 < S1.numel) (0 : Fin 1)).val = (i 0).val
  have h0 : (Shape.Idx.first (numel1_S1.symm ▸ Nat.one_pos : 0 < S1.numel) (0 : Fin 1)).val = 0 := by
    have := (Shape.Idx.first (numel1_S1.symm ▸ Nat.one_pos : 0 < S1.numel) (0 : Fin 1)).isLt
    have e : S1.size (0 : Fin 1) = 1 := by decide
    omega
  have hoff : k0_off1 i 0 = (i 0).val := by
    unfold k0_off1
    show (BitVec.ofNat 32 (i 0).val).toNat = (i 0).val
    have h16 : (i 0).val < 16 := (i 0).isLt
    rw [BitVec.toNat_ofNat]; omega
  rw [h0, hoff]; omega

/-- The first branch is taken exactly when the tile's first row, 512 times the tile number, is below the count. -/
theorem cond1_iff (i : grid0.Coords) (v : BitVec 32) :
    k0_cond1 i v = 1#1 ↔ (((i 1).val * 512 : Nat) : Int) < v.toInt := by
  unfold k0_cond1
  have hq : (i 1).val < 4 := (i 1).isLt
  have key : ∀ b : BitVec 1, (Scalar.cmpi .ne (Scalar.extui b : BitVec 32) 0#32 = 1#1) ↔ b = 1#1 := by decide
  rw [key]
  have hx : ∀ n : Nat, n < 4 → (Scalar.muli (BitVec.ofNat 32 n) 512#32).toInt = ((n * 512 : Nat) : Int) := by
    intro n hn; interval_cases n <;> decide
  have hq4 : (i 1).val < 4 := (i 1).isLt
  have hs := SortRank.slt_before_iff (β := Unit) (Scalar.muli (BitVec.ofNat 32 (i 1).val) 512#32, ()) (v, ())
  rw [beq_iff_eq] at hs
  show IntOp.cmpi .slt (Scalar.muli (BitVec.ofNat 32 (i 1).val) 512#32) v = 1#1 ↔ _
  rw [hs, hx _ hq4]

end Cert.KernelIdeal.Hand

end
-- ==== Proof.KYe.lean ====
/-
  The kernel's result array, entry by entry, in terms of the dispatch buffer and the experts' weights.

  Row p of group e of the result lies in the output block of the grid point (e, p / 512). There the body stores the MLP
  of the point's row tile against expert e's weight blocks when the tile's first row, 512 (p / 512), is below expert
  e's live row count, and zeros otherwise. The row tile is rows 512 (p / 512) … of group e of the dispatch buffer and
  the weight blocks are expert e's matrices, so the entry is the MLP of row p of the dispatch buffer, or zero.
-/
import proofs.«122239_j24352464569736_2_alg».proof.Proof.KValue
import proofs.«122239_j24352464569736_2_alg».proof.Proof.KWord
import proofs.«122239_j24352464569736_2_alg».proof.Proof.MlpRow
import proofs.«122239_j24352464569736_2_alg».proof.Proof.XeZero
import proofs.«122239_j24352464569736_2_alg».proof.Proof.Dispatch

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

/-- Row 512 q + r, for a tile q of 4 and a row r of 512, is one of the 2048 rows of a group. -/
theorem row_lt (q : Fin 4) (r : Fin 512) : q.val * 512 + r.val < 2048 := by
  have := q.isLt; have := r.isLt; omega

/-- Every row of a group is row r of tile q for exactly the tile p / 512 and the row p % 512. -/
theorem row_split (p : Fin 2048) : ∃ (q : Fin 4) (r : Fin 512), p = (⟨q.val * 512 + r.val, row_lt q r⟩ : Fin 2048) := by
  have hp := p.isLt
  exact ⟨⟨p.val / 512, by omega⟩, ⟨p.val % 512, Nat.mod_lt _ (by decide)⟩,
    Fin.ext (by show p.val = p.val / 512 * 512 + p.val % 512; omega)⟩

/-- The kernel's result array at (e, p, d): the MLP of row p of group e of the dispatch buffer against expert e's
    weights when the 512-row tile of p starts below expert e's live row count, and zero otherwise. -/
theorem ye_at (m : (ℓ : Loc nD τ sig) → Buf (Elt Ideal) ℓ) (c : Dev nD) (hs : FVec Ideal S4096x1024 .f32) (ids : IVec S4096x2 32)
    (g u : FVec Ideal S16x1024x512 .f32) (dn : FVec Ideal S16x512x1024 .f32)
    (h72 : ∀ j, (V (F := Ideal) m c main_v72 : S16x2048x1024.Idx → Elt Ideal .bf16) j = Cert.Proof.Xe.xe hs ids j)
    (h73 : ∀ j, (V (F := Ideal) m c main_v73 : S16x1024x512.Idx → Elt Ideal .bf16) j = g j)
    (h74 : ∀ j, (V (F := Ideal) m c main_v74 : S16x1024x512.Idx → Elt Ideal .bf16) j = u j)
    (h75 : ∀ j, (V (F := Ideal) m c main_v75 : S16x512x1024.Idx → Elt Ideal .bf16) j = dn j)
    (h54 : ∀ j, (tbl (F := Ideal) m 0 : S16.Idx → Elt Ideal .i32) j = Cert.Proof.Dispatch.live ids j)
    (e : Fin 16) (p : Fin 2048) (d : Fin 1024) :
    ((dats (F := Ideal) m 0 c).arrAt 4 (cfgM (F := Ideal) m).N : S16x2048x1024.Idx → Elt Ideal .bf16) (ix3 e p d)
      = if ((p.val / 512 * 512 : Nat) : Int) < (Cert.Proof.Dispatch.live ids (ix1 e)).toInt then
          Cert.Proof.Mlp.mlpRow (fun k => Cert.Proof.Xe.xe hs ids (ix3 e p k)) (fun k f => g (ix3 e k f)) (fun k f => u (ix3 e k f)) (fun f d' => dn (ix3 e f d')) d
        else 0 := by
  obtain ⟨q, r, rfl⟩ := row_split p
  have he := e.isLt
  have hq := q.isLt
  have hr := r.isLt
  have htile : (q.val * 512 + r.val) / 512 * 512 = q.val * 512 := by omega
  have ht : (⟨e.val * 4 + q.val, pt_lt e q⟩ : Fin (cfgM (F := Ideal) m).N).val = e.val * 4 + q.val := rfl
  obtain ⟨c0, c1⟩ := coords_val (⟨e.val * 4 + q.val, pt_lt e q⟩ : Fin grid0.N)
  refine (arr4_apply (F := Ideal) m c e q r d ⟨e.val * 4 + q.val, pt_lt e q⟩ ht).trans ?_
  rw [outAt_eq]
  have hword : wordAt (F := Ideal) m (⟨e.val * 4 + q.val, pt_lt e q⟩ : Fin (cfgM (F := Ideal) m).N)
      = Cert.Proof.Dispatch.live ids (ix1 e) := by
    refine (word_eq (F := Ideal) _ (tbl (F := Ideal) m 0)).trans ?_
    refine (h54 _).trans (congrArg _ (congrArg ix1 (Fin.ext ?_)))
    show ((grid0.coords (⟨e.val * 4 + q.val, pt_lt e q⟩ : Fin grid0.N)) 0).val = e.val
    rw [c0]; show (e.val * 4 + q.val) / 4 = e.val; omega
  have hcond : k0_cond1 (grid0.coords (⟨e.val * 4 + q.val, pt_lt e q⟩ : Fin grid0.N))
        (wordAt (F := Ideal) m (⟨e.val * 4 + q.val, pt_lt e q⟩ : Fin (cfgM (F := Ideal) m).N)) = 1#1
      ↔ ((q.val * 512 : Nat) : Int) < (Cert.Proof.Dispatch.live ids (ix1 e)).toInt := by
    rw [cond1_iff, hword, c1]
    show (((e.val * 4 + q.val) % 4 * 512 : Nat) : Int) < _ ↔ _
    rw [show (e.val * 4 + q.val) % 4 = q.val by omega]
  show _ = if (((q.val * 512 + r.val) / 512 * 512 : Nat) : Int) < _ then _ else _
  rw [htile]
  by_cases hlt : ((q.val * 512 : Nat) : Int) < (Cert.Proof.Dispatch.live ids (ix1 e)).toInt
  · rw [if_pos (hcond.2 hlt)]
    refine Eq.trans ?_ (if_pos hlt).symm
    refine (Cert.Proof.Mlp.pay1_apply _ _ _ _ r d).trans ?_
    have e0 : (fun k : Fin 1024 => (iblk (F := Ideal) m c 0 ⟨e.val * 4 + q.val, pt_lt e q⟩ : Vec Ideal S1x512x1024 .bf16) (ix3 (0 : Fin 1) r k))
        = fun k => Cert.Proof.Xe.xe hs ids (ix3 e (⟨q.val * 512 + r.val, row_lt q r⟩ : Fin 2048) k) :=
      funext fun k => (iblk0_apply (F := Ideal) m c _ e q ht r k).trans (h72 _)
    have e1 : (fun (k : Fin 1024) (f : Fin 512) => (iblk (F := Ideal) m c 1 ⟨e.val * 4 + q.val, pt_lt e q⟩ : Vec Ideal S1x1024x512 .bf16) (ix3 (0 : Fin 1) k f))
        = fun k f => g (ix3 e k f) :=
      funext fun k => funext fun f => (iblk1_apply (F := Ideal) m c _ e q ht k f).trans (h73 _)
    have e2 : (fun (k : Fin 1024) (f : Fin 512) => (iblk (F := Ideal) m c 2 ⟨e.val * 4 + q.val, pt_lt e q⟩ : Vec Ideal S1x1024x512 .bf16) (ix3 (0 : Fin 1) k f))
        = fun k f => u (ix3 e k f) :=
      funext fun k => funext fun f => (iblk2_apply (F := Ideal) m c _ e q ht k f).trans (h74 _)
    have e3 : (fun (f : Fin 512) (d' : Fin 1024) => (iblk (F := Ideal) m c 3 ⟨e.val * 4 + q.val, pt_lt e q⟩ : Vec Ideal S1x512x1024 .bf16) (ix3 (0 : Fin 1) f d'))
        = fun f d' => dn (ix3 e f d') :=
      funext fun f => funext fun d' => (iblk3_apply (F := Ideal) m c _ e q ht f d').trans (h75 _)
    rw [e0, e1, e2, e3]
  · rw [if_neg (fun h => hlt (hcond.1 h))]
    refine Eq.trans ?_ (if_neg hlt).symm
    exact Cert.Proof.Mlp.pay2_apply _

end Cert.KernelIdeal.Hand

end
-- ==== Proof.KYeFinal.lean ====
/-
  The kernel's result array, entry by entry, in terms of the launch arguments.

  The arrays the region is entered with are functions of the arguments: the dispatch buffer and the table of live row
  counts come from the activations and the expert ids, and the three weight stacks are the arguments rounded, which at the
  ideal values is the identity. Put into the entry-by-entry form of the result array this gives: row p of group e is the
  MLP of row p of the dispatch buffer against expert e's weights when the 512-row tile of p starts below expert e's live
  row count, and zero otherwise.
-/
import proofs.«122239_j24352464569736_2_alg».proof.Proof.KYe
import proofs.«122239_j24352464569736_2_alg».proof.Proof.Stages

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx

/-- The dispatch buffer the region is entered with is the dispatch buffer of the arguments. -/
theorem entry_v72 (m : (ℓ : Loc nD τ sig) → Buf (Elt Ideal) ℓ) (c : Dev nD) (j : S16x2048x1024.Idx) :
    (V (F := Ideal) m c main_v72 : S16x2048x1024.Idx → Elt Ideal .bf16) j
      = Cert.Proof.Xe.xe (m ((c.tc : Thread nD τ).loc main_arg0)) (m ((c.tc : Thread nD τ).loc main_arg1)) j :=
  congrFun (Cert.Proof.Stages.pre_v72 (fun b => m (c, b))) j

/-- Each weight stack the region is entered with is the argument (its rounding is the identity at the ideal values). -/
theorem entry_v73 (m : (ℓ : Loc nD τ sig) → Buf (Elt Ideal) ℓ) (c : Dev nD) (j : S16x1024x512.Idx) :
    (V (F := Ideal) m c main_v73 : S16x1024x512.Idx → Elt Ideal .bf16) j = m ((c.tc : Thread nD τ).loc main_arg3) j :=
  congrFun (Cert.Proof.Stages.pre_v73 (fun b => m (c, b))) j
theorem entry_v74 (m : (ℓ : Loc nD τ sig) → Buf (Elt Ideal) ℓ) (c : Dev nD) (j : S16x1024x512.Idx) :
    (V (F := Ideal) m c main_v74 : S16x1024x512.Idx → Elt Ideal .bf16) j = m ((c.tc : Thread nD τ).loc main_arg4) j :=
  congrFun (Cert.Proof.Stages.pre_v74 (fun b => m (c, b))) j
theorem entry_v75 (m : (ℓ : Loc nD τ sig) → Buf (Elt Ideal) ℓ) (c : Dev nD) (j : S16x512x1024.Idx) :
    (V (F := Ideal) m c main_v75 : S16x512x1024.Idx → Elt Ideal .bf16) j = m ((c.tc : Thread nD τ).loc main_arg5) j :=
  congrFun (Cert.Proof.Stages.pre_v75 (fun b => m (c, b))) j

/-- The table the region is entered with is the live row counts of the expert ids (there is one device). -/
theorem entry_v54 (m : (ℓ : Loc nD τ sig) → Buf (Elt Ideal) ℓ) (c : Dev nD) (j : S16.Idx) :
    (tbl (F := Ideal) m 0 : S16.Idx → Elt Ideal .i32) j = Cert.Proof.Dispatch.live (m ((c.tc : Thread nD τ).loc main_arg1)) j := by
  obtain rfl : c = 0 := Subsingleton.elim _ _
  exact congrFun (Cert.Proof.Stages.pre_v54 (fun b => m ((0 : Fin 1), b))) j

/-- The kernel's result array at (e, p, d) in terms of the launch arguments. -/
theorem ye_final (m : (ℓ : Loc nD τ sig) → Buf (Elt Ideal) ℓ) (c : Dev nD) (e : Fin 16) (p : Fin 2048) (d : Fin 1024) :
    ((dats (F := Ideal) m 0 c).arrAt 4 (cfgM (F := Ideal) m).N : S16x2048x1024.Idx → Elt Ideal .bf16) (ix3 e p d)
      = if ((p.val / 512 * 512 : Nat) : Int) < (Cert.Proof.Dispatch.live (m ((c.tc : Thread nD τ).loc main_arg1)) (ix1 e)).toInt then
          Cert.Proof.Mlp.mlpRow (fun k => Cert.Proof.Xe.xe (m ((c.tc : Thread nD τ).loc main_arg0)) (m ((c.tc : Thread nD τ).loc main_arg1)) (ix3 e p k))
            (fun k f => m ((c.tc : Thread nD τ).loc main_arg3) (ix3 e k f)) (fun k f => m ((c.tc : Thread nD τ).loc main_arg4) (ix3 e k f))
            (fun f d' => m ((c.tc : Thread nD τ).loc main_arg5) (ix3 e f d')) d
        else 0 :=
  ye_at m c (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))
    (entry_v72 m c) (entry_v73 m c) (entry_v74 m c) (entry_v75 m c) (entry_v54 m c) e p d

end Cert.KernelIdeal.Hand

end
-- ==== Proof.StagesRef.lean ====
/-
  The reference program read as one pure function of its six argument arrays.

  The reference is one straight line of host operations. Its first window is the dispatch (the same operations as the
  kernel's); the rest is cut in four stretches — the slot of each sorted position, the dispatch buffer, the experts'
  MLP, the combine — each read over whatever contents it starts from, and the stretches are joined end to end.
-/
import proofs.«122239_j24352464569736_2_alg».proof.Proof.Stages

noncomputable section

namespace Cert.Proof.Stages

/-! ## The reference, from its six arguments to its result -/

section reference

open Idealize.ShloMosaic Idealize.ShloMosaic.TcCoe Idealize.ShloMosaic.StableHlo Cert.Proof.Dispatch

variable [hK : Cert.KernelIdeal.Facts] [hR : Cert.ReferenceIdeal.Facts]

/-- The reference's whole line: the dispatch of (ids, w), the dispatch buffer of the activations, the experts' MLP on
    it, and the combine. -/
def refOut (hs : FVec Ideal Cert.ReferenceIdeal.S4096x1024 .f32) (ids : IVec Cert.ReferenceIdeal.S4096x2 32)
    (w : FVec Ideal Cert.ReferenceIdeal.S4096x2 .f32) (g u : FVec Ideal Cert.ReferenceIdeal.S16x1024x512 .f32)
    (dn : FVec Ideal Cert.ReferenceIdeal.S16x512x1024 .f32) : FVec Ideal Cert.ReferenceIdeal.S4096x1024 .f32 :=
  refTail (Cert.Proof.Mlp.refYe (Cert.Proof.Xe.xeRef hs ids) g u dn) (slot ids) (valid ids) (sw ids w) (st ids)

/-- The start of each sorted position's group (the gather of %45). -/
def startAt (ids : IVec Cert.KernelIdeal.S4096x2 32) : IVec Cert.KernelIdeal.S8192 32 :=
  Host.gather Cert.KernelIdeal.gather_S16_S8192x1_S8192_n_0_n_n_0_1_1 (starts ids) (asIndex 16#32 (se ids))

/-- The reference's second and third windows as one function of the nine buffers they read: the number inside the
    group, kept or not, the slot; the dispatch buffer; the experts' MLP; the combine. -/
def refRest (i38 g45 sev stv : IVec Cert.KernelIdeal.S8192 32) (swv : FVec Ideal Cert.KernelIdeal.S8192 .f32)
    (hs : FVec Ideal Cert.ReferenceIdeal.S4096x1024 .f32) (g u : FVec Ideal Cert.ReferenceIdeal.S16x1024x512 .f32)
    (dn : FVec Ideal Cert.ReferenceIdeal.S16x512x1024 .f32) : FVec Ideal Cert.ReferenceIdeal.S4096x1024 .f32 :=
  refTail
    (Cert.Proof.Mlp.refYe
      (Cert.Proof.Xe.xeRefOf hs stv
        (select (cmpi .slt (subi i38 g45) (splat 2048#32)) (addi (muli sev (splat 2048#32)) (subi i38 g45)) (splat 32768#32)))
      g u dn)
    (select (cmpi .slt (subi i38 g45) (splat 2048#32)) (addi (muli sev (splat 2048#32)) (subi i38 g45)) (splat 32768#32))
    (cmpi .slt (subi i38 g45) (splat 2048#32)) swv stv

/-! ### The reference's second and third windows, cut in four stretches -/

/-- The number inside the group, kept or not, the slot (12 operations). -/
abbrev cA : List (HloOp Cert.ReferenceIdeal.τ Cert.ReferenceIdeal.sig (Elt Ideal)) := (Cert.ReferenceIdeal.RefRun.ops1 (F := Ideal)).take 12
/-- The dispatch buffer (22 operations). -/
abbrev cB : List (HloOp Cert.ReferenceIdeal.τ Cert.ReferenceIdeal.sig (Elt Ideal)) := ((Cert.ReferenceIdeal.RefRun.ops1 (F := Ideal)).drop 12).take 22
/-- The experts' MLP (13 operations). -/
abbrev cC : List (HloOp Cert.ReferenceIdeal.τ Cert.ReferenceIdeal.sig (Elt Ideal)) := ((Cert.ReferenceIdeal.RefRun.ops1 (F := Ideal)).drop 34).take 13
/-- The combine (29 operations). -/
abbrev cD : List (HloOp Cert.ReferenceIdeal.τ Cert.ReferenceIdeal.sig (Elt Ideal)) := (Cert.ReferenceIdeal.RefRun.ops1 (F := Ideal)).drop 47 ++ Cert.ReferenceIdeal.RefRun.ops2

theorem ops12_split : Cert.ReferenceIdeal.RefRun.ops1 (F := Ideal) ++ Cert.ReferenceIdeal.RefRun.ops2 = cA ++ (cB ++ (cC ++ cD)) := by
  simp only [cA, cB, cC, cD, Cert.ReferenceIdeal.RefRun.ops1, Cert.ReferenceIdeal.RefRun.ops2, List.take_succ_cons, List.take_zero, List.drop_succ_cons, List.drop_zero, List.cons_append, List.nil_append]

attribute [local irreducible] Host.sort2 Host.gather Host.scatter Host.reduceWindow Host.scatterAdd in
set_option maxRecDepth 16384 in
set_option maxHeartbeats 1600000 in
/-- %48 from the positions and the groups' starts. -/
theorem cA_v48 (V : Valuation Cert.ReferenceIdeal.τ Cert.ReferenceIdeal.sig (Elt Ideal)) :
    after cA V (Cert.ReferenceIdeal.main_v48 : DevRef Cert.ReferenceIdeal.τ Cert.ReferenceIdeal.sig) = (cmpi .slt (subi (V (Cert.ReferenceIdeal.main_v38 : DevRef Cert.ReferenceIdeal.τ Cert.ReferenceIdeal.sig)) (V (Cert.ReferenceIdeal.main_v45 : DevRef Cert.ReferenceIdeal.τ Cert.ReferenceIdeal.sig))) (splat 2048#32)) := by
  simp only [cA, Cert.ReferenceIdeal.RefRun.ops1, Cert.ReferenceIdeal.RefRun.ops2, List.take_succ_cons, List.take_zero, List.drop_succ_cons, List.drop_zero, List.cons_append, List.nil_append]
  after_results_simp
  rfl

attribute [local irreducible] Host.sort2 Host.gather Host.scatter Host.reduceWindow Host.scatterAdd in
set_option maxRecDepth 16384 in
set_option maxHeartbeats 1600000 in
/-- %52 from the positions, the groups' starts and the sorted ids. -/
theorem cA_v52 (V : Valuation Cert.ReferenceIdeal.τ Cert.ReferenceIdeal.sig (Elt Ideal)) :
    after cA V (Cert.ReferenceIdeal.main_v52 : DevRef Cert.ReferenceIdeal.τ Cert.ReferenceIdeal.sig) = (select (cmpi .slt (subi (V (Cert.ReferenceIdeal.main_v38 : DevRef Cert.ReferenceIdeal.τ Cert.ReferenceIdeal.sig)) (V (Cert.ReferenceIdeal.main_v45 : DevRef Cert.ReferenceIdeal.τ Cert.ReferenceIdeal.sig))) (splat 2048#32)) (addi (muli (V (Cert.ReferenceIdeal.main_v11 : DevRef Cert.ReferenceIdeal.τ Cert.ReferenceIdeal.sig)) (splat 2048#32)) (subi (V (Cert.ReferenceIdeal.main_v38 : DevRef Cert.ReferenceIdeal.τ Cert.ReferenceIdeal.sig)) (V (Cert.ReferenceIdeal.main_v45 : DevRef Cert.ReferenceIdeal.τ Cert.ReferenceIdeal.sig)))) (splat 32768#32)) := by
  simp only [cA, Cert.ReferenceIdeal.RefRun.ops1, Cert.ReferenceIdeal.RefRun.ops2, List.take_succ_cons, List.take_zero, List.drop_succ_cons, List.drop_zero, List.cons_append, List.nil_append]
  after_results_simp
  rfl

attribute [local irreducible] Host.sort2 Host.gather Host.scatter Host.reduceWindow Host.scatterAdd in
set_option maxRecDepth 16384 in
set_option maxHeartbeats 1600000 in
theorem cA_keeps_arg0 (V : Valuation Cert.ReferenceIdeal.τ Cert.ReferenceIdeal.sig (Elt Ideal)) :
    after cA V (Cert.ReferenceIdeal.main_arg0 : DevRef Cert.ReferenceIdeal.τ Cert.ReferenceIdeal.sig) = V (Cert.ReferenceIdeal.main_arg0 : DevRef Cert.ReferenceIdeal.τ Cert.ReferenceIdeal.sig) := by
  simp only [cA, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cA_keeps_arg3 (V : Valuation Cert.ReferenceIdeal.τ Cert.ReferenceIdeal.sig (Elt Ideal)) :
    after cA V (Cert.ReferenceIdeal.main_arg3 : DevRef Cert.ReferenceIdeal.τ Cert.ReferenceIdeal.sig) = V (Cert.ReferenceIdeal.main_arg3 : DevRef Cert.ReferenceIdeal.τ Cert.ReferenceIdeal.sig) := by
  simp only [cA, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cA_keeps_arg4 (V : Valuation Cert.ReferenceIdeal.τ Cert.ReferenceIdeal.sig (Elt Ideal)) :
    after cA V (Cert.ReferenceIdeal.main_arg4 : DevRef Cert.ReferenceIdeal.τ Cert.ReferenceIdeal.sig) = V (Cert.ReferenceIdeal.main_arg4 : DevRef Cert.ReferenceIdeal.τ Cert.ReferenceIdeal.sig) := by
  simp only [cA, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cA_keeps_arg5 (V : Valuation Cert.ReferenceIdeal.τ Cert.ReferenceIdeal.sig (Elt Ideal)) :
    after cA V (Cert.ReferenceIdeal.main_arg5 : DevRef Cert.ReferenceIdeal.τ Cert.ReferenceIdeal.sig) = V (Cert.ReferenceIdeal.main_arg5 : DevRef Cert.ReferenceIdeal.τ Cert.ReferenceIdeal.sig) := by
  simp only [cA, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cA_keeps_v18 (V : Valuation Cert.ReferenceIdeal.τ Cert.ReferenceIdeal.sig (Elt Ideal)) :
    after cA V (Cert.ReferenceIdeal.main_v18 : DevRef Cert.ReferenceIdeal.τ Cert.ReferenceIdeal.sig) = V (Cert.ReferenceIdeal.main_v18 : DevRef Cert.ReferenceIdeal.τ Cert.ReferenceIdeal.sig) := by
  simp only [cA, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cA_keeps_v25 (V : Valuation Cert.ReferenceIdeal.τ Cert.ReferenceIdeal.sig (Elt Ideal)) :
    after cA V (Cert.ReferenceIdeal.main_v25 : DevRef Cert.ReferenceIdeal.τ Cert.ReferenceIdeal.sig) = V (Cert.ReferenceIdeal.main_v25 : DevRef Cert.ReferenceIdeal.τ Cert.ReferenceIdeal.sig) := by
  simp only [cA, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
/-- %69 from the activations, the sorted tokens and the slots. -/
theorem cB_v69 (V : Valuation Cert.ReferenceIdeal.τ Cert.ReferenceIdeal.sig (Elt Ideal)) :
    after cB V (Cert.ReferenceIdeal.main_v69 : DevRef Cert.ReferenceIdeal.τ Cert.ReferenceIdeal.sig) = Cert.Proof.Xe.xeRefOf (V (Cert.ReferenceIdeal.main_arg0 : DevRef Cert.ReferenceIdeal.τ Cert.ReferenceIdeal.sig)) (V (Cert.ReferenceIdeal.main_v18 : DevRef Cert.ReferenceIdeal.τ Cert.ReferenceIdeal.sig)) (V (Cert.ReferenceIdeal.main_v52 : DevRef Cert.ReferenceIdeal.τ Cert.ReferenceIdeal.sig)) := by
  simp only [cB, Cert.ReferenceIdeal.RefRun.ops1, Cert.ReferenceIdeal.RefRun.ops2, List.take_succ_cons, List.take_zero, List.drop_succ_cons, List.drop_zero, List.cons_append, List.nil_append]
  after_results_simp
  rfl

attribute [local irreducible] Host.sort2 Host.gather Host.scatter Host.reduceWindow Host.scatterAdd in
set_option maxRecDepth 16384 in
set_option maxHeartbeats 1600000 in
theorem cB_keeps_arg3 (V : Valuation Cert.ReferenceIdeal.τ Cert.ReferenceIdeal.sig (Elt Ideal)) :
    after cB V (Cert.ReferenceIdeal.main_arg3 : DevRef Cert.ReferenceIdeal.τ Cert.ReferenceIdeal.sig) = V (Cert.ReferenceIdeal.main_arg3 : DevRef Cert.ReferenceIdeal.τ Cert.ReferenceIdeal.sig) := by
  simp only [cB, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cB_keeps_arg4 (V : Valuation Cert.ReferenceIdeal.τ Cert.ReferenceIdeal.sig (Elt Ideal)) :
    after cB V (Cert.ReferenceIdeal.main_arg4 : DevRef Cert.ReferenceIdeal.τ Cert.ReferenceIdeal.sig) = V (Cert.ReferenceIdeal.main_arg4 : DevRef Cert.ReferenceIdeal.τ Cert.ReferenceIdeal.sig) := by
  simp only [cB, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cB_keeps_arg5 (V : Valuation Cert.ReferenceIdeal.τ Cert.ReferenceIdeal.sig (Elt Ideal)) :
    after cB V (Cert.ReferenceIdeal.main_arg5 : DevRef Cert.ReferenceIdeal.τ Cert.ReferenceIdeal.sig) = V (Cert.ReferenceIdeal.main_arg5 : DevRef Cert.ReferenceIdeal.τ Cert.ReferenceIdeal.sig) := by
  simp only [cB, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cB_keeps_v18 (V : Valuation Cert.ReferenceIdeal.τ Cert.ReferenceIdeal.sig (Elt Ideal)) :
    after cB V (Cert.ReferenceIdeal.main_v18 : DevRef Cert.ReferenceIdeal.τ Cert.ReferenceIdeal.sig) = V (Cert.ReferenceIdeal.main_v18 : DevRef Cert.ReferenceIdeal.τ Cert.ReferenceIdeal.sig) := by
  simp only [cB, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cB_keeps_v25 (V : Valuation Cert.ReferenceIdeal.τ Cert.ReferenceIdeal.sig (Elt Ideal)) :
    after cB V (Cert.ReferenceIdeal.main_v25 : DevRef Cert.ReferenceIdeal.τ Cert.ReferenceIdeal.sig) = V (Cert.ReferenceIdeal.main_v25 : DevRef Cert.ReferenceIdeal.τ Cert.ReferenceIdeal.sig) := by
  simp only [cB, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cB_keeps_v48 (V : Valuation Cert.ReferenceIdeal.τ Cert.ReferenceIdeal.sig (Elt Ideal)) :
    after cB V (Cert.ReferenceIdeal.main_v48 : DevRef Cert.ReferenceIdeal.τ Cert.ReferenceIdeal.sig) = V (Cert.ReferenceIdeal.main_v48 : DevRef Cert.ReferenceIdeal.τ Cert.ReferenceIdeal.sig) := by
  simp only [cB, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cB_keeps_v52 (V : Valuation Cert.ReferenceIdeal.τ Cert.ReferenceIdeal.sig (Elt Ideal)) :
    after cB V (Cert.ReferenceIdeal.main_v52 : DevRef Cert.ReferenceIdeal.τ Cert.ReferenceIdeal.sig) = V (Cert.ReferenceIdeal.main_v52 : DevRef Cert.ReferenceIdeal.τ Cert.ReferenceIdeal.sig) := by
  simp only [cB, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
/-- %74 from the dispatch buffer and the three weight arrays. -/
theorem cC_v74 (V : Valuation Cert.ReferenceIdeal.τ Cert.ReferenceIdeal.sig (Elt Ideal)) :
    after cC V (Cert.ReferenceIdeal.main_v74 : DevRef Cert.ReferenceIdeal.τ Cert.ReferenceIdeal.sig) = Cert.Proof.Mlp.refYe (V (Cert.ReferenceIdeal.main_v69 : DevRef Cert.ReferenceIdeal.τ Cert.ReferenceIdeal.sig)) (V (Cert.ReferenceIdeal.main_arg3 : DevRef Cert.ReferenceIdeal.τ Cert.ReferenceIdeal.sig)) (V (Cert.ReferenceIdeal.main_arg4 : DevRef Cert.ReferenceIdeal.τ Cert.ReferenceIdeal.sig)) (V (Cert.ReferenceIdeal.main_arg5 : DevRef Cert.ReferenceIdeal.τ Cert.ReferenceIdeal.sig)) := by
  simp only [cC, Cert.ReferenceIdeal.RefRun.ops1, Cert.ReferenceIdeal.RefRun.ops2, List.take_succ_cons, List.take_zero, List.drop_succ_cons, List.drop_zero, List.cons_append, List.nil_append]
  after_results_simp
  rfl

attribute [local irreducible] Host.sort2 Host.gather Host.scatter Host.reduceWindow Host.scatterAdd in
set_option maxRecDepth 16384 in
set_option maxHeartbeats 1600000 in
theorem cC_keeps_v18 (V : Valuation Cert.ReferenceIdeal.τ Cert.ReferenceIdeal.sig (Elt Ideal)) :
    after cC V (Cert.ReferenceIdeal.main_v18 : DevRef Cert.ReferenceIdeal.τ Cert.ReferenceIdeal.sig) = V (Cert.ReferenceIdeal.main_v18 : DevRef Cert.ReferenceIdeal.τ Cert.ReferenceIdeal.sig) := by
  simp only [cC, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cC_keeps_v25 (V : Valuation Cert.ReferenceIdeal.τ Cert.ReferenceIdeal.sig (Elt Ideal)) :
    after cC V (Cert.ReferenceIdeal.main_v25 : DevRef Cert.ReferenceIdeal.τ Cert.ReferenceIdeal.sig) = V (Cert.ReferenceIdeal.main_v25 : DevRef Cert.ReferenceIdeal.τ Cert.ReferenceIdeal.sig) := by
  simp only [cC, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cC_keeps_v48 (V : Valuation Cert.ReferenceIdeal.τ Cert.ReferenceIdeal.sig (Elt Ideal)) :
    after cC V (Cert.ReferenceIdeal.main_v48 : DevRef Cert.ReferenceIdeal.τ Cert.ReferenceIdeal.sig) = V (Cert.ReferenceIdeal.main_v48 : DevRef Cert.ReferenceIdeal.τ Cert.ReferenceIdeal.sig) := by
  simp only [cC, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
theorem cC_keeps_v52 (V : Valuation Cert.ReferenceIdeal.τ Cert.ReferenceIdeal.sig (Elt Ideal)) :
    after cC V (Cert.ReferenceIdeal.main_v52 : DevRef Cert.ReferenceIdeal.τ Cert.ReferenceIdeal.sig) = V (Cert.ReferenceIdeal.main_v52 : DevRef Cert.ReferenceIdeal.τ Cert.ReferenceIdeal.sig) := by
  simp only [cC, Cert.ReferenceIdeal.RefRun.ops1, Cert.ReferenceIdeal.RefRun.ops2, List.take_succ_cons, List.take_zero, List.drop_succ_cons, List.drop_zero, List.cons_append, List.nil_append]
  after_results_simp

attribute [local irreducible] Host.sort2 Host.gather Host.scatter Host.reduceWindow Host.scatterAdd in
set_option maxRecDepth 16384 in
set_option maxHeartbeats 1600000 in
/-- %97 from the experts' outputs and four dispatch buffers. -/
theorem cD_v97 (V : Valuation Cert.ReferenceIdeal.τ Cert.ReferenceIdeal.sig (Elt Ideal)) :
    after cD V (Cert.ReferenceIdeal.main_v97 : DevRef Cert.ReferenceIdeal.τ Cert.ReferenceIdeal.sig) = refTail (V (Cert.ReferenceIdeal.main_v74 : DevRef Cert.ReferenceIdeal.τ Cert.ReferenceIdeal.sig)) (V (Cert.ReferenceIdeal.main_v52 : DevRef Cert.ReferenceIdeal.τ Cert.ReferenceIdeal.sig)) (V (Cert.ReferenceIdeal.main_v48 : DevRef Cert.ReferenceIdeal.τ Cert.ReferenceIdeal.sig)) (V (Cert.ReferenceIdeal.main_v25 : DevRef Cert.ReferenceIdeal.τ Cert.ReferenceIdeal.sig)) (V (Cert.ReferenceIdeal.main_v18 : DevRef Cert.ReferenceIdeal.τ Cert.ReferenceIdeal.sig)) := by
  simp only [cD, Cert.ReferenceIdeal.RefRun.ops1, Cert.ReferenceIdeal.RefRun.ops2, List.take_succ_cons, List.take_zero, List.drop_succ_cons, List.drop_zero, List.cons_append, List.nil_append]
  after_results_simp
  rfl

/-- The second and third windows, from the buffers the first window leaves: the four stretches one after the other. -/
theorem ref12 (V : Valuation Cert.ReferenceIdeal.τ Cert.ReferenceIdeal.sig (Elt Ideal)) :
    after (Cert.ReferenceIdeal.RefRun.ops1 (F := Ideal) ++ Cert.ReferenceIdeal.RefRun.ops2) V (Cert.ReferenceIdeal.main_v97 : DevRef Cert.ReferenceIdeal.τ Cert.ReferenceIdeal.sig)
      = refRest (V (Cert.ReferenceIdeal.main_v38 : DevRef Cert.ReferenceIdeal.τ Cert.ReferenceIdeal.sig)) (V (Cert.ReferenceIdeal.main_v45 : DevRef Cert.ReferenceIdeal.τ Cert.ReferenceIdeal.sig)) (V (Cert.ReferenceIdeal.main_v11 : DevRef Cert.ReferenceIdeal.τ Cert.ReferenceIdeal.sig)) (V (Cert.ReferenceIdeal.main_v18 : DevRef Cert.ReferenceIdeal.τ Cert.ReferenceIdeal.sig)) (V (Cert.ReferenceIdeal.main_v25 : DevRef Cert.ReferenceIdeal.τ Cert.ReferenceIdeal.sig))
          (V (Cert.ReferenceIdeal.main_arg0 : DevRef Cert.ReferenceIdeal.τ Cert.ReferenceIdeal.sig)) (V (Cert.ReferenceIdeal.main_arg3 : DevRef Cert.ReferenceIdeal.τ Cert.ReferenceIdeal.sig)) (V (Cert.ReferenceIdeal.main_arg4 : DevRef Cert.ReferenceIdeal.τ Cert.ReferenceIdeal.sig)) (V (Cert.ReferenceIdeal.main_arg5 : DevRef Cert.ReferenceIdeal.τ Cert.ReferenceIdeal.sig)) := by
  rw [ops12_split, StableHlo.after_append, StableHlo.after_append, StableHlo.after_append, cD_v97, cC_v74,
    cC_keeps_v52, cC_keeps_v48, cC_keeps_v25, cC_keeps_v18, cB_v69,
    cB_keeps_arg3, cB_keeps_arg4, cB_keeps_arg5, cB_keeps_v18, cB_keeps_v25, cB_keeps_v48, cB_keeps_v52,
    cA_v52, cA_v48, cA_keeps_arg0, cA_keeps_arg3, cA_keeps_arg4, cA_keeps_arg5, cA_keeps_v18, cA_keeps_v25]
  rfl

/-! ### The first window, and the whole line -/

attribute [local irreducible] Host.sort2 Host.gather Host.scatter Host.reduceWindow Host.scatterAdd in
set_option maxRecDepth 16384 in
set_option maxHeartbeats 1600000 in
theorem ref0_v11 (V : Valuation Cert.ReferenceIdeal.τ Cert.ReferenceIdeal.sig (Elt Ideal)) :
    after (Cert.ReferenceIdeal.RefRun.ops0 (F := Ideal)) V (Cert.ReferenceIdeal.main_v11 : DevRef Cert.ReferenceIdeal.τ Cert.ReferenceIdeal.sig) = se (V (Cert.ReferenceIdeal.main_arg1 : DevRef Cert.ReferenceIdeal.τ Cert.ReferenceIdeal.sig)) := by
  simp only [Cert.ReferenceIdeal.RefRun.ops0]
  after_results_simp
  rfl

attribute [local irreducible] Host.sort2 Host.gather Host.scatter Host.reduceWindow Host.scatterAdd in
set_option maxRecDepth 16384 in
set_option maxHeartbeats 1600000 in
theorem ref0_v18 (V : Valuation Cert.ReferenceIdeal.τ Cert.ReferenceIdeal.sig (Elt Ideal)) :
    after (Cert.ReferenceIdeal.RefRun.ops0 (F := Ideal)) V (Cert.ReferenceIdeal.main_v18 : DevRef Cert.ReferenceIdeal.τ Cert.ReferenceIdeal.sig) = st (V (Cert.ReferenceIdeal.main_arg1 : DevRef Cert.ReferenceIdeal.τ Cert.ReferenceIdeal.sig)) := by
  simp only [Cert.ReferenceIdeal.RefRun.ops0]
  after_results_simp
  rfl

attribute [local irreducible] Host.sort2 Host.gather Host.scatter Host.reduceWindow Host.scatterAdd in
set_option maxRecDepth 16384 in
set_option maxHeartbeats 1600000 in
theorem ref0_v25 (V : Valuation Cert.ReferenceIdeal.τ Cert.ReferenceIdeal.sig (Elt Ideal)) :
    after (Cert.ReferenceIdeal.RefRun.ops0 (F := Ideal)) V (Cert.ReferenceIdeal.main_v25 : DevRef Cert.ReferenceIdeal.τ Cert.ReferenceIdeal.sig) = sw (V (Cert.ReferenceIdeal.main_arg1 : DevRef Cert.ReferenceIdeal.τ Cert.ReferenceIdeal.sig)) (V (Cert.ReferenceIdeal.main_arg2 : DevRef Cert.ReferenceIdeal.τ Cert.ReferenceIdeal.sig)) := by
  simp only [Cert.ReferenceIdeal.RefRun.ops0]
  after_results_simp
  rfl

attribute [local irreducible] Host.sort2 Host.gather Host.scatter Host.reduceWindow Host.scatterAdd in
set_option maxRecDepth 16384 in
set_option maxHeartbeats 1600000 in
theorem ref0_v38 (V : Valuation Cert.ReferenceIdeal.τ Cert.ReferenceIdeal.sig (Elt Ideal)) :
    after (Cert.ReferenceIdeal.RefRun.ops0 (F := Ideal)) V (Cert.ReferenceIdeal.main_v38 : DevRef Cert.ReferenceIdeal.τ Cert.ReferenceIdeal.sig) = iotaInDim Cert.KernelIdeal.S8192 32 0 := by
  simp only [Cert.ReferenceIdeal.RefRun.ops0]
  after_results_simp

attribute [local irreducible] Host.sort2 Host.gather Host.scatter Host.reduceWindow Host.scatterAdd in
set_option maxRecDepth 16384 in
set_option maxHeartbeats 1600000 in
theorem ref0_v45 (V : Valuation Cert.ReferenceIdeal.τ Cert.ReferenceIdeal.sig (Elt Ideal)) :
    after (Cert.ReferenceIdeal.RefRun.ops0 (F := Ideal)) V (Cert.ReferenceIdeal.main_v45 : DevRef Cert.ReferenceIdeal.τ Cert.ReferenceIdeal.sig) = startAt (V (Cert.ReferenceIdeal.main_arg1 : DevRef Cert.ReferenceIdeal.τ Cert.ReferenceIdeal.sig)) := by
  simp only [Cert.ReferenceIdeal.RefRun.ops0]
  after_results_simp
  rfl

attribute [local irreducible] Host.sort2 Host.gather Host.scatter Host.reduceWindow Host.scatterAdd in
set_option maxRecDepth 16384 in
set_option maxHeartbeats 1600000 in
theorem ref0_arg0 (V : Valuation Cert.ReferenceIdeal.τ Cert.ReferenceIdeal.sig (Elt Ideal)) :
    after (Cert.ReferenceIdeal.RefRun.ops0 (F := Ideal)) V (Cert.ReferenceIdeal.main_arg0 : DevRef Cert.ReferenceIdeal.τ Cert.ReferenceIdeal.sig) = V (Cert.ReferenceIdeal.main_arg0 : DevRef Cert.ReferenceIdeal.τ Cert.ReferenceIdeal.sig) := by
  simp only [Cert.ReferenceIdeal.RefRun.ops0]
  after_results_simp

attribute [local irreducible] Host.sort2 Host.gather Host.scatter Host.reduceWindow Host.scatterAdd in
set_option maxRecDepth 16384 in
set_option maxHeartbeats 1600000 in
theorem ref0_arg3 (V : Valuation Cert.ReferenceIdeal.τ Cert.ReferenceIdeal.sig (Elt Ideal)) :
    after (Cert.ReferenceIdeal.RefRun.ops0 (F := Ideal)) V (Cert.ReferenceIdeal.main_arg3 : DevRef Cert.ReferenceIdeal.τ Cert.ReferenceIdeal.sig) = V (Cert.ReferenceIdeal.main_arg3 : DevRef Cert.ReferenceIdeal.τ Cert.ReferenceIdeal.sig) := by
  simp only [Cert.ReferenceIdeal.RefRun.ops0]
  after_results_simp

attribute [local irreducible] Host.sort2 Host.gather Host.scatter Host.reduceWindow Host.scatterAdd in
set_option maxRecDepth 16384 in
set_option maxHeartbeats 1600000 in
theorem ref0_arg4 (V : Valuation Cert.ReferenceIdeal.τ Cert.ReferenceIdeal.sig (Elt Ideal)) :
    after (Cert.ReferenceIdeal.RefRun.ops0 (F := Ideal)) V (Cert.ReferenceIdeal.main_arg4 : DevRef Cert.ReferenceIdeal.τ Cert.ReferenceIdeal.sig) = V (Cert.ReferenceIdeal.main_arg4 : DevRef Cert.ReferenceIdeal.τ Cert.ReferenceIdeal.sig) := by
  simp only [Cert.ReferenceIdeal.RefRun.ops0]
  after_results_simp

attribute [local irreducible] Host.sort2 Host.gather Host.scatter Host.reduceWindow Host.scatterAdd in
set_option maxRecDepth 16384 in
set_option maxHeartbeats 1600000 in
theorem ref0_arg5 (V : Valuation Cert.ReferenceIdeal.τ Cert.ReferenceIdeal.sig (Elt Ideal)) :
    after (Cert.ReferenceIdeal.RefRun.ops0 (F := Ideal)) V (Cert.ReferenceIdeal.main_arg5 : DevRef Cert.ReferenceIdeal.τ Cert.ReferenceIdeal.sig) = V (Cert.ReferenceIdeal.main_arg5 : DevRef Cert.ReferenceIdeal.τ Cert.ReferenceIdeal.sig) := by
  simp only [Cert.ReferenceIdeal.RefRun.ops0]
  after_results_simp

attribute [local irreducible] Host.sort2 Host.gather Host.scatter Host.reduceWindow Host.scatterAdd in
/-- The reference's result buffer is that function of its six argument buffers. -/
theorem ref_eq (W : Valuation Cert.ReferenceIdeal.τ Cert.ReferenceIdeal.sig (Elt Ideal)) :
    after (Cert.ReferenceIdeal.RefRun.ops (F := Ideal)) W (Cert.ReferenceIdeal.main_v97 : DevRef Cert.ReferenceIdeal.τ Cert.ReferenceIdeal.sig)
      = refOut (W (Cert.ReferenceIdeal.main_arg0 : DevRef Cert.ReferenceIdeal.τ Cert.ReferenceIdeal.sig)) (W (Cert.ReferenceIdeal.main_arg1 : DevRef Cert.ReferenceIdeal.τ Cert.ReferenceIdeal.sig)) (W (Cert.ReferenceIdeal.main_arg2 : DevRef Cert.ReferenceIdeal.τ Cert.ReferenceIdeal.sig)) (W (Cert.ReferenceIdeal.main_arg3 : DevRef Cert.ReferenceIdeal.τ Cert.ReferenceIdeal.sig)) (W (Cert.ReferenceIdeal.main_arg4 : DevRef Cert.ReferenceIdeal.τ Cert.ReferenceIdeal.sig)) (W (Cert.ReferenceIdeal.main_arg5 : DevRef Cert.ReferenceIdeal.τ Cert.ReferenceIdeal.sig)) := by
  show after (Cert.ReferenceIdeal.RefRun.ops0 (F := Ideal) ++ (Cert.ReferenceIdeal.RefRun.ops1 ++ Cert.ReferenceIdeal.RefRun.ops2)) W _ = _
  rw [StableHlo.after_append, ref12, ref0_v38, ref0_v45, ref0_v11, ref0_v18, ref0_v25, ref0_arg0, ref0_arg3, ref0_arg4, ref0_arg5]
  rfl

end reference

end Cert.Proof.Stages

end
-- ==== Proof.Algebraic.lean ====
/-
  The value claim: the idealized kernel program and the idealized reference, run from memories agreeing on the six
  inputs, both terminate, leave their inputs unchanged, and end with equal results.

  The kernel program's result is named by its own run; the reference's run ends at its 158 host operations folded over
  the launch contents, which is the pure function of the inputs that Bridge.lean identifies with the kernel's result.
-/
import proofs.«122239_j24352464569736_2_alg».proof.Proof.Bridge
import proofs.«122239_j24352464569736_2_alg».proof.Proof.KYeFinal
import proofs.«122239_j24352464569736_2_alg».proof.Proof.StagesRef

set_option maxRecDepth 16384

noncomputable section

namespace Cert.Proof.Alg

open Idealize.ShloMosaic Idealize.ShloMosaic.TcCoe Idealize.SL.Sem Idealize.ShloMosaic.ValueIdx
open Cert.KernelIdeal.Hand
open Idealize.ShloMosaic.StableHlo (launchContents)

variable [hK : Cert.KernelIdeal.Facts] [hR : Cert.ReferenceIdeal.Facts] [hP : Cert.Pre_finite_inputs.Facts]

/-- The reference's result buffer at the end of its run is what the kernel program leaves. -/
theorem bridge (m : K_m) (m' : R_m) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (c : Dev Cert.ReferenceIdeal.nD) :
    StableHlo.after (Cert.ReferenceIdeal.RefRun.ops (F := Ideal)) (launchContents m' c) (Cert.ReferenceIdeal.main_v97 : DevRef Cert.ReferenceIdeal.τ Cert.ReferenceIdeal.sig)
      = outK m c := by
  rw [Cert.Proof.Stages.ref_eq]
  obtain ⟨a0, a1, a2, a3, a4, a5⟩ := hagree c
  have e0 : launchContents m' c (Cert.ReferenceIdeal.main_arg0 : DevRef Cert.ReferenceIdeal.τ Cert.ReferenceIdeal.sig) = W0 m c Cert.KernelIdeal.main_arg0 := a0
  have e1 : launchContents m' c (Cert.ReferenceIdeal.main_arg1 : DevRef Cert.ReferenceIdeal.τ Cert.ReferenceIdeal.sig) = W0 m c Cert.KernelIdeal.main_arg1 := a1
  have e2 : launchContents m' c (Cert.ReferenceIdeal.main_arg2 : DevRef Cert.ReferenceIdeal.τ Cert.ReferenceIdeal.sig) = W0 m c Cert.KernelIdeal.main_arg2 := a2
  have e3 : launchContents m' c (Cert.ReferenceIdeal.main_arg3 : DevRef Cert.ReferenceIdeal.τ Cert.ReferenceIdeal.sig) = W0 m c Cert.KernelIdeal.main_arg3 := a3
  have e4 : launchContents m' c (Cert.ReferenceIdeal.main_arg4 : DevRef Cert.ReferenceIdeal.τ Cert.ReferenceIdeal.sig) = W0 m c Cert.KernelIdeal.main_arg4 := a4
  have e5 : launchContents m' c (Cert.ReferenceIdeal.main_arg5 : DevRef Cert.ReferenceIdeal.τ Cert.ReferenceIdeal.sig) = W0 m c Cert.KernelIdeal.main_arg5 := a5
  rw [e0, e1, e2, e3, e4, e5]
  exact bridge_core m c (hpre c) (fun e p d => ye_final m c e p d)

theorem algebraic : Cert.algebraic_KernelIdeal_ReferenceIdeal := by
  intro m ρ m' ρ' hpre hagree
  refine ⟨fun c => outK m c, ?_, ?_⟩
  · refine (θ_run Cert.KernelIdeal.defs _ _).mono (fun r h c => ?_) (run_main (F := Ideal) m ρ)
    exact ⟨(h c).2 Cert.KernelIdeal.main_v100 (Pipeline.mem_restRefs_of Cert.KernelIdeal.main_v100 (by decide)
        (show ∀ w : Fin 5, (Cert.KernelIdeal.spec0 w).arr.view.ref ≠ Cert.KernelIdeal.main_v100 from by decide)),
      ((h c).2 Cert.KernelIdeal.main_arg0 (Pipeline.mem_restRefs_of Cert.KernelIdeal.main_arg0 (by decide) (show ∀ w : Fin 5, (Cert.KernelIdeal.spec0 w).arr.view.ref ≠ Cert.KernelIdeal.main_arg0 from by decide))).trans (afterTail_arg0 m c),
      ((h c).2 Cert.KernelIdeal.main_arg1 (Pipeline.mem_restRefs_of Cert.KernelIdeal.main_arg1 (by decide) (show ∀ w : Fin 5, (Cert.KernelIdeal.spec0 w).arr.view.ref ≠ Cert.KernelIdeal.main_arg1 from by decide))).trans (afterTail_arg1 m c),
      ((h c).2 Cert.KernelIdeal.main_arg2 (Pipeline.mem_restRefs_of Cert.KernelIdeal.main_arg2 (by decide) (show ∀ w : Fin 5, (Cert.KernelIdeal.spec0 w).arr.view.ref ≠ Cert.KernelIdeal.main_arg2 from by decide))).trans (afterTail_arg2 m c),
      ((h c).2 Cert.KernelIdeal.main_arg3 (Pipeline.mem_restRefs_of Cert.KernelIdeal.main_arg3 (by decide) (show ∀ w : Fin 5, (Cert.KernelIdeal.spec0 w).arr.view.ref ≠ Cert.KernelIdeal.main_arg3 from by decide))).trans (afterTail_arg3 m c),
      ((h c).2 Cert.KernelIdeal.main_arg4 (Pipeline.mem_restRefs_of Cert.KernelIdeal.main_arg4 (by decide) (show ∀ w : Fin 5, (Cert.KernelIdeal.spec0 w).arr.view.ref ≠ Cert.KernelIdeal.main_arg4 from by decide))).trans (afterTail_arg4 m c),
      ((h c).2 Cert.KernelIdeal.main_arg5 (Pipeline.mem_restRefs_of Cert.KernelIdeal.main_arg5 (by decide) (show ∀ w : Fin 5, (Cert.KernelIdeal.spec0 w).arr.view.ref ≠ Cert.KernelIdeal.main_arg5 from by decide))).trans (afterTail_arg5 m c)⟩
  · refine (θ_run Cert.ReferenceIdeal.defs _ _).mono (fun r h c => ?_) (Cert.ReferenceIdeal.RefRun.run_main (F := Ideal) m' ρ')
    exact ⟨(h c _).trans (bridge m m' hpre hagree c),
      (h c _).trans (Cert.ReferenceIdeal.RefRun.kept_arg0 _), (h c _).trans (Cert.ReferenceIdeal.RefRun.kept_arg1 _),
      (h c _).trans (Cert.ReferenceIdeal.RefRun.kept_arg2 _), (h c _).trans (Cert.ReferenceIdeal.RefRun.kept_arg3 _),
      (h c _).trans (Cert.ReferenceIdeal.RefRun.kept_arg4 _), (h c _).trans (Cert.ReferenceIdeal.RefRun.kept_arg5 _)⟩

end Cert.Proof.Alg

end
-- ==== Proof.lean ====
/-
  A capacity-routed mixture of experts: every (token, expert) pair is sorted by expert id (a stable argsort), numbered
  inside its expert's group (its sorted position less the group's start, the exclusive prefix sum of the histogram
  of the ids), written to row `expert * 2048 + number` of a zeroed buffer when the number is below the capacity 2048
  (to a spare last row otherwise), pushed through the expert's gated-SiLU MLP, read back from the same row, weighted
  (weight zero for an overflow pair) and summed per token.

  The kernel runs the MLP tile by tile, 512 rows at a time, and writes ZERO into a tile whose first row is at or past
  `min(count, 2048)` of its expert; the reference computes every row. With expert ids in [0, 16) a pair that is read
  back with a non-zero weight sits at a row whose number is below its group's size (Proof/LibSortRank.lean:
  `sub_start_lt`, with the histogram of Proof/LibBincount.lean and the prefix sum of Proof/LibCumsum.lean), hence
  in a tile the kernel computed, and an overflow pair's product with weight 0 is 0 on every extended real: that is
  why the two programs agree, and the precondition's range conjunct is what makes the numbering mean this.

  The equality of the results: Proof/Algebraic.lean over Proof/Bridge.lean. The reference's frame: Proof/RefRun.lean (its @main is one straight line of 158 host operations). The kernel's two
  frames: Proof/KRun.lean and its word-level twin Proof/BRun.lean (the host lines, the region point by point with both
  branches of the body, the host lines after it).
-/
import proofs.«122239_j24352464569736_2_alg».proof.Defs
import proofs.«122239_j24352464569736_2_alg».proof.Proof.Gen.Kernel
import proofs.«122239_j24352464569736_2_alg».proof.Proof.Gen.Kernel.Skeleton
import proofs.«122239_j24352464569736_2_alg».proof.Proof.Gen.Kernel.Launch
import proofs.«122239_j24352464569736_2_alg».proof.Proof.Gen.Kernel.Flash
import proofs.«122239_j24352464569736_2_alg».proof.Proof.Gen.KernelIdeal
import proofs.«122239_j24352464569736_2_alg».proof.Proof.Gen.KernelIdeal.Skeleton
import proofs.«122239_j24352464569736_2_alg».proof.Proof.Gen.KernelIdeal.Launch
import proofs.«122239_j24352464569736_2_alg».proof.Proof.Gen.KernelIdeal.Flash
import proofs.«122239_j24352464569736_2_alg».proof.Proof.Gen.ReferenceIdeal
import proofs.«122239_j24352464569736_2_alg».proof.Proof.Gen.Pre_finite_inputs
import proofs.«122239_j24352464569736_2_alg».proof.Proof.RefRun
import proofs.«122239_j24352464569736_2_alg».proof.Proof.KRun
import proofs.«122239_j24352464569736_2_alg».proof.Proof.BRun
import proofs.«122239_j24352464569736_2_alg».proof.Proof.Algebraic
import proofs.«122239_j24352464569736_2_alg».proof.Proof.LibSortRank
import proofs.«122239_j24352464569736_2_alg».proof.Proof.LibCumsum
import proofs.«122239_j24352464569736_2_alg».proof.Proof.LibBincount
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  ⟨fun m ρ _ => Cert.Kernel.Hand.frame (F := Bits) m ρ, fun m ρ _ => Cert.KernelIdeal.Hand.frame (F := Ideal) m ρ,
    Cert.Proof.Ref.frame_ri, trivial, Cert.Proof.Alg.algebraic⟩⟩

end Cert.Proof

end
